-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.named_const.Statement Cert.KernelIdeal.κ "inv_5120" .f32 0x394CCCCD#32 ((1 / 5120 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v112)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v112) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v136) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1000 : Shape := ⟨2, ![4096, 1000]⟩
abbrev S4096x512 : Shape := ⟨2, ![4096, 512]⟩
abbrev S1000 : Shape := ⟨1, ![1000]⟩
abbrev S4096 : Shape := ⟨1, ![4096]⟩
abbrev S_ : Shape := ⟨0, ![]⟩

class Facts : Prop where
  bcast_S_S4096x1000 : S_.BroadcastsInDim S4096x1000 (![] : Fin 0 → Fin S4096x1000.rank)
  reducesTo_S4096x1000_S_d0_1 : S4096x1000.ReducesTo [0, 1] S_
  h_S_ : 0 < S_.numel
  bcast_S_S4096x512 : S_.BroadcastsInDim S4096x512 (![] : Fin 0 → Fin S4096x512.rank)
  reducesTo_S4096x512_S_d0_1 : S4096x512.ReducesTo [0, 1] S_
  bcast_S_S1000 : S_.BroadcastsInDim S1000 (![] : Fin 0 → Fin S1000.rank)
  reducesTo_S1000_S_d0 : S1000.ReducesTo [0] S_

variable [Facts]

def fn_part1 {F : FTy → Type} [FloatOps F] (main_v13 : IVec S_ 1) (main_v16 : IVec S1000 1) : IVec S_ 1 :=
  let main_c_5 : IVec S_ 1 := constantI S_ 1 1#1
  let main_v17 : IVec S_ 1 := (fun x v => Host.reduce IntOp.andi x v reducesTo_S1000_S_d0 h_S_) main_v16 main_c_5
  let main_v18 : IVec S_ 1 := andi main_v13 main_v17
  main_v18

def fn {F : FTy → Type} [FloatOps F] (main_arg0 : FVec F S4096x1000 .f32) (main_arg1 : FVec F S4096x512 .f32) (main_arg2 : FVec F S1000 .f32) (main_arg3 : FVec F S1000 .f32) (main_arg4 : IVec S4096 32) : IVec S_ 1 :=
  let main_v0 : FVec F S4096x1000 .f32 := Host.absf main_arg0
  let main_cst : FVec F S_ .f32 := constant S_ .f32 0x7F800000#32
  let main_v1 : FVec F S4096x1000 .f32 := broadcastInDim S4096x1000 ![] bcast_S_S4096x1000 main_cst
  let main_v2 : IVec S4096x1000 1 := cmpf .olt main_v0 main_v1
  let main_c : IVec S_ 1 := constantI S_ 1 1#1
  let main_v3 : IVec S_ 1 := (fun x v => Host.reduce IntOp.andi x v reducesTo_S4096x1000_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  let main_v9 : FVec F S1000 .f32 := Host.absf main_arg2
  let main_cst_2 : FVec F S_ .f32 := constant S_ .f32 0x7F800000#32
  let main_v10 : FVec F S1000 .f32 := broadcastInDim S1000 ![] bcast_S_S1000 main_cst_2
  let main_v11 : IVec S1000 1 := cmpf .olt main_v9 main_v10
  let main_c_3 : IVec S_ 1 := constantI S_ 1 1#1
  let main_v12 : IVec S_ 1 := (fun x v => Host.reduce IntOp.andi x v reducesTo_S1000_S_d0 h_S_) main_v11 main_c_3
  let main_v13 : IVec S_ 1 := andi main_v8 main_v12
  let main_v14 : FVec F S1000 .f32 := Host.absf main_arg3
  let main_cst_4 : FVec F S_ .f32 := constant S_ .f32 0x7F800000#32
  let main_v15 : FVec F S1000 .f32 := broadcastInDim S1000 ![] bcast_S_S1000 main_cst_4
  let main_v16 : IVec S1000 1 := cmpf .olt main_v14 main_v15
  fn_part1 (F := F) main_v13 main_v16
-- ==== Kernel.lean ====
abbrev S4096x1000 : Shape := ⟨2, ![4096, 1000]⟩
abbrev S4096x512 : Shape := ⟨2, ![4096, 512]⟩
abbrev S1000 : Shape := ⟨1, ![1000]⟩
abbrev S4096 : Shape := ⟨1, ![4096]⟩
abbrev S_ : Shape := ⟨0, ![]⟩
abbrev S4096x1 : Shape := ⟨2, ![4096, 1]⟩
abbrev S1000x512 : Shape := ⟨2, ![1000, 512]⟩
abbrev S1000x1 : Shape := ⟨2, ![1000, 1]⟩
abbrev S4096x1x1 : Shape := ⟨3, ![4096, 1, 1]⟩
abbrev S1 : Shape := ⟨1, ![1]⟩
abbrev S1x1x1 : Shape := ⟨3, ![1, 1, 1]⟩
abbrev S1x4096 : Shape := ⟨2, ![1, 4096]⟩
abbrev S1x1 : Shape := ⟨2, ![1, 1]⟩
abbrev S512x512 : Shape := ⟨2, ![512, 512]⟩
abbrev S512x1 : Shape := ⟨2, ![512, 1]⟩
abbrev S1x512 : Shape := ⟨2, ![1, 512]⟩
abbrev S512 : Shape := ⟨1, ![512]⟩

abbrev nBuf : Space → Nat
  | .hbm => 195
  | .vmem => 16
  | .smem => 0
  | _ => 0

abbrev hbmTy0_0 (i : Nat) : BufTy := match i % 128 with
  | 0 => ⟨S4096x1000, .f32⟩
  | 1 => ⟨S4096x512, .f32⟩
  | 2 => ⟨S1000, .f32⟩
  | 3 => ⟨S1000, .f32⟩
  | 4 => ⟨S4096, .i32⟩
  | 5 => ⟨S_, .f32⟩
  | 6 => ⟨S4096, .f32⟩
  | 7 => ⟨S_, .f32⟩
  | 8 => ⟨S1000, .f32⟩
  | 9 => ⟨S4096x1, .i32⟩
  | 10 => ⟨S1000, .f32⟩
  | 11 => ⟨S_, .f32⟩
  | 12 => ⟨S1000x512, .f32⟩
  | 13 => ⟨S4096x1, .i32⟩
  | 14 => ⟨S1000x512, .f32⟩
  | 15 => ⟨S_, .f32⟩
  | 16 => ⟨S1000, .f32⟩
  | 17 => ⟨S1000, .f32⟩
  | 18 => ⟨S1000x1, .f32⟩
  | 19 => ⟨S1000x512, .f32⟩
  | 20 => ⟨S1000x512, .f32⟩
  | 21 => ⟨S1000x512, .f32⟩
  | 22 => ⟨S_, .f32⟩
  | 23 => ⟨S1000x512, .f32⟩
  | 24 => ⟨S1000x512, .f32⟩
  | 25 => ⟨S_, .f32⟩
  | 26 => ⟨S1000, .f32⟩
  | 27 => ⟨S_, .f32⟩
  | 28 => ⟨S1000, .f32⟩
  | 29 => ⟨S1000, .f32⟩
  | 30 => ⟨S_, .i32⟩
  | 31 => ⟨S4096, .i32⟩
  | 32 => ⟨S4096, .i1⟩
  | 33 => ⟨S_, .i32⟩
  | 34 => ⟨S4096, .i32⟩
  | 35 => ⟨S4096, .i32⟩
  | 36 => ⟨S4096, .i32⟩
  | 37 => ⟨S4096x1, .i32⟩
  | 38 => ⟨S4096x512, .f32⟩
  | 39 => ⟨S4096x512, .f32⟩
  | 40 => ⟨S4096x512, .f32⟩
  | 41 => ⟨S_, .f32⟩
  | 42 => ⟨S4096x512, .f32⟩
  | 43 => ⟨S4096x512, .f32⟩
  | 44 => ⟨S_, .f32⟩
  | 45 => ⟨S4096, .f32⟩
  | 46 => ⟨S_, .f32⟩
  | 47 => ⟨S4096, .f32⟩
  | 48 => ⟨S4096, .f32⟩
  | 49 => ⟨S_, .f32⟩
  | 50 => ⟨S1000, .f32⟩
  | 51 => ⟨S4096x1, .i32⟩
  | 52 => ⟨S1000, .f32⟩
  | 53 => ⟨S1000, .f32⟩
  | 54 => ⟨S_, .f32⟩
  | 55 => ⟨S1000, .f32⟩
  | 56 => ⟨S1000, .i1⟩
  | 57 => ⟨S1000, .i1⟩
  | 58 => ⟨S_, .f32⟩
  | 59 => ⟨S1000, .f32⟩
  | 60 => ⟨S1000, .i1⟩
  | 61 => ⟨S1000, .i1⟩
  | 62 => ⟨S_, .f32⟩
  | 63 => ⟨S1000, .f32⟩
  | 64 => ⟨S1000, .f32⟩
  | 65 => ⟨S_, .f32⟩
  | 66 => ⟨S1000, .f32⟩
  | 67 => ⟨S1000, .f32⟩
  | 68 => ⟨S1000, .f32⟩
  | 69 => ⟨S1000, .f32⟩
  | 70 => ⟨S_, .f32⟩
  | 71 => ⟨S1000, .f32⟩
  | 72 => ⟨S1000, .f32⟩
  | 73 => ⟨S_, .f32⟩
  | 74 => ⟨S1000, .f32⟩
  | 75 => ⟨S1000, .f32⟩
  | 76 => ⟨S1000, .f32⟩
  | 77 => ⟨S1000, .f32⟩
  | 78 => ⟨S1000, .f32⟩
  | 79 => ⟨S1000, .f32⟩
  | 80 => ⟨S1000, .f32⟩
  | 81 => ⟨S_, .f32⟩
  | 82 => ⟨S1000, .f32⟩
  | 83 => ⟨S1000, .f32⟩
  | 84 => ⟨S_, .f32⟩
  | 85 => ⟨S1000, .f32⟩
  | 86 => ⟨S1000, .f32⟩
  | 87 => ⟨S_, .f32⟩
  | 88 => ⟨S_, .f32⟩
  | 89 => ⟨S1000, .f32⟩
  | 90 => ⟨S1000, .f32⟩
  | 91 => ⟨S_, .i32⟩
  | 92 => ⟨S4096, .i32⟩
  | 93 => ⟨S4096, .i1⟩
  | 94 => ⟨S_, .i32⟩
  | 95 => ⟨S4096, .i32⟩
  | 96 => ⟨S4096, .i32⟩
  | 97 => ⟨S4096, .i32⟩
  | 98 => ⟨S4096x1, .i32⟩
  | 99 => ⟨S4096, .f32⟩
  | 100 => ⟨S4096x1, .f32⟩
  | 101 => ⟨S4096x1000, .f32⟩
  | 102 => ⟨S4096x1000, .f32⟩
  | 103 => ⟨S_, .f32⟩
  | 104 => ⟨S4096, .f32⟩
  | 105 => ⟨S_, .f32⟩
  | 106 => ⟨S4096, .f32⟩
  | 107 => ⟨S4096, .f32⟩
  | 108 => ⟨S4096x1, .f32⟩
  | 109 => ⟨S4096x1000, .f32⟩
  | 110 => ⟨S4096x1000, .f32⟩
  | 111 => ⟨S4096x1000, .f32⟩
  | 112 => ⟨S_, .f32⟩
  | 113 => ⟨S4096, .f32⟩
  | 114 => ⟨S4096x1, .f32⟩
  | 115 => ⟨S4096x1, .f32⟩
  | 116 => ⟨S4096x1000, .f32⟩
  | 117 => ⟨S4096x1000, .f32⟩
  | 118 => ⟨S4096x1, .i32⟩
  | 119 => ⟨S_, .i32⟩
  | 120 => ⟨S4096x1, .i32⟩
  | 121 => ⟨S4096x1, .i1⟩
  | 122 => ⟨S_, .i32⟩
  | 123 => ⟨S4096x1, .i32⟩
  | 124 => ⟨S4096x1, .i32⟩
  | 125 => ⟨S4096x1, .i32⟩
  | 126 => ⟨S4096x1x1, .i32⟩
  | 127 => ⟨S1, .i32⟩
  | _ => ⟨S4096x1000, .f32⟩

abbrev hbmTy0_1 (i : Nat) : BufTy := match i % 128 with
  | 0 => ⟨S_, .i32⟩
  | 1 => ⟨S4096x1x1, .i32⟩
  | 2 => ⟨S4096x1x1, .i1⟩
  | 3 => ⟨S1x1x1, .i32⟩
  | 4 => ⟨S4096x1x1, .i32⟩
  | 5 => ⟨S4096x1x1, .i1⟩
  | 6 => ⟨S4096x1x1, .i1⟩
  | 7 => ⟨S_, .i1⟩
  | 8 => ⟨S4096x1, .i1⟩
  | 9 => ⟨S4096x1, .f32⟩
  | 10 => ⟨S_, .f32⟩
  | 11 => ⟨S4096x1, .f32⟩
  | 12 => ⟨S4096x1, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S4096x512, .f32⟩
  | 23 => ⟨S_, .f32⟩
  | 24 => ⟨S4096, .f32⟩
  | 25 => ⟨S4096x1, .f32⟩
  | 26 => ⟨S1x4096, .f32⟩
  | 27 => ⟨S4096x1, .i32⟩
  | 28 => ⟨S1x4096, .i32⟩
  | 29 => ⟨S1x1, .f32⟩
  | 30 => ⟨S4096x1, .f32⟩
  | 31 => ⟨S4096, .f32⟩
  | 32 => ⟨S_, .i32⟩
  | 33 => ⟨S4096, .i32⟩
  | 34 => ⟨S4096, .i1⟩
  | 35 => ⟨S_, .i32⟩
  | 36 => ⟨S4096, .i32⟩
  | 37 => ⟨S4096, .i32⟩
  | 38 => ⟨S4096, .i32⟩
  | 39 => ⟨S4096x1, .i32⟩
  | 40 => ⟨S4096, .f32⟩
  | 41 => ⟨S_, .f32⟩
  | 42 => ⟨S4096, .f32⟩
  | 43 => ⟨S4096, .i1⟩
  | 44 => ⟨S_, .f32⟩
  | 45 => ⟨S_, .f32⟩
  | 46 => ⟨S4096, .f32⟩
  | 47 => ⟨S4096, .f32⟩
  | 48 => ⟨S_, .f32⟩
  | 49 => ⟨S1000, .f32⟩
  | 50 => ⟨S4096x1, .i32⟩
  | 51 => ⟨S1000, .f32⟩
  | 52 => ⟨S_, .f32⟩
  | 53 => ⟨S1000, .f32⟩
  | 54 => ⟨S1000, .f32⟩
  | 55 => ⟨S1000, .f32⟩
  | 56 => ⟨S_, .f32⟩
  | 57 => ⟨S_, .f32⟩
  | 58 => ⟨S_, .f32⟩
  | 59 => ⟨S_, .f32⟩
  | 60 => ⟨S_, .f32⟩
  | 61 => ⟨S_, .f32⟩
  | 62 => ⟨S_, .f32⟩
  | 63 => ⟨S_, .f32⟩
  | 64 => ⟨S_, .f32⟩
  | 65 => ⟨S_, .f32⟩
  | 66 => ⟨S_, .f32⟩
  | _ => ⟨S4096x1000, .f32⟩

abbrev hbmTy (i : Nat) : BufTy := match i / 128 with
  | 0 => hbmTy0_0 i
  | 1 => hbmTy0_1 i
  | _ => ⟨S4096x1000, .f32⟩

abbrev bufTy : (tb : Table) → Fin (tcTables nBuf tb) → BufTy
  | .hbm, ⟨i, _⟩ => hbmTy i
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x1, .f32⟩
  | .local _ .vmem, ⟨5, _⟩ => ⟨S512x1, .f32⟩
  | .local _ .vmem, ⟨6, _⟩ => ⟨S1x512, .f32⟩
  | .local _ .vmem, ⟨7, _⟩ => ⟨S1x512, .f32⟩
  | .local _ .vmem, ⟨8, _⟩ => ⟨S512x1, .i32⟩
  | .local _ .vmem, ⟨9, _⟩ => ⟨S512x1, .i32⟩
  | .local _ .vmem, ⟨10, _⟩ => ⟨S1x512, .i32⟩
  | .local _ .vmem, ⟨11, _⟩ => ⟨S1x512, .i32⟩
  | .local _ .vmem, ⟨12, _⟩ => ⟨S1x1, .f32⟩
  | .local _ .vmem, ⟨13, _⟩ => ⟨S512x1, .f32⟩
  | .local _ .vmem, ⟨14, _⟩ => ⟨S512x1, .f32⟩
  | .local _ .vmem, ⟨15, _⟩ => ⟨S512x1, .f32⟩
  | _, _ => ⟨S4096x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_c : Ref sig .tc := ⟨.hbm, 30, rfl⟩
abbrev main_v18 : Ref sig .tc := ⟨.hbm, 31, rfl⟩
abbrev main_v19 : Ref sig .tc := ⟨.hbm, 32, rfl⟩
abbrev main_c_6 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_7 : Ref sig .tc := ⟨.hbm, 41, rfl⟩
abbrev main_v27 : Ref sig .tc := ⟨.hbm, 42, rfl⟩
abbrev main_v28 : Ref sig .tc := ⟨.hbm, 43, rfl⟩
abbrev main_cst_8 : Ref sig .tc := ⟨.hbm, 44, rfl⟩
abbrev main_v29 : Ref sig .tc := ⟨.hbm, 45, rfl⟩
abbrev main_cst_9 : Ref sig .tc := ⟨.hbm, 46, rfl⟩
abbrev main_v30 : Ref sig .tc := ⟨.hbm, 47, rfl⟩
abbrev main_v31 : Ref sig .tc := ⟨.hbm, 48, rfl⟩
abbrev main_cst_10 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_11 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_12 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_13 : Ref sig .tc := ⟨.hbm, 62, rfl⟩
abbrev main_v42 : Ref sig .tc := ⟨.hbm, 63, rfl⟩
abbrev main_v43 : Ref sig .tc := ⟨.hbm, 64, rfl⟩
abbrev main_cst_14 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_15 : Ref sig .tc := ⟨.hbm, 70, rfl⟩
abbrev main_v48 : Ref sig .tc := ⟨.hbm, 71, rfl⟩
abbrev main_v49 : Ref sig .tc := ⟨.hbm, 72, rfl⟩
abbrev main_cst_16 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_17 : Ref sig .tc := ⟨.hbm, 81, rfl⟩
abbrev main_v57 : Ref sig .tc := ⟨.hbm, 82, rfl⟩
abbrev main_v58 : Ref sig .tc := ⟨.hbm, 83, rfl⟩
abbrev main_cst_18 : Ref sig .tc := ⟨.hbm, 84, rfl⟩
abbrev main_v59 : Ref sig .tc := ⟨.hbm, 85, rfl⟩
abbrev main_v60 : Ref sig .tc := ⟨.hbm, 86, rfl⟩
abbrev main_cst_19 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_c_20 : Ref sig .tc := ⟨.hbm, 91, rfl⟩
abbrev main_v64 : Ref sig .tc := ⟨.hbm, 92, rfl⟩
abbrev main_v65 : Ref sig .tc := ⟨.hbm, 93, rfl⟩
abbrev main_c_21 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_call4_cst : Ref sig .tc := ⟨.hbm, 103, rfl⟩
abbrev main_call4_v0 : Ref sig .tc := ⟨.hbm, 104, rfl⟩
abbrev main_call4_cst_0 : Ref sig .tc := ⟨.hbm, 105, rfl⟩
abbrev main_call4_v1 : Ref sig .tc := ⟨.hbm, 106, rfl⟩
abbrev main_call4_v2 : Ref sig .tc := ⟨.hbm, 107, rfl⟩
abbrev main_call4_v3 : Ref sig .tc := ⟨.hbm, 108, rfl⟩
abbrev main_call4_v4 : Ref sig .tc := ⟨.hbm, 109, rfl⟩
abbrev main_call4_v5 : Ref sig .tc := ⟨.hbm, 110, rfl⟩
abbrev main_call4_v6 : Ref sig .tc := ⟨.hbm, 111, rfl⟩
abbrev main_call4_cst_1 : Ref sig .tc := ⟨.hbm, 112, rfl⟩
abbrev main_call4_v7 : Ref sig .tc := ⟨.hbm, 113, rfl⟩
abbrev main_call4_v8 : Ref sig .tc := ⟨.hbm, 114, rfl⟩
abbrev main_call4_v9 : Ref sig .tc := ⟨.hbm, 115, rfl⟩
abbrev main_call4_v10 : Ref sig .tc := ⟨.hbm, 116, rfl⟩
abbrev main_v74 : Ref sig .tc := ⟨.hbm, 117, rfl⟩
abbrev main_v75 : Ref sig .tc := ⟨.hbm, 118, rfl⟩
abbrev main_call5_c : Ref sig .tc := ⟨.hbm, 119, rfl⟩
abbrev main_call5_v0 : Ref sig .tc := ⟨.hbm, 120, rfl⟩
abbrev main_call5_v1 : Ref sig .tc := ⟨.hbm, 121, rfl⟩
abbrev main_call5_c_0 : Ref sig .tc := ⟨.hbm, 122, rfl⟩
abbrev main_call5_v2 : Ref sig .tc := ⟨.hbm, 123, rfl⟩
abbrev main_call5_v3 : Ref sig .tc := ⟨.hbm, 124, rfl⟩
abbrev main_call5_v4 : Ref sig .tc := ⟨.hbm, 125, rfl⟩
abbrev main_call5_v5 : Ref sig .tc := ⟨.hbm, 126, rfl⟩
abbrev main_call5_c_1 : Ref sig .tc := ⟨.hbm, 127, rfl⟩
abbrev main_call5_c_2 : Ref sig .tc := ⟨.hbm, 128, rfl⟩
abbrev main_call5_v6 : Ref sig .tc := ⟨.hbm, 129, rfl⟩
abbrev main_call5_v7 : Ref sig .tc := ⟨.hbm, 130, rfl⟩
abbrev main_call5_v8 : Ref sig .tc := ⟨.hbm, 131, rfl⟩
abbrev main_call5_v9 : Ref sig .tc := ⟨.hbm, 132, rfl⟩
abbrev main_call5_v10 : Ref sig .tc := ⟨.hbm, 133, rfl⟩
abbrev main_call5_v11 : Ref sig .tc := ⟨.hbm, 134, rfl⟩
abbrev main_call5_c_3 : Ref sig .tc := ⟨.hbm, 135, rfl⟩
abbrev main_call5_v12 : Ref sig .tc := ⟨.hbm, 136, rfl⟩
abbrev main_call5_v13 : Ref sig .tc := ⟨.hbm, 137, rfl⟩
abbrev main_call5_cst : Ref sig .tc := ⟨.hbm, 138, rfl⟩
abbrev main_call5_v14 : Ref sig .tc := ⟨.hbm, 139, rfl⟩
abbrev main_v76 : Ref sig .tc := ⟨.hbm, 140, rfl⟩
abbrev main_cst_22 : Ref sig .tc := ⟨.hbm, 141, rfl⟩
abbrev main_v77 : Ref sig .tc := ⟨.hbm, 142, rfl⟩
abbrev main_cst_23 : Ref sig .tc := ⟨.hbm, 143, rfl⟩
abbrev main_v78 : Ref sig .tc := ⟨.hbm, 144, rfl⟩
abbrev main_v79 : Ref sig .tc := ⟨.hbm, 145, rfl⟩
abbrev main_cst_24 : Ref sig .tc := ⟨.hbm, 146, rfl⟩
abbrev main_v80 : Ref sig .tc := ⟨.hbm, 147, rfl⟩
abbrev main_cst_25 : Ref sig .tc := ⟨.hbm, 148, rfl⟩
abbrev main_v81 : Ref sig .tc := ⟨.hbm, 149, rfl⟩
abbrev main_v82 : Ref sig .tc := ⟨.hbm, 150, rfl⟩
abbrev main_cst_26 : Ref sig .tc := ⟨.hbm, 151, rfl⟩
abbrev main_v83 : Ref sig .tc := ⟨.hbm, 152, rfl⟩
abbrev main_v84 : Ref sig .tc := ⟨.hbm, 153, rfl⟩
abbrev main_v85 : Ref sig .tc := ⟨.hbm, 154, rfl⟩
abbrev main_v86 : Ref sig .tc := ⟨.hbm, 155, rfl⟩
abbrev main_v87 : Ref sig .tc := ⟨.hbm, 156, rfl⟩
abbrev main_v88 : Ref sig .tc := ⟨.hbm, 157, rfl⟩
abbrev main_v89 : Ref sig .tc := ⟨.hbm, 158, rfl⟩
abbrev main_v90 : Ref sig .tc := ⟨.hbm, 159, rfl⟩
abbrev main_c_27 : Ref sig .tc := ⟨.hbm, 160, rfl⟩
abbrev main_v91 : Ref sig .tc := ⟨.hbm, 161, rfl⟩
abbrev main_v92 : Ref sig .tc := ⟨.hbm, 162, rfl⟩
abbrev main_c_28 : Ref sig .tc := ⟨.hbm, 163, rfl⟩
abbrev main_v93 : Ref sig .tc := ⟨.hbm, 164, rfl⟩
abbrev main_v94 : Ref sig .tc := ⟨.hbm, 165, rfl⟩
abbrev main_v95 : Ref sig .tc := ⟨.hbm, 166, rfl⟩
abbrev main_v96 : Ref sig .tc := ⟨.hbm, 167, rfl⟩
abbrev main_v97 : Ref sig .tc := ⟨.hbm, 168, rfl⟩
abbrev main_cst_29 : Ref sig .tc := ⟨.hbm, 169, rfl⟩
abbrev main_v98 : Ref sig .tc := ⟨.hbm, 170, rfl⟩
abbrev main_v99 : Ref sig .tc := ⟨.hbm, 171, rfl⟩
abbrev main_cst_30 : Ref sig .tc := ⟨.hbm, 172, rfl⟩
abbrev main_call6_v0 : Ref sig .tc := ⟨.hbm, 173, rfl⟩
abbrev main_call6_v1 : Ref sig .tc := ⟨.hbm, 174, rfl⟩
abbrev main_v100 : Ref sig .tc := ⟨.hbm, 175, rfl⟩
abbrev main_cst_31 : Ref sig .tc := ⟨.hbm, 176, rfl⟩
abbrev main_v101 : Ref sig .tc := ⟨.hbm, 177, rfl⟩
abbrev main_v102 : Ref sig .tc := ⟨.hbm, 178, rfl⟩
abbrev main_v103 : Ref sig .tc := ⟨.hbm, 179, rfl⟩
abbrev main_cst_32 : Ref sig .tc := ⟨.hbm, 180, rfl⟩
abbrev main_v104 : Ref sig .tc := ⟨.hbm, 181, rfl⟩
abbrev main_v105 : Ref sig .tc := ⟨.hbm, 182, rfl⟩
abbrev main_v106 : Ref sig .tc := ⟨.hbm, 183, rfl⟩
abbrev main_cst_33 : Ref sig .tc := ⟨.hbm, 184, rfl⟩
abbrev main_v107 : Ref sig .tc := ⟨.hbm, 185, rfl⟩
abbrev main_cst_34 : Ref sig .tc := ⟨.hbm, 186, rfl⟩
abbrev main_v108 : Ref sig .tc := ⟨.hbm, 187, rfl⟩
abbrev main_cst_35 : Ref sig .tc := ⟨.hbm, 188, rfl⟩
abbrev main_v109 : Ref sig .tc := ⟨.hbm, 189, rfl⟩
abbrev main_cst_36 : Ref sig .tc := ⟨.hbm, 190, rfl⟩
abbrev main_v110 : Ref sig .tc := ⟨.hbm, 191, rfl⟩
abbrev main_cst_37 : Ref sig .tc := ⟨.hbm, 192, rfl⟩
abbrev main_v111 : Ref sig .tc := ⟨.hbm, 193, rfl⟩
abbrev main_v112 : Ref sig .tc := ⟨.hbm, 194, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v56 : BitVec 1 := Scalar.cmpi .eq arg1 c7_i32
  let v57 : BitVec 32 := Scalar.extui v56
  let c0_i32_24 : BitVec 32 := 0#32
  let v58 : BitVec 1 := Scalar.cmpi .ne v57 c0_i32_24
  v58

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  bcast_S_S4096 : S_.BroadcastsInDim S4096 (![] : Fin 0 → Fin S4096.rank)
  bcast_S_S1000 : S_.BroadcastsInDim S1000 (![] : Fin 0 → Fin S1000.rank)
  bcast_S4096_S4096x1_0 : S4096.BroadcastsInDim S4096x1 (![0] : Fin 1 → Fin S4096x1.rank)
  bcast_S_S1000x512 : S_.BroadcastsInDim S1000x512 (![] : Fin 0 → Fin S1000x512.rank)
  bcast_S1000_S1000x1_0 : S1000.BroadcastsInDim S1000x1 (![0] : Fin 1 → Fin S1000x1.rank)
  bcast_S1000x1_S1000x512_0_1 : S1000x1.BroadcastsInDim S1000x512 (![0, 1] : Fin 2 → Fin S1000x512.rank)
  reducesTo_S1000x512_S1000_d1 : S1000x512.ReducesTo [1] S1000
  h_S_ : 0 < S_.numel
  bcast_S_S4096x512 : S_.BroadcastsInDim S4096x512 (![] : Fin 0 → Fin S4096x512.rank)
  reducesTo_S4096x512_S4096_d1 : S4096x512.ReducesTo [1] S4096
  reducesTo_S1000_S_d0 : S1000.ReducesTo [0] S_
  bcast_S4096x1_S4096x1000_0_1 : S4096x1.BroadcastsInDim S4096x1000 (![0, 1] : Fin 2 → Fin S4096x1000.rank)
  reducesTo_S4096x1000_S4096_d1 : S4096x1000.ReducesTo [1] S4096
  bcast_S_S4096x1 : S_.BroadcastsInDim S4096x1 (![] : Fin 0 → Fin S4096x1.rank)
  shapeCasts_S4096x1_S4096x1x1 : S4096x1.ShapeCasts S4096x1x1
  bcast_S_S4096x1x1 : S_.BroadcastsInDim S4096x1x1 (![] : Fin 0 → Fin S4096x1x1.rank)
  bcast_S1_S1x1x1_2 : S1.BroadcastsInDim S1x1x1 (![2] : Fin 1 → Fin S1x1x1.rank)
  bcast_S1x1x1_S4096x1x1_0_1_2 : S1x1x1.BroadcastsInDim S4096x1x1 (![0, 1, 2] : Fin 3 → Fin S4096x1x1.rank)
  reducesTo_S4096x1x1_S4096x1_d2 : S4096x1x1.ReducesTo [2] S4096x1
  reducesTo_S4096x1_S_d0_1 : S4096x1.ReducesTo [0, 1] S_
  shapeCasts_S4096_S4096x1 : S4096.ShapeCasts S4096x1
  shapeCasts_S4096_S1x4096 : S4096.ShapeCasts S1x4096
  shapeCasts_S_S1x1 : S_.ShapeCasts S1x1
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x512_S512x512_0_0 : ∀ a, (![0, 0] : Fin 2 → Nat) a + S512x512.size a ≤ S512x512.size a
  h_S512x512 : 0 < S512x512.numel
  bitsLt_bf16_f32 : FTy.bits .bf16 < FTy.bits .f32
  transposes_S512x512_p1_0_S512x512 : S512x512.Transposes [1, 0] S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S512x1_S512x512 : S512x1.Broadcasts S512x512
  broadcasts_S1x512_S512x512 : S1x512.Broadcasts S512x512
  iota_S512x1_d0_w32 : S512x1.Iotas .tc 32 [0]
  iota_S1x512_d1_w32 : S1x512.Iotas .tc 32 [1]
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x512 : S1x1.Broadcasts S512x512
  reduces_S512x512_S512 : S512x512.Reduces [1] S512
  shapeCasts_S512_S512x1 : S512.ShapeCasts S512x1
  shapeCasts_S4096x1_S4096 : S4096x1.ShapeCasts S4096
  scatter_S1000_S4096x1_S4096_n_0_0_1_wf : ScatterDims.WF S1000 S4096x1 S4096 [] [0] [0] 1
  scatter_S1000x512_S4096x1_S4096x512_1_0_0_1_wf : ScatterDims.WF S1000x512 S4096x1 S4096x512 [1] [0] [0] 1
  gather_S1000x512_S4096x1_S4096x512_1_0_n_n_0_1_1512_wf : GatherDims.WF S1000x512 S4096x1 S4096x512 [1] [0] [] [0] [] 1 ![1, 512]
  gather_S1000_S4096x1_S4096_n_0_n_n_0_1_1_wf : GatherDims.WF S1000 S4096x1 S4096 [] [0] [] [0] [] 1 ![1]
  gather_S4096x1000_S4096x1x1_S4096x1_n_1_0_0_1_2_11_wf : GatherDims.WF S4096x1000 S4096x1x1 S4096x1 [] [1] [0] [1] [0] 2 ![1, 1]
  dot_S512x512_S512x512_S512x512_1_0_0_1_n_n_wf : DotDims.WF S512x512 S512x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S4096x512.size a
  hwx0_0 : ∀ i : grid0.Coords, EltTy.bits .f32 = 32 ∨ (Rect.block (s := S4096x512) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S4096x512.size a
  hwx0_1 : ∀ i : grid0.Coords, EltTy.bits .f32 = 32 ∨ (Rect.block (s := S4096x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S4096x1.size a
  hwx0_2 : ∀ i : grid0.Coords, EltTy.bits .f32 = 32 ∨ (Rect.block (s := S4096x1) S512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x4096.size a
  hwx0_3 : ∀ i : grid0.Coords, EltTy.bits .f32 = 32 ∨ (Rect.block (s := S1x4096) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S4096x1.size a
  hwx0_4 : ∀ i : grid0.Coords, EltTy.bits .i32 = 32 ∨ (Rect.block (s := S4096x1) S512x1.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x4096.size a
  hwx0_5 : ∀ i : grid0.Coords, EltTy.bits .i32 = 32 ∨ (Rect.block (s := S1x4096) S1x512.size (cc0_transform_5 i) (hinb0_5 i)).WholeWords (EltTy.packing .i32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x1.size a ≤ S4096x1.size a
  hwx0_7 : ∀ i : grid0.Coords, EltTy.bits .f32 = 32 ∨ (Rect.block (s := S4096x1) S512x1.size (cc0_transform_7 i) (hinb0_7 i)).WholeWords (EltTy.packing .f32)

variable [Facts₀]

def scatter_S1000_S4096x1_S4096_n_0_0_1 : ScatterDims S1000 S4096x1 S4096 where
  updateWindowDims := []
  insertedWindowDims := [0]
  scatterDimsToOperandDims := [0]
  indexVectorDim := 1
  wf := scatter_S1000_S4096x1_S4096_n_0_0_1_wf
def scatter_S1000x512_S4096x1_S4096x512_1_0_0_1 : ScatterDims S1000x512 S4096x1 S4096x512 where
  updateWindowDims := [1]
  insertedWindowDims := [0]
  scatterDimsToOperandDims := [0]
  indexVectorDim := 1
  wf := scatter_S1000x512_S4096x1_S4096x512_1_0_0_1_wf
def gather_S1000x512_S4096x1_S4096x512_1_0_n_n_0_1_1512 : GatherDims S1000x512 S4096x1 S4096x512 where
  offsetDims := [1]
  collapsedSliceDims := [0]
  operandBatchingDims := []
  startIndicesBatchingDims := []
  startIndexMap := [0]
  indexVectorDim := 1
  sliceSizes := ![1, 512]
  wf := gather_S1000x512_S4096x1_S4096x512_1_0_n_n_0_1_1512_wf
def gather_S1000_S4096x1_S4096_n_0_n_n_0_1_1 : GatherDims S1000 S4096x1 S4096 where
  offsetDims := []
  collapsedSliceDims := [0]
  operandBatchingDims := []
  startIndicesBatchingDims := []
  startIndexMap := [0]
  indexVectorDim := 1
  sliceSizes := ![1]
  wf := gather_S1000_S4096x1_S4096_n_0_n_n_0_1_1_wf
def gather_S4096x1000_S4096x1x1_S4096x1_n_1_0_0_1_2_11 : GatherDims S4096x1000 S4096x1x1 S4096x1 where
  offsetDims := []
  collapsedSliceDims := [1]
  operandBatchingDims := [0]
  startIndicesBatchingDims := [0]
  startIndexMap := [1]
  indexVectorDim := 2
  sliceSizes := ![1, 1]
  wf := gather_S4096x1000_S4096x1x1_S4096x1_n_1_0_0_1_2_11_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

abbrev win0_0 : Pipeline.Window sig grid0 :=
  Pipeline.Window.ofSpec (Memref.whole main_arg1) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v84) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v85) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v86) S512x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v87) S1x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v88) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v89) S512x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

class Facts : Prop extends Facts₀ where

variable [Facts]
-- ==== ReferenceIdeal.lean ====
abbrev S4096x1000 : Shape := ⟨2, ![4096, 1000]⟩
abbrev S4096x512 : Shape := ⟨2, ![4096, 512]⟩
abbrev S1000 : Shape := ⟨1, ![1000]⟩
abbrev S4096 : Shape := ⟨1, ![4096]⟩
abbrev S_ : Shape := ⟨0, ![]⟩
abbrev S4096x1 : Shape := ⟨2, ![4096, 1]⟩
abbrev S1000x512 : Shape := ⟨2, ![1000, 512]⟩
abbrev S1000x1 : Shape := ⟨2, ![1000, 1]⟩
abbrev S4096x1x1 : Shape := ⟨3, ![4096, 1, 1]⟩
abbrev S1 : Shape := ⟨1, ![1]⟩
abbrev S1x1x1 : Shape := ⟨3, ![1, 1, 1]⟩
abbrev S1x4096 : Shape := ⟨2, ![1, 4096]⟩
abbrev S4096x4096 : Shape := ⟨2, ![4096, 4096]⟩
abbrev S512x4096 : Shape := ⟨2, ![512, 4096]⟩

abbrev nBuf : Space → Nat
  | .hbm => 227
  | .vmem => 0
  | .smem => 0
  | _ => 0

abbrev hbmTy0_0 (i : Nat) : BufTy := match i % 128 with
  | 0 => ⟨S4096x1000, .f32⟩
  | 1 => ⟨S4096x512, .f32⟩
  | 2 => ⟨S1000, .f32⟩
  | 3 => ⟨S1000, .f32⟩
  | 4 => ⟨S4096, .i32⟩
  | 5 => ⟨S_, .f32⟩
  | 6 => ⟨S4096, .f32⟩
  | 7 => ⟨S_, .f32⟩
  | 8 => ⟨S1000, .f32⟩
  | 9 => ⟨S4096x1, .i32⟩
  | 10 => ⟨S1000, .f32⟩
  | 11 => ⟨S_, .f32⟩
  | 12 => ⟨S1000x512, .f32⟩
  | 13 => ⟨S4096x1, .i32⟩
  | 14 => ⟨S1000x512, .f32⟩
  | 15 => ⟨S_, .f32⟩
  | 16 => ⟨S1000, .f32⟩
  | 17 => ⟨S1000, .f32⟩
  | 18 => ⟨S1000x1, .f32⟩
  | 19 => ⟨S1000x512, .f32⟩
  | 20 => ⟨S1000x512, .f32⟩
  | 21 => ⟨S1000x512, .f32⟩
  | 22 => ⟨S_, .f32⟩
  | 23 => ⟨S1000x512, .f32⟩
  | 24 => ⟨S1000x512, .f32⟩
  | 25 => ⟨S_, .f32⟩
  | 26 => ⟨S1000, .f32⟩
  | 27 => ⟨S_, .f32⟩
  | 28 => ⟨S1000, .f32⟩
  | 29 => ⟨S1000, .f32⟩
  | 30 => ⟨S_, .i32⟩
  | 31 => ⟨S4096, .i32⟩
  | 32 => ⟨S4096, .i1⟩
  | 33 => ⟨S_, .i32⟩
  | 34 => ⟨S4096, .i32⟩
  | 35 => ⟨S4096, .i32⟩
  | 36 => ⟨S4096, .i32⟩
  | 37 => ⟨S4096x1, .i32⟩
  | 38 => ⟨S4096x512, .f32⟩
  | 39 => ⟨S4096x512, .f32⟩
  | 40 => ⟨S4096x512, .f32⟩
  | 41 => ⟨S_, .f32⟩
  | 42 => ⟨S4096x512, .f32⟩
  | 43 => ⟨S4096x512, .f32⟩
  | 44 => ⟨S_, .f32⟩
  | 45 => ⟨S4096, .f32⟩
  | 46 => ⟨S_, .f32⟩
  | 47 => ⟨S4096, .f32⟩
  | 48 => ⟨S4096, .f32⟩
  | 49 => ⟨S_, .f32⟩
  | 50 => ⟨S1000, .f32⟩
  | 51 => ⟨S4096x1, .i32⟩
  | 52 => ⟨S1000, .f32⟩
  | 53 => ⟨S1000, .f32⟩
  | 54 => ⟨S_, .f32⟩
  | 55 => ⟨S1000, .f32⟩
  | 56 => ⟨S1000, .i1⟩
  | 57 => ⟨S1000, .i1⟩
  | 58 => ⟨S_, .f32⟩
  | 59 => ⟨S1000, .f32⟩
  | 60 => ⟨S1000, .i1⟩
  | 61 => ⟨S1000, .i1⟩
  | 62 => ⟨S_, .f32⟩
  | 63 => ⟨S1000, .f32⟩
  | 64 => ⟨S1000, .f32⟩
  | 65 => ⟨S_, .f32⟩
  | 66 => ⟨S1000, .f32⟩
  | 67 => ⟨S1000, .f32⟩
  | 68 => ⟨S1000, .f32⟩
  | 69 => ⟨S1000, .f32⟩
  | 70 => ⟨S_, .f32⟩
  | 71 => ⟨S1000, .f32⟩
  | 72 => ⟨S1000, .f32⟩
  | 73 => ⟨S_, .f32⟩
  | 74 => ⟨S1000, .f32⟩
  | 75 => ⟨S1000, .f32⟩
  | 76 => ⟨S1000, .f32⟩
  | 77 => ⟨S1000, .f32⟩
  | 78 => ⟨S1000, .f32⟩
  | 79 => ⟨S1000, .f32⟩
  | 80 => ⟨S1000, .f32⟩
  | 81 => ⟨S_, .f32⟩
  | 82 => ⟨S1000, .f32⟩
  | 83 => ⟨S1000, .f32⟩
  | 84 => ⟨S_, .f32⟩
  | 85 => ⟨S1000, .f32⟩
  | 86 => ⟨S1000, .f32⟩
  | 87 => ⟨S_, .f32⟩
  | 88 => ⟨S_, .f32⟩
  | 89 => ⟨S1000, .f32⟩
  | 90 => ⟨S1000, .f32⟩
  | 91 => ⟨S_, .i32⟩
  | 92 => ⟨S4096, .i32⟩
  | 93 => ⟨S4096, .i1⟩
  | 94 => ⟨S_, .i32⟩
  | 95 => ⟨S4096, .i32⟩
  | 96 => ⟨S4096, .i32⟩
  | 97 => ⟨S4096, .i32⟩
  | 98 => ⟨S4096x1, .i32⟩
  | 99 => ⟨S4096, .f32⟩
  | 100 => ⟨S4096x1, .f32⟩
  | 101 => ⟨S4096x1000, .f32⟩
  | 102 => ⟨S4096x1000, .f32⟩
  | 103 => ⟨S_, .f32⟩
  | 104 => ⟨S4096, .f32⟩
  | 105 => ⟨S_, .f32⟩
  | 106 => ⟨S4096, .f32⟩
  | 107 => ⟨S4096, .f32⟩
  | 108 => ⟨S4096x1, .f32⟩
  | 109 => ⟨S4096x1000, .f32⟩
  | 110 => ⟨S4096x1000, .f32⟩
  | 111 => ⟨S4096x1000, .f32⟩
  | 112 => ⟨S_, .f32⟩
  | 113 => ⟨S4096, .f32⟩
  | 114 => ⟨S4096x1, .f32⟩
  | 115 => ⟨S4096x1, .f32⟩
  | 116 => ⟨S4096x1000, .f32⟩
  | 117 => ⟨S4096x1000, .f32⟩
  | 118 => ⟨S4096x1, .i32⟩
  | 119 => ⟨S_, .i32⟩
  | 120 => ⟨S4096x1, .i32⟩
  | 121 => ⟨S4096x1, .i1⟩
  | 122 => ⟨S_, .i32⟩
  | 123 => ⟨S4096x1, .i32⟩
  | 124 => ⟨S4096x1, .i32⟩
  | 125 => ⟨S4096x1, .i32⟩
  | 126 => ⟨S4096x1x1, .i32⟩
  | 127 => ⟨S1, .i32⟩
  | _ => ⟨S4096x1000, .f32⟩

abbrev hbmTy0_1 (i : Nat) : BufTy := match i % 128 with
  | 0 => ⟨S_, .i32⟩
  | 1 => ⟨S4096x1x1, .i32⟩
  | 2 => ⟨S4096x1x1, .i1⟩
  | 3 => ⟨S1x1x1, .i32⟩
  | 4 => ⟨S4096x1x1, .i32⟩
  | 5 => ⟨S4096x1x1, .i1⟩
  | 6 => ⟨S4096x1x1, .i1⟩
  | 7 => ⟨S_, .i1⟩
  | 8 => ⟨S4096x1, .i1⟩
  | 9 => ⟨S4096x1, .f32⟩
  | 10 => ⟨S_, .f32⟩
  | 11 => ⟨S4096x1, .f32⟩
  | 12 => ⟨S4096x1, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S4096x512, .f32⟩
  | 23 => ⟨S_, .f32⟩
  | 24 => ⟨S4096, .f32⟩
  | 25 => ⟨S4096x1, .f32⟩
  | 26 => ⟨S1x4096, .f32⟩
  | 27 => ⟨S4096x4096, .f32⟩
  | 28 => ⟨S4096x4096, .f32⟩
  | 29 => ⟨S4096x4096, .f32⟩
  | 30 => ⟨S512x4096, .f32⟩
  | 31 => ⟨S4096x4096, .f32⟩
  | 32 => ⟨S_, .f32⟩
  | 33 => ⟨S4096x4096, .f32⟩
  | 34 => ⟨S4096x4096, .f32⟩
  | 35 => ⟨S4096x4096, .f32⟩
  | 36 => ⟨S4096x1, .i32⟩
  | 37 => ⟨S1x4096, .i32⟩
  | 38 => ⟨S4096x4096, .i32⟩
  | 39 => ⟨S4096x4096, .i32⟩
  | 40 => ⟨S4096x4096, .i1⟩
  | 41 => ⟨S4096x4096, .i32⟩
  | 42 => ⟨S4096x4096, .i32⟩
  | 43 => ⟨S_, .i32⟩
  | 44 => ⟨S4096x4096, .i32⟩
  | 45 => ⟨S4096x4096, .i32⟩
  | 46 => ⟨S4096x4096, .i1⟩
  | 47 => ⟨S4096x4096, .i1⟩
  | 48 => ⟨S4096x4096, .i1⟩
  | 49 => ⟨S_, .f32⟩
  | 50 => ⟨S_, .f32⟩
  | 51 => ⟨S4096x4096, .f32⟩
  | 52 => ⟨S4096x4096, .f32⟩
  | 53 => ⟨S_, .f32⟩
  | 54 => ⟨S4096x4096, .f32⟩
  | 55 => ⟨S4096x4096, .f32⟩
  | 56 => ⟨S4096x4096, .f32⟩
  | 57 => ⟨S_, .f32⟩
  | 58 => ⟨S_, .f32⟩
  | 59 => ⟨S4096x4096, .f32⟩
  | 60 => ⟨S4096x4096, .f32⟩
  | 61 => ⟨S_, .f32⟩
  | 62 => ⟨S4096, .f32⟩
  | 63 => ⟨S4096, .f32⟩
  | 64 => ⟨S_, .i32⟩
  | 65 => ⟨S4096, .i32⟩
  | 66 => ⟨S4096, .i1⟩
  | 67 => ⟨S_, .i32⟩
  | 68 => ⟨S4096, .i32⟩
  | 69 => ⟨S4096, .i32⟩
  | 70 => ⟨S4096, .i32⟩
  | 71 => ⟨S4096x1, .i32⟩
  | 72 => ⟨S4096, .f32⟩
  | 73 => ⟨S_, .f32⟩
  | 74 => ⟨S4096, .f32⟩
  | 75 => ⟨S4096, .i1⟩
  | 76 => ⟨S_, .f32⟩
  | 77 => ⟨S_, .f32⟩
  | 78 => ⟨S4096, .f32⟩
  | 79 => ⟨S4096, .f32⟩
  | 80 => ⟨S_, .f32⟩
  | 81 => ⟨S1000, .f32⟩
  | 82 => ⟨S4096x1, .i32⟩
  | 83 => ⟨S1000, .f32⟩
  | 84 => ⟨S_, .f32⟩
  | 85 => ⟨S1000, .f32⟩
  | 86 => ⟨S1000, .f32⟩
  | 87 => ⟨S1000, .f32⟩
  | 88 => ⟨S_, .f32⟩
  | 89 => ⟨S_, .f32⟩
  | 90 => ⟨S_, .f32⟩
  | 91 => ⟨S_, .f32⟩
  | 92 => ⟨S_, .f32⟩
  | 93 => ⟨S_, .f32⟩
  | 94 => ⟨S_, .f32⟩
  | 95 => ⟨S_, .f32⟩
  | 96 => ⟨S_, .f32⟩
  | 97 => ⟨S_, .f32⟩
  | 98 => ⟨S_, .f32⟩
  | _ => ⟨S4096x1000, .f32⟩

abbrev hbmTy (i : Nat) : BufTy := match i / 128 with
  | 0 => hbmTy0_0 i
  | 1 => hbmTy0_1 i
  | _ => ⟨S4096x1000, .f32⟩

abbrev bufTy : (tb : Table) → Fin (tcTables nBuf tb) → BufTy
  | .hbm, ⟨i, _⟩ => hbmTy i
  | _, _ => ⟨S4096x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_c : Ref sig .tc := ⟨.hbm, 30, rfl⟩
abbrev main_v18 : Ref sig .tc := ⟨.hbm, 31, rfl⟩
abbrev main_v19 : Ref sig .tc := ⟨.hbm, 32, rfl⟩
abbrev main_c_6 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_7 : Ref sig .tc := ⟨.hbm, 41, rfl⟩
abbrev main_v27 : Ref sig .tc := ⟨.hbm, 42, rfl⟩
abbrev main_v28 : Ref sig .tc := ⟨.hbm, 43, rfl⟩
abbrev main_cst_8 : Ref sig .tc := ⟨.hbm, 44, rfl⟩
abbrev main_v29 : Ref sig .tc := ⟨.hbm, 45, rfl⟩
abbrev main_cst_9 : Ref sig .tc := ⟨.hbm, 46, rfl⟩
abbrev main_v30 : Ref sig .tc := ⟨.hbm, 47, rfl⟩
abbrev main_v31 : Ref sig .tc := ⟨.hbm, 48, rfl⟩
abbrev main_cst_10 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_11 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_12 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_13 : Ref sig .tc := ⟨.hbm, 62, rfl⟩
abbrev main_v42 : Ref sig .tc := ⟨.hbm, 63, rfl⟩
abbrev main_v43 : Ref sig .tc := ⟨.hbm, 64, rfl⟩
abbrev main_cst_14 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_15 : Ref sig .tc := ⟨.hbm, 70, rfl⟩
abbrev main_v48 : Ref sig .tc := ⟨.hbm, 71, rfl⟩
abbrev main_v49 : Ref sig .tc := ⟨.hbm, 72, rfl⟩
abbrev main_cst_16 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_17 : Ref sig .tc := ⟨.hbm, 81, rfl⟩
abbrev main_v57 : Ref sig .tc := ⟨.hbm, 82, rfl⟩
abbrev main_v58 : Ref sig .tc := ⟨.hbm, 83, rfl⟩
abbrev main_cst_18 : Ref sig .tc := ⟨.hbm, 84, rfl⟩
abbrev main_v59 : Ref sig .tc := ⟨.hbm, 85, rfl⟩
abbrev main_v60 : Ref sig .tc := ⟨.hbm, 86, rfl⟩
abbrev main_cst_19 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_c_20 : Ref sig .tc := ⟨.hbm, 91, rfl⟩
abbrev main_v64 : Ref sig .tc := ⟨.hbm, 92, rfl⟩
abbrev main_v65 : Ref sig .tc := ⟨.hbm, 93, rfl⟩
abbrev main_c_21 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_call4_cst : Ref sig .tc := ⟨.hbm, 103, rfl⟩
abbrev main_call4_v0 : Ref sig .tc := ⟨.hbm, 104, rfl⟩
abbrev main_call4_cst_0 : Ref sig .tc := ⟨.hbm, 105, rfl⟩
abbrev main_call4_v1 : Ref sig .tc := ⟨.hbm, 106, rfl⟩
abbrev main_call4_v2 : Ref sig .tc := ⟨.hbm, 107, rfl⟩
abbrev main_call4_v3 : Ref sig .tc := ⟨.hbm, 108, rfl⟩
abbrev main_call4_v4 : Ref sig .tc := ⟨.hbm, 109, rfl⟩
abbrev main_call4_v5 : Ref sig .tc := ⟨.hbm, 110, rfl⟩
abbrev main_call4_v6 : Ref sig .tc := ⟨.hbm, 111, rfl⟩
abbrev main_call4_cst_1 : Ref sig .tc := ⟨.hbm, 112, rfl⟩
abbrev main_call4_v7 : Ref sig .tc := ⟨.hbm, 113, rfl⟩
abbrev main_call4_v8 : Ref sig .tc := ⟨.hbm, 114, rfl⟩
abbrev main_call4_v9 : Ref sig .tc := ⟨.hbm, 115, rfl⟩
abbrev main_call4_v10 : Ref sig .tc := ⟨.hbm, 116, rfl⟩
abbrev main_v74 : Ref sig .tc := ⟨.hbm, 117, rfl⟩
abbrev main_v75 : Ref sig .tc := ⟨.hbm, 118, rfl⟩
abbrev main_call5_c : Ref sig .tc := ⟨.hbm, 119, rfl⟩
abbrev main_call5_v0 : Ref sig .tc := ⟨.hbm, 120, rfl⟩
abbrev main_call5_v1 : Ref sig .tc := ⟨.hbm, 121, rfl⟩
abbrev main_call5_c_0 : Ref sig .tc := ⟨.hbm, 122, rfl⟩
abbrev main_call5_v2 : Ref sig .tc := ⟨.hbm, 123, rfl⟩
abbrev main_call5_v3 : Ref sig .tc := ⟨.hbm, 124, rfl⟩
abbrev main_call5_v4 : Ref sig .tc := ⟨.hbm, 125, rfl⟩
abbrev main_call5_v5 : Ref sig .tc := ⟨.hbm, 126, rfl⟩
abbrev main_call5_c_1 : Ref sig .tc := ⟨.hbm, 127, rfl⟩
abbrev main_call5_c_2 : Ref sig .tc := ⟨.hbm, 128, rfl⟩
abbrev main_call5_v6 : Ref sig .tc := ⟨.hbm, 129, rfl⟩
abbrev main_call5_v7 : Ref sig .tc := ⟨.hbm, 130, rfl⟩
abbrev main_call5_v8 : Ref sig .tc := ⟨.hbm, 131, rfl⟩
abbrev main_call5_v9 : Ref sig .tc := ⟨.hbm, 132, rfl⟩
abbrev main_call5_v10 : Ref sig .tc := ⟨.hbm, 133, rfl⟩
abbrev main_call5_v11 : Ref sig .tc := ⟨.hbm, 134, rfl⟩
abbrev main_call5_c_3 : Ref sig .tc := ⟨.hbm, 135, rfl⟩
abbrev main_call5_v12 : Ref sig .tc := ⟨.hbm, 136, rfl⟩
abbrev main_call5_v13 : Ref sig .tc := ⟨.hbm, 137, rfl⟩
abbrev main_call5_cst : Ref sig .tc := ⟨.hbm, 138, rfl⟩
abbrev main_call5_v14 : Ref sig .tc := ⟨.hbm, 139, rfl⟩
abbrev main_v76 : Ref sig .tc := ⟨.hbm, 140, rfl⟩
abbrev main_cst_22 : Ref sig .tc := ⟨.hbm, 141, rfl⟩
abbrev main_v77 : Ref sig .tc := ⟨.hbm, 142, rfl⟩
abbrev main_cst_23 : Ref sig .tc := ⟨.hbm, 143, rfl⟩
abbrev main_v78 : Ref sig .tc := ⟨.hbm, 144, rfl⟩
abbrev main_v79 : Ref sig .tc := ⟨.hbm, 145, rfl⟩
abbrev main_cst_24 : Ref sig .tc := ⟨.hbm, 146, rfl⟩
abbrev main_v80 : Ref sig .tc := ⟨.hbm, 147, rfl⟩
abbrev main_cst_25 : Ref sig .tc := ⟨.hbm, 148, rfl⟩
abbrev main_v81 : Ref sig .tc := ⟨.hbm, 149, rfl⟩
abbrev main_v82 : Ref sig .tc := ⟨.hbm, 150, rfl⟩
abbrev main_cst_26 : Ref sig .tc := ⟨.hbm, 151, rfl⟩
abbrev main_v83 : Ref sig .tc := ⟨.hbm, 152, rfl⟩
abbrev main_v84 : Ref sig .tc := ⟨.hbm, 153, rfl⟩
abbrev main_v85 : Ref sig .tc := ⟨.hbm, 154, rfl⟩
abbrev main_v86 : Ref sig .tc := ⟨.hbm, 155, rfl⟩
abbrev main_v87 : Ref sig .tc := ⟨.hbm, 156, rfl⟩
abbrev main_v88 : Ref sig .tc := ⟨.hbm, 157, rfl⟩
abbrev main_v89 : Ref sig .tc := ⟨.hbm, 158, rfl⟩
abbrev main_v90 : Ref sig .tc := ⟨.hbm, 159, rfl⟩
abbrev main_cst_27 : Ref sig .tc := ⟨.hbm, 160, rfl⟩
abbrev main_v91 : Ref sig .tc := ⟨.hbm, 161, rfl⟩
abbrev main_v92 : Ref sig .tc := ⟨.hbm, 162, rfl⟩
abbrev main_v93 : Ref sig .tc := ⟨.hbm, 163, rfl⟩
abbrev main_v94 : Ref sig .tc := ⟨.hbm, 164, rfl⟩
abbrev main_v95 : Ref sig .tc := ⟨.hbm, 165, rfl⟩
abbrev main_v96 : Ref sig .tc := ⟨.hbm, 166, rfl⟩
abbrev main_v97 : Ref sig .tc := ⟨.hbm, 167, rfl⟩
abbrev main_v98 : Ref sig .tc := ⟨.hbm, 168, rfl⟩
abbrev main_v99 : Ref sig .tc := ⟨.hbm, 169, rfl⟩
abbrev main_v100 : Ref sig .tc := ⟨.hbm, 170, rfl⟩
abbrev main_c_28 : Ref sig .tc := ⟨.hbm, 171, rfl⟩
abbrev main_v101 : Ref sig .tc := ⟨.hbm, 172, rfl⟩
abbrev main_v102 : Ref sig .tc := ⟨.hbm, 173, rfl⟩
abbrev main_v103 : Ref sig .tc := ⟨.hbm, 174, rfl⟩
abbrev main_v104 : Ref sig .tc := ⟨.hbm, 175, rfl⟩
abbrev main_v105 : Ref sig .tc := ⟨.hbm, 176, rfl⟩
abbrev main_cst_29 : Ref sig .tc := ⟨.hbm, 177, rfl⟩
abbrev main_v106 : Ref sig .tc := ⟨.hbm, 178, rfl⟩
abbrev main_v107 : Ref sig .tc := ⟨.hbm, 179, rfl⟩
abbrev main_v108 : Ref sig .tc := ⟨.hbm, 180, rfl⟩
abbrev main_cst_30 : Ref sig .tc := ⟨.hbm, 181, rfl⟩
abbrev main_v109 : Ref sig .tc := ⟨.hbm, 182, rfl⟩
abbrev main_v110 : Ref sig .tc := ⟨.hbm, 183, rfl⟩
abbrev main_v111 : Ref sig .tc := ⟨.hbm, 184, rfl⟩
abbrev main_cst_31 : Ref sig .tc := ⟨.hbm, 185, rfl⟩
abbrev main_call6_v0 : Ref sig .tc := ⟨.hbm, 186, rfl⟩
abbrev main_call6_v1 : Ref sig .tc := ⟨.hbm, 187, rfl⟩
abbrev main_v112 : Ref sig .tc := ⟨.hbm, 188, rfl⟩
abbrev main_cst_32 : Ref sig .tc := ⟨.hbm, 189, rfl⟩
abbrev main_v113 : Ref sig .tc := ⟨.hbm, 190, rfl⟩
abbrev main_v114 : Ref sig .tc := ⟨.hbm, 191, rfl⟩
abbrev main_c_33 : Ref sig .tc := ⟨.hbm, 192, rfl⟩
abbrev main_v115 : Ref sig .tc := ⟨.hbm, 193, rfl⟩
abbrev main_v116 : Ref sig .tc := ⟨.hbm, 194, rfl⟩
abbrev main_c_34 : Ref sig .tc := ⟨.hbm, 195, rfl⟩
abbrev main_v117 : Ref sig .tc := ⟨.hbm, 196, rfl⟩
abbrev main_v118 : Ref sig .tc := ⟨.hbm, 197, rfl⟩
abbrev main_v119 : Ref sig .tc := ⟨.hbm, 198, rfl⟩
abbrev main_v120 : Ref sig .tc := ⟨.hbm, 199, rfl⟩
abbrev main_v121 : Ref sig .tc := ⟨.hbm, 200, rfl⟩
abbrev main_cst_35 : Ref sig .tc := ⟨.hbm, 201, rfl⟩
abbrev main_v122 : Ref sig .tc := ⟨.hbm, 202, rfl⟩
abbrev main_v123 : Ref sig .tc := ⟨.hbm, 203, rfl⟩
abbrev main_cst_36 : Ref sig .tc := ⟨.hbm, 204, rfl⟩
abbrev main_call7_v0 : Ref sig .tc := ⟨.hbm, 205, rfl⟩
abbrev main_call7_v1 : Ref sig .tc := ⟨.hbm, 206, rfl⟩
abbrev main_v124 : Ref sig .tc := ⟨.hbm, 207, rfl⟩
abbrev main_cst_37 : Ref sig .tc := ⟨.hbm, 208, rfl⟩
abbrev main_v125 : Ref sig .tc := ⟨.hbm, 209, rfl⟩
abbrev main_v126 : Ref sig .tc := ⟨.hbm, 210, rfl⟩
abbrev main_v127 : Ref sig .tc := ⟨.hbm, 211, rfl⟩
abbrev main_cst_38 : Ref sig .tc := ⟨.hbm, 212, rfl⟩
abbrev main_v128 : Ref sig .tc := ⟨.hbm, 213, rfl⟩
abbrev main_v129 : Ref sig .tc := ⟨.hbm, 214, rfl⟩
abbrev main_v130 : Ref sig .tc := ⟨.hbm, 215, rfl⟩
abbrev main_cst_39 : Ref sig .tc := ⟨.hbm, 216, rfl⟩
abbrev main_v131 : Ref sig .tc := ⟨.hbm, 217, rfl⟩
abbrev main_cst_40 : Ref sig .tc := ⟨.hbm, 218, rfl⟩
abbrev main_v132 : Ref sig .tc := ⟨.hbm, 219, rfl⟩
abbrev main_cst_41 : Ref sig .tc := ⟨.hbm, 220, rfl⟩
abbrev main_v133 : Ref sig .tc := ⟨.hbm, 221, rfl⟩
abbrev main_cst_42 : Ref sig .tc := ⟨.hbm, 222, rfl⟩
abbrev main_v134 : Ref sig .tc := ⟨.hbm, 223, rfl⟩
abbrev main_cst_43 : Ref sig .tc := ⟨.hbm, 224, rfl⟩
abbrev main_v135 : Ref sig .tc := ⟨.hbm, 225, rfl⟩
abbrev main_v136 : Ref sig .tc := ⟨.hbm, 226, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S_S1000 : S_.BroadcastsInDim S1000 (![] : Fin 0 → Fin S1000.rank)
  bcast_S4096_S4096x1_0 : S4096.BroadcastsInDim S4096x1 (![0] : Fin 1 → Fin S4096x1.rank)
  bcast_S_S1000x512 : S_.BroadcastsInDim S1000x512 (![] : Fin 0 → Fin S1000x512.rank)
  bcast_S1000_S1000x1_0 : S1000.BroadcastsInDim S1000x1 (![0] : Fin 1 → Fin S1000x1.rank)
  bcast_S1000x1_S1000x512_0_1 : S1000x1.BroadcastsInDim S1000x512 (![0, 1] : Fin 2 → Fin S1000x512.rank)
  reducesTo_S1000x512_S1000_d1 : S1000x512.ReducesTo [1] S1000
  h_S_ : 0 < S_.numel
  bcast_S_S4096x512 : S_.BroadcastsInDim S4096x512 (![] : Fin 0 → Fin S4096x512.rank)
  reducesTo_S4096x512_S4096_d1 : S4096x512.ReducesTo [1] S4096
  reducesTo_S1000_S_d0 : S1000.ReducesTo [0] S_
  bcast_S4096x1_S4096x1000_0_1 : S4096x1.BroadcastsInDim S4096x1000 (![0, 1] : Fin 2 → Fin S4096x1000.rank)
  reducesTo_S4096x1000_S4096_d1 : S4096x1000.ReducesTo [1] S4096
  bcast_S_S4096x1 : S_.BroadcastsInDim S4096x1 (![] : Fin 0 → Fin S4096x1.rank)
  shapeCasts_S4096x1_S4096x1x1 : S4096x1.ShapeCasts S4096x1x1
  bcast_S_S4096x1x1 : S_.BroadcastsInDim S4096x1x1 (![] : Fin 0 → Fin S4096x1x1.rank)
  bcast_S1_S1x1x1_2 : S1.BroadcastsInDim S1x1x1 (![2] : Fin 1 → Fin S1x1x1.rank)
  bcast_S1x1x1_S4096x1x1_0_1_2 : S1x1x1.BroadcastsInDim S4096x1x1 (![0, 1, 2] : Fin 3 → Fin S4096x1x1.rank)
  reducesTo_S4096x1x1_S4096x1_d2 : S4096x1x1.ReducesTo [2] S4096x1
  reducesTo_S4096x1_S_d0_1 : S4096x1.ReducesTo [0, 1] S_
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  transposes_S4096x512_S512x4096_1_0 : S4096x512.Transposes [1, 0] S512x4096
  bcast_S_S4096x4096 : S_.BroadcastsInDim S4096x4096 (![] : Fin 0 → Fin S4096x4096.rank)
  reducesTo_S4096x4096_S4096_d1 : S4096x4096.ReducesTo [1] S4096
  scatter_S1000_S4096x1_S4096_n_0_0_1_wf : ScatterDims.WF S1000 S4096x1 S4096 [] [0] [0] 1
  scatter_S1000x512_S4096x1_S4096x512_1_0_0_1_wf : ScatterDims.WF S1000x512 S4096x1 S4096x512 [1] [0] [0] 1
  gather_S1000x512_S4096x1_S4096x512_1_0_n_n_0_1_1512_wf : GatherDims.WF S1000x512 S4096x1 S4096x512 [1] [0] [] [0] [] 1 ![1, 512]
  gather_S1000_S4096x1_S4096_n_0_n_n_0_1_1_wf : GatherDims.WF S1000 S4096x1 S4096 [] [0] [] [0] [] 1 ![1]
  gather_S4096x1000_S4096x1x1_S4096x1_n_1_0_0_1_2_11_wf : GatherDims.WF S4096x1000 S4096x1x1 S4096x1 [] [1] [0] [1] [0] 2 ![1, 1]
  dot_S4096x512_S512x4096_S4096x4096_1_0_0_1_n_n_wf : DotDims.WF S4096x512 S512x4096 S4096x4096 [1] [0] [0] [1] [] []

variable [Facts₀]

def scatter_S1000_S4096x1_S4096_n_0_0_1 : ScatterDims S1000 S4096x1 S4096 where
  updateWindowDims := []
  insertedWindowDims := [0]
  scatterDimsToOperandDims := [0]
  indexVectorDim := 1
  wf := scatter_S1000_S4096x1_S4096_n_0_0_1_wf
def scatter_S1000x512_S4096x1_S4096x512_1_0_0_1 : ScatterDims S1000x512 S4096x1 S4096x512 where
  updateWindowDims := [1]
  insertedWindowDims := [0]
  scatterDimsToOperandDims := [0]
  indexVectorDim := 1
  wf := scatter_S1000x512_S4096x1_S4096x512_1_0_0_1_wf
def gather_S1000x512_S4096x1_S4096x512_1_0_n_n_0_1_1512 : GatherDims S1000x512 S4096x1 S4096x512 where
  offsetDims := [1]
  collapsedSliceDims := [0]
  operandBatchingDims := []
  startIndicesBatchingDims := []
  startIndexMap := [0]
  indexVectorDim := 1
  sliceSizes := ![1, 512]
  wf := gather_S1000x512_S4096x1_S4096x512_1_0_n_n_0_1_1512_wf
def gather_S1000_S4096x1_S4096_n_0_n_n_0_1_1 : GatherDims S1000 S4096x1 S4096 where
  offsetDims := []
  collapsedSliceDims := [0]
  operandBatchingDims := []
  startIndicesBatchingDims := []
  startIndexMap := [0]
  indexVectorDim := 1
  sliceSizes := ![1]
  wf := gather_S1000_S4096x1_S4096_n_0_n_n_0_1_1_wf
def gather_S4096x1000_S4096x1x1_S4096x1_n_1_0_0_1_2_11 : GatherDims S4096x1000 S4096x1x1 S4096x1 where
  offsetDims := []
  collapsedSliceDims := [1]
  operandBatchingDims := [0]
  startIndicesBatchingDims := [0]
  startIndexMap := [1]
  indexVectorDim := 2
  sliceSizes := ![1, 1]
  wf := gather_S4096x1000_S4096x1x1_S4096x1_n_1_0_0_1_2_11_wf
def dot_S4096x512_S512x4096_S4096x4096_1_0_0_1_n_n : DotDims S4096x512 S512x4096 S4096x4096 where
  lhsContracting := [1]
  rhsContracting := [0]
  lhsNonContracting := [0]
  rhsNonContracting := [1]
  lhsBatch := []
  rhsBatch := []
  wf := dot_S4096x512_S512x4096_S4096x4096_1_0_0_1_n_n_wf

class Facts : Prop extends Facts₀ where

variable [Facts]
-- ==== Proof.Plain.lean ====
/-
  The idealization rewrote one literal of the kernel body: the f32 word 0x394CCCCD, which the source writes
  1.0 / (10.0 * 512), is read at the ideal instance as the rational 1/5120.
-/
import proofs.«116593_j68178310857069_1_alg».proof.Defs

noncomputable section

namespace Cert.Proof.Plain

open Idealize.ShloMosaic Idealize.SL.Sem

/-- The named reciprocal denotes 1/5120 at the ideal instance, by the certificate's table. -/
theorem preserves : Cert.preserves_Kernel_KernelIdeal :=
  IdealRules.named_const.statement Cert.KernelIdeal.κ "inv_5120" .f32 0x394CCCCD#32 ((1 / 5120 : ℝ) : EReal) rfl

end Cert.Proof.Plain

end
-- ==== Proof.WordRegionEntry.lean ====
/-
  (For the program as printed, before its idealization: the same argument word for word, at the word-level instance.)
  The program around its one kernel region: eleven stretches of host operations, the region, three more stretches.
  The contents every buffer holds when the region is entered are the fold of the earlier stretches over the launch
  memory; the program is that prefix, the region, and the later stretches as the region's continuation.
-/
import proofs.«116593_j68178310857069_1_alg».proof.Proof.Gen.Kernel.Launch
import proofs.«116593_j68178310857069_1_alg».proof.Proof.Gen.Kernel.Skeleton
import proofs.«116593_j68178310857069_1_alg».proof.Proof.Gen.Kernel.Points
import Idealize.ShloMosaic.Lib.Pipeline.FrameBody
import Idealize.ShloMosaic.Lib.Pipeline.FrameSuffix
import Idealize.ShloMosaic.Lib.Tactic

set_option maxRecDepth 16384

noncomputable section

namespace Cert.Kernel.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The host operations before the region, stretch by stretch. -/
abbrev preOps : List (List (HloOp τ sig (Elt F))) :=
  [hostOps0, hostOps0_1, hostOps0_2, hostOps0_3, hostOps0_4, hostOps0_5, hostOps0_6, hostOps0_7, hostOps0_8, hostOps0_9, hostOps0_10]
/-- The host operations after the region. -/
abbrev postOps : List (List (HloOp τ sig (Elt F))) := [hostOps1, hostOps1_1, hostOps1_2]

/-- Core `c`'s buffer contents when the region is entered: the earlier host operations applied to the launch memory. -/
abbrev V0 (c : Dev nD) : Valuation τ sig (Elt F) := StableHlo.after (List.flatten preOps) (fun b => m (c, b))
/-- The same read at a TensorCore reference. -/
abbrev V (c : Dev nD) (b : Ref sig .tc) : Buf (Elt F) ((c : Thread nD τ).loc b) := V0 m c (Proc.devRef .tc b)

theorem preOps_sub : (preOps : List (List (HloOp τ sig (Elt F)))).Forall fun ops => ops.Forall fun op => op.bufs ⊆ StableHlo.tcRefs τ sig := by
  simp only [List.Forall]
  exact ⟨hostOps0_sub, hostOps0_1_sub, hostOps0_2_sub, hostOps0_3_sub, hostOps0_4_sub, hostOps0_5_sub, hostOps0_6_sub, hostOps0_7_sub,
    hostOps0_8_sub, hostOps0_9_sub, hostOps0_10_sub⟩

theorem preOps_fresh : (preOps : List (List (HloOp τ sig (Elt F)))).Forall fun ops => ops.Forall fun op => op.fresh = ∅ := by
  simp only [List.Forall]; repeat' constructor

theorem postOps_fresh : (postOps : List (List (HloOp τ sig (Elt F)))).Forall fun ops => ops.Forall fun op => op.fresh = ∅ := by
  simp only [List.Forall]; repeat' constructor

theorem postOps_sub : (postOps : List (List (HloOp τ sig (Elt F)))).Forall fun ops => ops.Forall fun op => op.bufs ⊆ StableHlo.tcRefs τ sig := by
  simp only [List.Forall]
  exact ⟨hostOps1_sub, hostOps1_1_sub, hostOps1_2_sub⟩

/-- @main is the earlier host lines, the region, the later host lines: holding every unscoped buffer at the launch
    memory it reduces to the region, continued by the later lines, holding them at the entry contents. -/
theorem hmain (𝒱₀ : Variants) : Pipeline.HMainK (Ix := Unit) (Name := ℕ) (U := UR sig nD τ) (Lvl := ℕ) cfgs 0 defs₀ 𝒱₀ m (main (F := F)) (V m)
      (fun _ => Pipeline.chain (postOps.map StableHlo.seq)) :=
  Pipeline.hmain_around cfgs 0 defs₀ 𝒱₀ m main preOps postOps preOps_sub preOps_fresh main_chain

end Cert.Kernel.Region

end
-- ==== Proof.WordSharedArrays.lean ====
/-
  (For the program as printed, before its idealization: the same argument word for word, at the word-level instance.)
  Two windows of the region read one array (the feature matrix, once by row tile and once by column tile), so the
  region cannot hold every window's array outright. The seven distinct buffers behind the eight windows, each whole at
  the full share, are exchanged for the eight windows' holdings with the feature matrix's share cut in two halves, one
  per window on it; and back, when both halves are held at the same contents.
-/
import proofs.«116593_j68178310857069_1_alg».proof.Proof.WordRegionEntry

set_option maxRecDepth 16384

noncomputable section

namespace Cert.Kernel.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The distinct buffers behind the windows' arrays, one by one. -/
theorem arrBufs_chain {M : Type} [URA M] (Φ : Ref sig .tc → sProp M) :
    bigSep (Finset.univ.image (Pipeline.arrRef spec0)) Φ
      = iprop(Φ main_arg1 ∗ Φ main_v84 ∗ Φ main_v85 ∗ Φ main_v86 ∗ Φ main_v87 ∗ Φ main_v88 ∗ Φ main_v89) :=
  bigSep_eq_bigSepL_of_eq [main_arg1, main_v84, main_v85, main_v86, main_v87, main_v88, main_v89] (by decide) (by decide) Φ

/-- How the shares are dealt: the two windows on the feature matrix take its two halves, every other input its array whole. -/
def dealt : Fin 8 → PosShare TreeShare :=
  fun | 0 => fullShare.left | 1 => fullShare.right | 2 => fullShare | 3 => fullShare | 4 => fullShare | 5 => fullShare | 6 => fullShare
      | 7 => fullShare | ⟨_ + 8, h⟩ => absurd h (Nat.not_lt.2 (Nat.le_add_left _ _))

section
variable {c : Dev nD} (dat : Dat τ (Elt F) Unit ℕ (UR sig nD τ) ℕ cfg0 c) (hq : dat.q = dealt)
include hq

theorem share_eq (w : Fin 8) : dat.share w = dealt w := by
  unfold Dat.share; rw [hq]
  match w with
  | 0 => rfl | 1 => rfl | 2 => rfl | 3 => rfl | 4 => rfl | 5 => rfl | 6 => rfl | 7 => rfl

/-- One window's holding is the buffer behind its array at the window's share. -/
theorem window_eq (V : (b : Ref sig .tc) → Buf (Elt F) ((c.tc : Thread nD τ).loc b))
    (Fa : (w : Fin cfg0.W) → Buf (Elt F) ((cfg0.win w).arr.view.loc (c.tc : Thread nD τ))) (hF : ∀ w, Fa w = V (Pipeline.arrRef spec0 w)) (w : Fin 8) :
    (View.loc c.tc (cfg0.win w).arr.view ↦[(cfg0.win w).arr.view.set]{dat.share w} Fa w : sProp 𝕄)
      = ((c.tc : Thread nD τ).loc (Pipeline.arrRef spec0 w) ↦{dealt w} V (Pipeline.arrRef spec0 w)) := by
  rw [share_eq dat hq w, (arr_whole0 w).set_eq_univ, hF w]

/-- At the region's entry: the buffers behind the arrays, whole, give every window its holding. -/
theorem arrays_of_bufs (V : (b : Ref sig .tc) → Buf (Elt F) ((c.tc : Thread nD τ).loc b))
    (Fa : (w : Fin cfg0.W) → Buf (Elt F) ((cfg0.win w).arr.view.loc (c.tc : Thread nD τ))) (hF : ∀ w, Fa w = V (Pipeline.arrRef spec0 w)) :
    (Pipeline.arrBufs spec0 c V : sProp 𝕄) ⊢ dat.arrays Fa := by
  have e := fun w => Entails.of_eq (window_eq dat hq V Fa hF w).symm
  unfold Dat.arrays Pipeline.arrBufs
  rw [bigSep_W0, arrBufs_chain]
  iintro ⟨H1, H84, H85, H86, H87, H88, H89⟩
  ihave H1' := (pointsTo_share (PosShare.mem_left_op_right fullShare)).1 $$ H1
  icases H1' with ⟨Hl, Hr⟩
  isplitl [Hl]; · iapply (e 0); iexact Hl
  isplitl [Hr]; · iapply (e 1); iexact Hr
  isplitl [H84]; · iapply (e 2); iexact H84
  isplitl [H85]; · iapply (e 3); iexact H85
  isplitl [H86]; · iapply (e 4); iexact H86
  isplitl [H87]; · iapply (e 5); iexact H87
  isplitl [H88]; · iapply (e 6); iexact H88
  iapply (e 7); iexact H89

/-- At the region's exit: every window's holding gives the buffers back whole, the feature matrix's two halves joined. -/
theorem bufs_of_arrays (V : (b : Ref sig .tc) → Buf (Elt F) ((c.tc : Thread nD τ).loc b))
    (Fa : (w : Fin cfg0.W) → Buf (Elt F) ((cfg0.win w).arr.view.loc (c.tc : Thread nD τ))) (hF : ∀ w, Fa w = V (Pipeline.arrRef spec0 w)) :
    dat.arrays Fa ⊢ (Pipeline.arrBufs spec0 c V : sProp 𝕄) := by
  have e := fun w => Entails.of_eq (window_eq dat hq V Fa hF w)
  unfold Dat.arrays Pipeline.arrBufs
  rw [bigSep_W0, arrBufs_chain]
  iintro ⟨H0, H1, H2, H3, H4, H5, H6, H7⟩
  isplitl [H0 H1]
  · iapply (pointsTo_share (PosShare.mem_left_op_right fullShare)).2
    isplitl [H0]; · iapply (e 0); iexact H0
    iapply (e 1); iexact H1
  isplitl [H2]; · iapply (e 2); iexact H2
  isplitl [H3]; · iapply (e 3); iexact H3
  isplitl [H4]; · iapply (e 4); iexact H4
  isplitl [H5]; · iapply (e 5); iexact H5
  isplitl [H6]; · iapply (e 6); iexact H6
  iapply (e 7); iexact H7

end

end Cert.Kernel.Region

end
-- ==== Proof.WordRegionData.lean ====
/-
  (For the program as printed, before its idealization: the same argument word for word, at the word-level instance.)
  What the region holds, point by point. The grid is 8 × 8: point t is row tile t / 8 and column tile t % 8. Each input
  window's buffer holds its block of the array the region found. The scratch accumulator is reset where the column
  tile is 0 and after point t holds the row tile's partial sums over the column tiles up to t % 8; the output window's
  buffer is written where the column tile is 7, with the logarithm of one plus that accumulator.
-/
import proofs.«116593_j68178310857069_1_alg».proof.Proof.WordSharedArrays

set_option maxRecDepth 16384

noncomputable section

namespace Cert.Kernel.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The reset condition, as the body computes it: the column-tile coordinate is zero. -/
abbrev condFirst (i : grid0.Coords) : Prop := (Scalar.cmpi .ne (Scalar.extui (Scalar.cmpi .eq (BitVec.ofNat 32 (i 1).val) 0#32)) 0#32) = 1#1
/-- The write-out condition: the column-tile coordinate is the last. -/
abbrev condLast (i : grid0.Coords) : Prop := k0_cond2 i = 1#1

/-- The reset happens at the points ≡ 0 (mod 8). -/
theorem hcondFirst : ∀ t : Fin cfg0.N, condFirst (grid0.coords t) ↔ t.val % 8 = 0 :=
  (by decide +kernel : ∀ t : Fin grid0.N, condFirst (grid0.coords t) ↔ t.val % 8 = 0)
/-- The write-out happens at the points ≡ 7 (mod 8). -/
theorem hcondLast : ∀ t : Fin cfg0.N, condLast (grid0.coords t) ↔ t.val % 8 = 7 :=
  (by decide +kernel : ∀ t : Fin grid0.N, condLast (grid0.coords t) ↔ t.val % 8 = 7)

/-- One point's update of the accumulator: the old accumulator plus the lane sums of the point's masked exponentials. -/
def step (c : Dev nD) (t : Fin cfg0.N) (acc : Vec F S512x1 .f32) : Vec F S512x1 .f32 :=
  k0_pay1 (k0_pay4 (iblk m c 0 t) (iblk m c 1 t) (iblk m c 2 t) (iblk m c 3 t)) (k0_pay5 (grid0.coords t) (iblk m c 4 t) (iblk m c 5 t))
    (iblk m c 6 t) acc

/-- The accumulator after point `n`: restarted from zeros where the column tile is 0, else carried from the point before. -/
def accAt (c : Dev nD) : (n : ℕ) → n < cfg0.N → Vec F S512x1 .f32
  | 0, hn => step m c ⟨0, hn⟩ k0_pay3
  | n + 1, hn => step m c ⟨n + 1, hn⟩ (if (n + 1) % 8 = 0 then k0_pay3 else accAt c n (Nat.lt_of_succ_lt hn))

theorem accAt_first (c : Dev nD) (t : Fin cfg0.N) (h : t.val % 8 = 0) : accAt m c t.val t.isLt = step m c t k0_pay3 := by
  obtain ⟨n, hn⟩ := t
  cases n with
  | zero => rfl
  | succ n => exact congrArg (step m c ⟨n + 1, hn⟩) (if_pos h)

theorem accAt_next (c : Dev nD) (t : Fin cfg0.N) (h : ¬ t.val % 8 = 0) :
    accAt m c t.val t.isLt = step m c t (accAt m c (t.val - 1) (Nat.lt_of_le_of_lt (Nat.sub_le _ _) t.isLt)) := by
  obtain ⟨n, hn⟩ := t
  cases n with
  | zero => exact absurd (Nat.zero_mod _) h
  | succ n => exact congrArg (step m c ⟨n + 1, hn⟩) (if_neg h)

/-- The scratch accumulator as a memref: a whole scoped buffer of the kernel's own. -/
abbrev scM : Memref sig .tc .vmem S512x1 .f32 := Memref.whole cc0_scratch0

/-- The region's invariant before position `n`: before the first point the scratch holds anything; afterwards what the
    point before left in it. -/
def PhiS (c : Dev nD) : (n : ℕ) → n ≤ cfg0.N → sProp 𝕄
  | 0, _ => Pipeline.scopedRest spec0 c
  | n + 1, hn => owns (c : Thread nD τ) scM fullShare (accAt m c n hn)

theorem PhiS_pos (c : Dev nD) (n : ℕ) (h : n ≤ cfg0.N) (hz : n ≠ 0) :
    PhiS m c n h = owns (c : Thread nD τ) scM fullShare (accAt m c (n - 1) (by omega)) := by
  cases n with
  | zero => exact absurd rfl hz
  | succ n => rfl

/-- The scoped rest is the scratch at some contents. -/
theorem scopedRest_scratch (c : Dev nD) :
    (Pipeline.scopedRest spec0 c : sProp 𝕄) = iprop(∃ d, owns (c : Thread nD τ) scM fullShare d) := by
  rw [scopedRest0_eq]; simp only [scM, owns_whole]; try rfl

/-- The proof data of the region on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => k0_pay2 (accAt m c t.val t.isLt)
    | ⟨_ + 8, h⟩ => absurd h (Nat.not_lt.2 (Nat.le_add_left _ _))
  Φ t := PhiS m c t.val (Nat.le_of_lt_succ t.isLt)
  q := dealt
  owed _ := 0

theorem A_eq (c : Dev nD) (w : Fin cfg0.W) : (dats m 0 c).A w = V m c (Pipeline.arrRef spec0 w) := by
  dsimp only [dats]
theorem q_eq (c : Dev nD) : (dats m 0 c).q = dealt := rfl

theorem PhiS_castSucc (c : Dev nD) (t : Fin cfg0.N) : (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = k0_pay2 (accAt m c t.val t.isLt) := by dsimp only [dats]

/-- Each input window's current buffer holds its block at every point, fetched there or not: an input the body only
    reads keeps its block where the index map did not move. -/
theorem before0 (c : Dev nD) (t : Fin cfg0.N) (d) : (dats m 0 c).before 0 t d = iblk m c 0 t :=
  ((dats m 0 c).before_in_eq_fetched 0 rfl (fun _ => rfl) (fun _ _ _ => rfl)
      (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl)
      (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl)
      (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl)
      (fun t => by rw [after3]; unfold Dat.blockOf iblk; rw [A_eq]; try rfl) t d).trans
    (by unfold Dat.fetched Dat.blockOf iblk; rw [A_eq]; try rfl)
theorem before4 (c : Dev nD) (t : Fin cfg0.N) (d) : (dats m 0 c).before 4 t d = iblk m c 4 t :=
  ((dats m 0 c).before_in_eq_fetched 4 rfl (fun _ => rfl) (fun _ _ _ => rfl)
      (fun t => by rw [after4]; unfold Dat.blockOf iblk; rw [A_eq]; try rfl) t d).trans
    (by unfold Dat.fetched Dat.blockOf iblk; rw [A_eq]; try rfl)
theorem before5 (c : Dev nD) (t : Fin cfg0.N) (d) : (dats m 0 c).before 5 t d = iblk m c 5 t :=
  ((dats m 0 c).before_in_eq_fetched 5 rfl (fun _ => rfl) (fun _ _ _ => rfl)
      (fun t => by rw [after5]; unfold Dat.blockOf iblk; rw [A_eq]; try rfl) t d).trans
    (by unfold Dat.fetched Dat.blockOf iblk; rw [A_eq]; try rfl)
theorem before6 (c : Dev nD) (t : Fin cfg0.N) (d) : (dats m 0 c).before 6 t d = iblk m c 6 t :=
  ((dats m 0 c).before_in_eq_fetched 6 rfl (fun _ => rfl) (fun _ _ _ => rfl)
      (fun t => by rw [after6]; unfold Dat.blockOf iblk; rw [A_eq]; try rfl) t d).trans
    (by unfold Dat.fetched Dat.blockOf iblk; rw [A_eq]; try rfl)

end Cert.Kernel.Region

end
-- ==== Proof.WordBodyRun.lean ====
/-
  (For the program as printed, before its idealization: the same argument word for word, at the word-level instance.)
  The kernel body run once, on whole staging buffers holding given contents, in each of the three control cases the
  8 × 8 grid meets: the column tile is the first (the accumulator is reset, then added to), a middle one (added to), the
  last (added to, then the logarithm of one plus it is written to the output block). The inputs' buffers are left as found.
-/
import proofs.«116593_j68178310857069_1_alg».proof.Proof.WordRegionData
import Idealize.ShloMosaic.Lib.Pipeline.Value

set_option maxRecDepth 16384

noncomputable section

namespace Cert.Kernel.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem zeros2 : (![0, 0] : Fin 2 → Nat) = fun _ => 0 := by funext a; fin_cases a <;> rfl

set_option maxHeartbeats 2000000 in
/-- A middle column tile: the accumulator takes the point's lane sums on top of what it held; the output block is untouched. -/
theorem run_middle (c : Dev nD) (i : grid0.Coords)
    (a2 : Memref sig .tc .vmem S512x512 .f32) (h2 : a2.IsWhole) (a3 : Memref sig .tc .vmem S512x512 .f32) (h3 : a3.IsWhole)
    (a4 : Memref sig .tc .vmem S512x1 .f32) (h4 : a4.IsWhole) (a5 : Memref sig .tc .vmem S1x512 .f32) (h5 : a5.IsWhole)
    (a6 : Memref sig .tc .vmem S512x1 .i32) (h6 : a6.IsWhole) (a7 : Memref sig .tc .vmem S1x512 .i32) (h7 : a7.IsWhole)
    (a8 : Memref sig .tc .vmem S1x1 .f32) (h8 : a8.IsWhole) (a9 : Memref sig .tc .vmem S512x1 .f32) (h9 : a9.IsWhole)
    (a10 : Memref sig .tc .vmem S512x1 .f32) (h10 : a10.IsWhole)
    (hc1 : ¬condFirst i) (hc2 : ¬condLast i)
    (x0 x1 : Vec F S512x512 .f32) (x2 : Vec F S512x1 .f32) (x3 : Vec F S1x512 .f32) (x4 : Vec F S512x1 .i32) (x5 : Vec F S1x512 .i32)
    (x6 : Vec F S1x1 .f32) (xo xs : Vec F S512x1 .f32) (E : Set ℕ) (K : PUnit → sProp 𝕄) :
    iprop(owns (c : Thread nD τ) a2 fullShare x0 ∗ owns (c : Thread nD τ) a3 fullShare x1 ∗ owns (c : Thread nD τ) a4 fullShare x2
        ∗ owns (c : Thread nD τ) a5 fullShare x3 ∗ owns (c : Thread nD τ) a6 fullShare x4 ∗ owns (c : Thread nD τ) a7 fullShare x5
        ∗ owns (c : Thread nD τ) a8 fullShare x6 ∗ owns (c : Thread nD τ) a9 fullShare xo ∗ owns (c : Thread nD τ) a10 fullShare xs
        ∗ (iprop(owns (c : Thread nD τ) a2 fullShare x0 ∗ owns (c : Thread nD τ) a3 fullShare x1 ∗ owns (c : Thread nD τ) a4 fullShare x2
        ∗ owns (c : Thread nD τ) a5 fullShare x3 ∗ owns (c : Thread nD τ) a6 fullShare x4 ∗ owns (c : Thread nD τ) a7 fullShare x5
        ∗ owns (c : Thread nD τ) a8 fullShare x6 ∗ owns (c : Thread nD τ) a9 fullShare xo
            ∗ owns (c : Thread nD τ) a10 fullShare (k0_pay1 (k0_pay4 x0 x1 x2 x3) (k0_pay5 i x4 x5) x6 xs)) -∗ K ⟨⟩))
      ⊢ wp frame (wpE (defs₀ (F := F)) Variants.none c none) E (cc0__pairwise_kernel i a2 h2 a3 h3 a4 h4 a5 h5 a6 h6 a7 h7 a8 h8 a9 h9 a10 h10) K := by
  have hz := zeros2
  simp only [cc0__pairwise_kernel_eq_skeleton]; unfold cc0__pairwise_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fo, %hfo, HO⟩, ⟨%fs, %hfs, HS⟩, Hk⟩
  obtain rfl := h2.eq_unread hf0; obtain rfl := h3.eq_unread hf1; obtain rfl := h4.eq_unread hf2; obtain rfl := h5.eq_unread hf3
  obtain rfl := h6.eq_unread hf4; obtain rfl := h7.eq_unread hf5; obtain rfl := h8.eq_unread hf6; obtain rfl := h9.eq_unread hfo
  obtain rfl := h10.eq_unread hfs
  sl_exec (disch := first | exact hc1 | exact hc2)
  sl_step
  iapply Hk
  isplitl [H0]; · iexists _; isplitr; · ipureintro; exact h2.read_unread _
                  iexact H0
  isplitl [H1]; · iexists _; isplitr; · ipureintro; exact h3.read_unread _
                  iexact H1
  isplitl [H2]; · iexists _; isplitr; · ipureintro; exact h4.read_unread _
                  iexact H2
  isplitl [H3]; · iexists _; isplitr; · ipureintro; exact h5.read_unread _
                  iexact H3
  isplitl [H4]; · iexists _; isplitr; · ipureintro; exact h6.read_unread _
                  iexact H4
  isplitl [H5]; · iexists _; isplitr; · ipureintro; exact h7.read_unread _
                  iexact H5
  isplitl [H6]; · iexists _; isplitr; · ipureintro; exact h8.read_unread _
                  iexact H6
  isplitl [HO]; · iexists _; isplitr; · ipureintro; exact h9.read_unread _
                  iexact HO
  iexists _; isplitr
  swap; · iexact HS
  ipureintro
  rw [View.read_writes_eq_canon _ _ _ (fun y => ⟨_, List.mem_cons_self, View.mem_set_unit_zero hz inb_S512x1_S512x1_0_0 y⟩), View.canon_cons_unit_zero hz]
  sl_unfold_words
  simp only [View.readAt_eq_ld, View.readCov_unit_zero (S := S512x1) _ hz, View.canon_cons_unit_zero (S := S512x1) hz, h2.read_unread, h3.read_unread, h4.read_unread, h5.read_unread, h6.read_unread,
    h7.read_unread, h8.read_unread, h9.read_unread, h10.read_unread, View.ld_unit_zero (S := S512x512) hz, View.ld_unit_zero (S := S512x1) hz,
    View.ld_unit_zero (S := S1x512) hz, View.ld_unit_zero (S := S1x1) hz]
  try rfl

set_option maxHeartbeats 2000000 in
/-- The first column tile: whatever the accumulator held, it is reset to zeros and takes the point's lane sums. -/
theorem run_first (c : Dev nD) (i : grid0.Coords)
    (a2 : Memref sig .tc .vmem S512x512 .f32) (h2 : a2.IsWhole) (a3 : Memref sig .tc .vmem S512x512 .f32) (h3 : a3.IsWhole)
    (a4 : Memref sig .tc .vmem S512x1 .f32) (h4 : a4.IsWhole) (a5 : Memref sig .tc .vmem S1x512 .f32) (h5 : a5.IsWhole)
    (a6 : Memref sig .tc .vmem S512x1 .i32) (h6 : a6.IsWhole) (a7 : Memref sig .tc .vmem S1x512 .i32) (h7 : a7.IsWhole)
    (a8 : Memref sig .tc .vmem S1x1 .f32) (h8 : a8.IsWhole) (a9 : Memref sig .tc .vmem S512x1 .f32) (h9 : a9.IsWhole)
    (a10 : Memref sig .tc .vmem S512x1 .f32) (h10 : a10.IsWhole)
    (hc1 : condFirst i) (hc2 : ¬condLast i)
    (x0 x1 : Vec F S512x512 .f32) (x2 : Vec F S512x1 .f32) (x3 : Vec F S1x512 .f32) (x4 : Vec F S512x1 .i32) (x5 : Vec F S1x512 .i32)
    (x6 : Vec F S1x1 .f32) (xo xs : Vec F S512x1 .f32) (E : Set ℕ) (K : PUnit → sProp 𝕄) :
    iprop(owns (c : Thread nD τ) a2 fullShare x0 ∗ owns (c : Thread nD τ) a3 fullShare x1 ∗ owns (c : Thread nD τ) a4 fullShare x2
        ∗ owns (c : Thread nD τ) a5 fullShare x3 ∗ owns (c : Thread nD τ) a6 fullShare x4 ∗ owns (c : Thread nD τ) a7 fullShare x5
        ∗ owns (c : Thread nD τ) a8 fullShare x6 ∗ owns (c : Thread nD τ) a9 fullShare xo ∗ owns (c : Thread nD τ) a10 fullShare xs
        ∗ (iprop(owns (c : Thread nD τ) a2 fullShare x0 ∗ owns (c : Thread nD τ) a3 fullShare x1 ∗ owns (c : Thread nD τ) a4 fullShare x2
        ∗ owns (c : Thread nD τ) a5 fullShare x3 ∗ owns (c : Thread nD τ) a6 fullShare x4 ∗ owns (c : Thread nD τ) a7 fullShare x5
        ∗ owns (c : Thread nD τ) a8 fullShare x6 ∗ owns (c : Thread nD τ) a9 fullShare xo
            ∗ owns (c : Thread nD τ) a10 fullShare (k0_pay1 (k0_pay4 x0 x1 x2 x3) (k0_pay5 i x4 x5) x6 (k0_pay3 (F := F)))) -∗ K ⟨⟩))
      ⊢ wp frame (wpE (defs₀ (F := F)) Variants.none c none) E (cc0__pairwise_kernel i a2 h2 a3 h3 a4 h4 a5 h5 a6 h6 a7 h7 a8 h8 a9 h9 a10 h10) K := by
  have hz := zeros2
  simp only [cc0__pairwise_kernel_eq_skeleton]; unfold cc0__pairwise_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fo, %hfo, HO⟩, ⟨%fs, %hfs, HS⟩, Hk⟩
  obtain rfl := h2.eq_unread hf0; obtain rfl := h3.eq_unread hf1; obtain rfl := h4.eq_unread hf2; obtain rfl := h5.eq_unread hf3
  obtain rfl := h6.eq_unread hf4; obtain rfl := h7.eq_unread hf5; obtain rfl := h8.eq_unread hf6; obtain rfl := h9.eq_unread hfo
  obtain rfl := h10.eq_unread hfs
  sl_exec (disch := first | exact hc1 | exact hc2)
  sl_step
  iapply Hk
  isplitl [H0]; · iexists _; isplitr; · ipureintro; exact h2.read_unread _
                  iexact H0
  isplitl [H1]; · iexists _; isplitr; · ipureintro; exact h3.read_unread _
                  iexact H1
  isplitl [H2]; · iexists _; isplitr; · ipureintro; exact h4.read_unread _
                  iexact H2
  isplitl [H3]; · iexists _; isplitr; · ipureintro; exact h5.read_unread _
                  iexact H3
  isplitl [H4]; · iexists _; isplitr; · ipureintro; exact h6.read_unread _
                  iexact H4
  isplitl [H5]; · iexists _; isplitr; · ipureintro; exact h7.read_unread _
                  iexact H5
  isplitl [H6]; · iexists _; isplitr; · ipureintro; exact h8.read_unread _
                  iexact H6
  isplitl [HO]; · iexists _; isplitr; · ipureintro; exact h9.read_unread _
                  iexact HO
  iexists _; isplitr
  swap; · iexact HS
  ipureintro
  rw [View.read_writes_eq_canon _ _ _ (fun y => ⟨_, List.mem_cons_self, View.mem_set_unit_zero hz inb_S512x1_S512x1_0_0 y⟩), View.canon_cons_unit_zero hz]
  sl_unfold_words
  simp only [View.readAt_eq_ld, View.readCov_unit_zero (S := S512x1) _ hz, View.canon_cons_unit_zero (S := S512x1) hz, h2.read_unread, h3.read_unread, h4.read_unread, h5.read_unread, h6.read_unread,
    h7.read_unread, h8.read_unread, h9.read_unread, h10.read_unread, View.ld_unit_zero (S := S512x512) hz, View.ld_unit_zero (S := S512x1) hz,
    View.ld_unit_zero (S := S1x512) hz, View.ld_unit_zero (S := S1x1) hz]
  try rfl

set_option maxHeartbeats 2000000 in
/-- The last column tile: the accumulator takes the point's lane sums, and the output block is written with the
    logarithm of one plus it. -/
theorem run_last (c : Dev nD) (i : grid0.Coords)
    (a2 : Memref sig .tc .vmem S512x512 .f32) (h2 : a2.IsWhole) (a3 : Memref sig .tc .vmem S512x512 .f32) (h3 : a3.IsWhole)
    (a4 : Memref sig .tc .vmem S512x1 .f32) (h4 : a4.IsWhole) (a5 : Memref sig .tc .vmem S1x512 .f32) (h5 : a5.IsWhole)
    (a6 : Memref sig .tc .vmem S512x1 .i32) (h6 : a6.IsWhole) (a7 : Memref sig .tc .vmem S1x512 .i32) (h7 : a7.IsWhole)
    (a8 : Memref sig .tc .vmem S1x1 .f32) (h8 : a8.IsWhole) (a9 : Memref sig .tc .vmem S512x1 .f32) (h9 : a9.IsWhole)
    (a10 : Memref sig .tc .vmem S512x1 .f32) (h10 : a10.IsWhole)
    (hc1 : ¬condFirst i) (hc2 : condLast i)
    (x0 x1 : Vec F S512x512 .f32) (x2 : Vec F S512x1 .f32) (x3 : Vec F S1x512 .f32) (x4 : Vec F S512x1 .i32) (x5 : Vec F S1x512 .i32)
    (x6 : Vec F S1x1 .f32) (xo xs : Vec F S512x1 .f32) (E : Set ℕ) (K : PUnit → sProp 𝕄) :
    iprop(owns (c : Thread nD τ) a2 fullShare x0 ∗ owns (c : Thread nD τ) a3 fullShare x1 ∗ owns (c : Thread nD τ) a4 fullShare x2
        ∗ owns (c : Thread nD τ) a5 fullShare x3 ∗ owns (c : Thread nD τ) a6 fullShare x4 ∗ owns (c : Thread nD τ) a7 fullShare x5
        ∗ owns (c : Thread nD τ) a8 fullShare x6 ∗ owns (c : Thread nD τ) a9 fullShare xo ∗ owns (c : Thread nD τ) a10 fullShare xs
        ∗ (iprop(owns (c : Thread nD τ) a2 fullShare x0 ∗ owns (c : Thread nD τ) a3 fullShare x1 ∗ owns (c : Thread nD τ) a4 fullShare x2
        ∗ owns (c : Thread nD τ) a5 fullShare x3 ∗ owns (c : Thread nD τ) a6 fullShare x4 ∗ owns (c : Thread nD τ) a7 fullShare x5
        ∗ owns (c : Thread nD τ) a8 fullShare x6 ∗ owns (c : Thread nD τ) a9 fullShare (k0_pay2 (k0_pay1 (k0_pay4 x0 x1 x2 x3) (k0_pay5 i x4 x5) x6 xs))
            ∗ owns (c : Thread nD τ) a10 fullShare (k0_pay1 (k0_pay4 x0 x1 x2 x3) (k0_pay5 i x4 x5) x6 xs)) -∗ K ⟨⟩))
      ⊢ wp frame (wpE (defs₀ (F := F)) Variants.none c none) E (cc0__pairwise_kernel i a2 h2 a3 h3 a4 h4 a5 h5 a6 h6 a7 h7 a8 h8 a9 h9 a10 h10) K := by
  have hz := zeros2
  simp only [cc0__pairwise_kernel_eq_skeleton]; unfold cc0__pairwise_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fo, %hfo, HO⟩, ⟨%fs, %hfs, HS⟩, Hk⟩
  obtain rfl := h2.eq_unread hf0; obtain rfl := h3.eq_unread hf1; obtain rfl := h4.eq_unread hf2; obtain rfl := h5.eq_unread hf3
  obtain rfl := h6.eq_unread hf4; obtain rfl := h7.eq_unread hf5; obtain rfl := h8.eq_unread hf6; obtain rfl := h9.eq_unread hfo
  obtain rfl := h10.eq_unread hfs
  sl_exec (disch := first | exact hc1 | exact hc2)
  sl_step
  iapply Hk
  isplitl [H0]; · iexists _; isplitr; · ipureintro; exact h2.read_unread _
                  iexact H0
  isplitl [H1]; · iexists _; isplitr; · ipureintro; exact h3.read_unread _
                  iexact H1
  isplitl [H2]; · iexists _; isplitr; · ipureintro; exact h4.read_unread _
                  iexact H2
  isplitl [H3]; · iexists _; isplitr; · ipureintro; exact h5.read_unread _
                  iexact H3
  isplitl [H4]; · iexists _; isplitr; · ipureintro; exact h6.read_unread _
                  iexact H4
  isplitl [H5]; · iexists _; isplitr; · ipureintro; exact h7.read_unread _
                  iexact H5
  isplitl [H6]; · iexists _; isplitr; · ipureintro; exact h8.read_unread _
                  iexact H6
  isplitl [HO]
  · iexists _; isplitr
    swap; · iexact HO
    ipureintro
    rw [View.read_writes_eq_canon _ _ _ (fun y => ⟨_, List.mem_cons_self, View.mem_set_unit_zero hz inb_S512x1_S512x1_0_0 y⟩), View.canon_cons_unit_zero hz]
    sl_unfold_words
    simp only [View.readAt_eq_ld, View.readCov_unit_zero (S := S512x1) _ hz, View.canon_cons_unit_zero (S := S512x1) hz, h2.read_unread, h3.read_unread, h4.read_unread, h5.read_unread, h6.read_unread,
      h7.read_unread, h8.read_unread, h9.read_unread, h10.read_unread, View.ld_unit_zero (S := S512x512) hz, View.ld_unit_zero (S := S512x1) hz,
      View.ld_unit_zero (S := S1x512) hz, View.ld_unit_zero (S := S1x1) hz]
    try rfl
  iexists _; isplitr
  swap; · iexact HS
  ipureintro
  sl_unfold_words
  rw [View.read_writes_eq_canon _ _ _ (fun y => ⟨_, List.mem_cons_self, View.mem_set_unit_zero hz inb_S512x1_S512x1_0_0 y⟩), View.canon_cons_unit_zero hz]
  try sl_unfold_words
  simp only [View.readAt_eq_ld, View.readCov_unit_zero (S := S512x1) _ hz, View.canon_cons_unit_zero (S := S512x1) hz, h2.read_unread, h3.read_unread, h4.read_unread, h5.read_unread, h6.read_unread,
    h7.read_unread, h8.read_unread, h9.read_unread, h10.read_unread, View.ld_unit_zero (S := S512x512) hz, View.ld_unit_zero (S := S512x1) hz,
    View.ld_unit_zero (S := S1x512) hz, View.ld_unit_zero (S := S1x1) hz]
  try rfl

end Cert.Kernel.Region

end
-- ==== Proof.WordRegionBody.lean ====
/-
  (For the program as printed, before its idealization: the same argument word for word, at the word-level instance.)
  The body obligation at every grid point: from the invariant and every window's current buffer at what it then holds,
  the body runs to the invariant of the next point and every buffer at what the proof data say it leaves. The point's
  column tile decides which of the three runs applies.
-/
import proofs.«116593_j68178310857069_1_alg».proof.Proof.WordBodyRun

set_option maxRecDepth 16384

noncomputable section

namespace Cert.Kernel.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem live0 : ∀ t : Fin cfg0.N, cfg0.idle 0 (grid0.coords t) = false := fun _ => rfl
theorem live1 : ∀ t : Fin cfg0.N, cfg0.idle 1 (grid0.coords t) = false := fun _ => rfl
theorem live2 : ∀ t : Fin cfg0.N, cfg0.idle 2 (grid0.coords t) = false := fun _ => rfl
theorem live3 : ∀ t : Fin cfg0.N, cfg0.idle 3 (grid0.coords t) = false := fun _ => rfl
theorem live4 : ∀ t : Fin cfg0.N, cfg0.idle 4 (grid0.coords t) = false := fun _ => rfl
theorem live5 : ∀ t : Fin cfg0.N, cfg0.idle 5 (grid0.coords t) = false := fun _ => rfl
theorem live6 : ∀ t : Fin cfg0.N, cfg0.idle 6 (grid0.coords t) = false := fun _ => rfl
/-- Off the last column tile the output window is idle and is not written back. -/
theorem idle7 : ∀ t : Fin cfg0.N, ¬condLast (grid0.coords t) → cfg0.idle 7 (grid0.coords t) = true := by decide +kernel
theorem noFlush7 : ∀ t : Fin cfg0.N, ¬condLast (grid0.coords t) → (cfg0.win 7).flush t = false := by decide +kernel
/-- At the last column tile it is live. -/
theorem live7 : ∀ t : Fin cfg0.N, condLast (grid0.coords t) → cfg0.idle 7 (grid0.coords t) = false := by decide +kernel

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).owesAt () t.succ = (dats m 0 c).owesAt () t.castSucc from rfl]
  rw [show (dats m 0 c).Φ t.succ = owns (c : Thread nD τ) scM fullShare (accAt m c t.val t.isLt) from rfl]
  rw [show (dats m 0 c).leavesExact 0 t = owns (c : Thread nD τ) (st0_0 t) fullShare ((dats m 0 c).after 0 t) from by
    unfold Dat.leavesExact; rw [live0 t], after0]
  rw [show (dats m 0 c).leavesExact 1 t = owns (c : Thread nD τ) (st0_1 t) fullShare ((dats m 0 c).after 1 t) from by
    unfold Dat.leavesExact; rw [live1 t], after1]
  rw [show (dats m 0 c).leavesExact 2 t = owns (c : Thread nD τ) (st0_2 t) fullShare ((dats m 0 c).after 2 t) from by
    unfold Dat.leavesExact; rw [live2 t], after2]
  rw [show (dats m 0 c).leavesExact 3 t = owns (c : Thread nD τ) (st0_3 t) fullShare ((dats m 0 c).after 3 t) from by
    unfold Dat.leavesExact; rw [live3 t], after3]
  rw [show (dats m 0 c).leavesExact 4 t = owns (c : Thread nD τ) (st0_4 t) fullShare ((dats m 0 c).after 4 t) from by
    unfold Dat.leavesExact; rw [live4 t], after4]
  rw [show (dats m 0 c).leavesExact 5 t = owns (c : Thread nD τ) (st0_5 t) fullShare ((dats m 0 c).after 5 t) from by
    unfold Dat.leavesExact; rw [live5 t], after5]
  rw [show (dats m 0 c).leavesExact 6 t = owns (c : Thread nD τ) (st0_6 t) fullShare ((dats m 0 c).after 6 t) from by
    unfold Dat.leavesExact; rw [live6 t], after6]
  simp only [after0, after1, after2, after3, after4, after5, after6]
  have hN : t.val < 64 := lt_of_lt_of_eq t.isLt N_0
  by_cases h0 : t.val % 8 = 0
  · have hc1 : condFirst (grid0.coords t) := (hcondFirst t).mpr h0
    have hc2 : ¬condLast (grid0.coords t) := fun h => by have := (hcondLast t).mp h; omega
    rw [Dat.leavesExact_idle (dats m 0 c) 7 t (idle7 t hc2) (noFlush7 t hc2), accAt_first m c t h0]
    unfold step
    by_cases hz : t.val = 0
    · rw [PhiS_castSucc m c t, show PhiS m c t.val (Nat.le_of_lt t.isLt) = Pipeline.scopedRest spec0 c from by
        have : ∀ n h, n = 0 → PhiS m c n h = Pipeline.scopedRest spec0 c := fun n h e => by subst e; rfl
        exact this _ _ hz, scopedRest_scratch]
      iintro ⟨⟨%ds, HS⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run_first c (grid0.coords t) _ _ _ _ _ _ _ _ _ _ _ _ _ _ _ _ _ _ hc1 hc2 (iblk m c 0 t) (iblk m c 1 t) (iblk m c 2 t) (iblk m c 3 t)
        (iblk m c 4 t) (iblk m c 5 t) (iblk m c 6 t) ((dats m 0 c).before 7 t d7) ds Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexact HS
      iintro ⟨H0, H1, H2, H3, H4, H5, H6, H7, HS⟩
      isplitl [HS]; · iexact HS
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
    · rw [PhiS_castSucc m c t, PhiS_pos m c _ _ hz]
      iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run_first c (grid0.coords t) _ _ _ _ _ _ _ _ _ _ _ _ _ _ _ _ _ _ hc1 hc2 (iblk m c 0 t) (iblk m c 1 t) (iblk m c 2 t) (iblk m c 3 t)
        (iblk m c 4 t) (iblk m c 5 t) (iblk m c 6 t) ((dats m 0 c).before 7 t d7) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexact HS
      iintro ⟨H0, H1, H2, H3, H4, H5, H6, H7, HS⟩
      isplitl [HS]; · iexact HS
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
  · have hc1 : ¬condFirst (grid0.coords t) := fun h => h0 ((hcondFirst t).mp h)
    have hz : t.val ≠ 0 := fun e => h0 (by rw [e])
    rw [PhiS_castSucc m c t, PhiS_pos m c _ _ hz, accAt_next m c t h0]
    unfold step
    by_cases h7 : t.val % 8 = 7
    · have hc2 : condLast (grid0.coords t) := (hcondLast t).mpr h7
      rw [show (dats m 0 c).leavesExact 7 t = owns (c : Thread nD τ) (st0_7 t) fullShare ((dats m 0 c).after 7 t) from by
        unfold Dat.leavesExact; rw [live7 t hc2], after7, accAt_next m c t h0]
      unfold step
      iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run_last c (grid0.coords t) _ _ _ _ _ _ _ _ _ _ _ _ _ _ _ _ _ _ hc1 hc2 (iblk m c 0 t) (iblk m c 1 t) (iblk m c 2 t) (iblk m c 3 t)
        (iblk m c 4 t) (iblk m c 5 t) (iblk m c 6 t) ((dats m 0 c).before 7 t d7) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexact HS
      iintro ⟨H0, H1, H2, H3, H4, H5, H6, H7, HS⟩
      isplitl [HS]; · iexact HS
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · have hc2 : ¬condLast (grid0.coords t) := fun h => h7 ((hcondLast t).mp h)
      rw [Dat.leavesExact_idle (dats m 0 c) 7 t (idle7 t hc2) (noFlush7 t hc2)]
      iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run_middle c (grid0.coords t) _ _ _ _ _ _ _ _ _ _ _ _ _ _ _ _ _ _ hc1 hc2 (iblk m c 0 t) (iblk m c 1 t) (iblk m c 2 t) (iblk m c 3 t)
        (iblk m c 4 t) (iblk m c 5 t) (iblk m c 6 t) ((dats m 0 c).before 7 t d7) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexact HS
      iintro ⟨H0, H1, H2, H3, H4, H5, H6, H7, HS⟩
      isplitl [HS]; · iexact HS
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Region

end
-- ==== Proof.WordRegionRun.lean ====
/-
  (For the program as printed, before its idealization: the same argument word for word, at the word-level instance.)
  The region launched. What it hands back: every window's array at what the write-backs leave (only the output
  array changes), every other buffer as the region found it; the later host lines then run from those contents. Two
  windows share the feature matrix, so its share is split on the way in and joined on the way out, and the later lines
  run over all of the core's unscoped buffers at once.
-/
import proofs.«116593_j68178310857069_1_alg».proof.Proof.WordRegionBody

set_option maxRecDepth 16384

noncomputable section

namespace Cert.Kernel.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffer contents when the region is left: as entered, the output array at what the write-backs left. -/
def Vexit (c : Dev nD) : Valuation τ sig (Elt F) :=
  Function.update (V0 m c) (Proc.devRef .tc main_v89) ((dats m 0 c).arrAt 7 cfg0.N)

/-- and after the later host lines. -/
def Vfin (c : Dev nD) (b : Ref sig .tc) : Buf (Elt F) ((c.tc : Thread nD τ).loc b) :=
  StableHlo.after (List.flatten postOps) (Vexit m c) (Proc.devRef .tc b)

/-- Every window's array at the exit is what the proof data compute: an input's is never written back. -/
theorem Vexit_arr (c : Dev nD) (w : Fin 8) :
    (dats m 0 c).arrAt w cfg0.N = Vexit m c (Proc.devRef .tc (Pipeline.arrRef spec0 w)) := by
  have hin : ∀ (w : Fin 8) (hw : (cfg0.win w).isOut = false) (hne : Pipeline.arrRef spec0 w ≠ main_v89),
      (dats m 0 c).arrAt w cfg0.N = Vexit m c (Proc.devRef .tc (Pipeline.arrRef spec0 w)) := fun w hw hne => by
    rw [(dats m 0 c).arrAt_in w hw, A_eq]
    exact (Function.update_of_ne (StableHlo.devRef_ne_of_ne hne) _ _).symm
  match w with
  | 0 => exact hin 0 rfl (by decide)
  | 1 => exact hin 1 rfl (by decide)
  | 2 => exact hin 2 rfl (by decide)
  | 3 => exact hin 3 rfl (by decide)
  | 4 => exact hin 4 rfl (by decide)
  | 5 => exact hin 5 rfl (by decide)
  | 6 => exact hin 6 rfl (by decide)
  | 7 =>
    show _ = Function.update (V0 m c) (Proc.devRef .tc main_v89) ((dats m 0 c).arrAt 7 cfg0.N) (Proc.devRef .tc main_v89)
    rw [Function.update_self]

/-- A buffer that bypasses the region is at the exit as at the entry. -/
theorem Vexit_rest (c : Dev nD) (b : Ref sig .tc) (hb : b ∈ Pipeline.restRefs sig spec0) :
    Vexit m c (Proc.devRef .tc b) = V m c b := by
  refine Function.update_of_ne (StableHlo.devRef_ne_of_ne fun e => ?_) _ _
  exact (Finset.mem_sdiff.mp hb).2 (Finset.mem_image.mpr ⟨7, Finset.mem_univ _, e.symm⟩)

/-- The later host lines write no array of the region. -/
theorem Vfin_main_arg1 (c : Dev nD) : Vfin m c main_arg1 = Vexit m c (Proc.devRef .tc main_arg1) := by
  show StableHlo.after (List.flatten postOps) (Vexit m c) (Proc.devRef .tc main_arg1) = _
  simp only [postOps, hostOps1, hostOps1_1, hostOps1_2, List.flatten_cons, List.flatten_nil, List.append_nil, List.cons_append, List.nil_append]
  after_results_simp <;> rfl
theorem Vfin_main_v84 (c : Dev nD) : Vfin m c main_v84 = Vexit m c (Proc.devRef .tc main_v84) := by
  show StableHlo.after (List.flatten postOps) (Vexit m c) (Proc.devRef .tc main_v84) = _
  simp only [postOps, hostOps1, hostOps1_1, hostOps1_2, List.flatten_cons, List.flatten_nil, List.append_nil, List.cons_append, List.nil_append]
  after_results_simp <;> rfl
theorem Vfin_main_v85 (c : Dev nD) : Vfin m c main_v85 = Vexit m c (Proc.devRef .tc main_v85) := by
  show StableHlo.after (List.flatten postOps) (Vexit m c) (Proc.devRef .tc main_v85) = _
  simp only [postOps, hostOps1, hostOps1_1, hostOps1_2, List.flatten_cons, List.flatten_nil, List.append_nil, List.cons_append, List.nil_append]
  after_results_simp <;> rfl
theorem Vfin_main_v86 (c : Dev nD) : Vfin m c main_v86 = Vexit m c (Proc.devRef .tc main_v86) := by
  show StableHlo.after (List.flatten postOps) (Vexit m c) (Proc.devRef .tc main_v86) = _
  simp only [postOps, hostOps1, hostOps1_1, hostOps1_2, List.flatten_cons, List.flatten_nil, List.append_nil, List.cons_append, List.nil_append]
  after_results_simp <;> rfl
theorem Vfin_main_v87 (c : Dev nD) : Vfin m c main_v87 = Vexit m c (Proc.devRef .tc main_v87) := by
  show StableHlo.after (List.flatten postOps) (Vexit m c) (Proc.devRef .tc main_v87) = _
  simp only [postOps, hostOps1, hostOps1_1, hostOps1_2, List.flatten_cons, List.flatten_nil, List.append_nil, List.cons_append, List.nil_append]
  after_results_simp <;> rfl
theorem Vfin_main_v88 (c : Dev nD) : Vfin m c main_v88 = Vexit m c (Proc.devRef .tc main_v88) := by
  show StableHlo.after (List.flatten postOps) (Vexit m c) (Proc.devRef .tc main_v88) = _
  simp only [postOps, hostOps1, hostOps1_1, hostOps1_2, List.flatten_cons, List.flatten_nil, List.append_nil, List.cons_append, List.nil_append]
  after_results_simp <;> rfl
theorem Vfin_main_v89 (c : Dev nD) : Vfin m c main_v89 = Vexit m c (Proc.devRef .tc main_v89) := by
  show StableHlo.after (List.flatten postOps) (Vexit m c) (Proc.devRef .tc main_v89) = _
  simp only [postOps, hostOps1, hostOps1_1, hostOps1_2, List.flatten_cons, List.flatten_nil, List.append_nil, List.cons_append, List.nil_append]
  after_results_simp <;> rfl

theorem Vfin_arr (c : Dev nD) (w : Fin 8) : (dats m 0 c).arrAt w cfg0.N = Vfin m c (Pipeline.arrRef spec0 w) := by
  rw [Vexit_arr]
  match w with
  | 0 => exact (Vfin_main_arg1 m c).symm
  | 1 => exact (Vfin_main_arg1 m c).symm
  | 2 => exact (Vfin_main_v84 m c).symm
  | 3 => exact (Vfin_main_v85 m c).symm
  | 4 => exact (Vfin_main_v86 m c).symm
  | 5 => exact (Vfin_main_v87 m c).symm
  | 6 => exact (Vfin_main_v88 m c).symm
  | 7 => exact (Vfin_main_v89 m c).symm

theorem postOps_sub' : ∀ ops ∈ (postOps : List (List (HloOp τ sig (Elt F)))), ∀ op ∈ ops, op.bufs ⊆ Pipeline.ucRefs τ sig :=
  fun ops ho op h => Pipeline.sub_ucRefs op ((List.forall_iff_forall_mem.mp ((List.forall_iff_forall_mem.mp postOps_sub) ops ho)) op h)
theorem postOps_fresh' : ∀ ops ∈ (postOps : List (List (HloOp τ sig (Elt F)))), ∀ op ∈ ops, op.fresh = ∅ :=
  fun ops ho op h => (List.forall_iff_forall_mem.mp ((List.forall_iff_forall_mem.mp postOps_fresh) ops ho)) op h

/-- All of the core's unscoped buffers at a valuation: the buffers behind the arrays and the bypassing ones. -/
theorem held_split (c : Dev nD) (W : Valuation τ sig (Elt F)) :
    (StableHlo.held (c.tc : Thread nD τ) (Pipeline.ucRefs τ sig) W : sProp 𝕄)
      = iprop(Pipeline.arrBufs spec0 c (fun b => W (Proc.devRef .tc b)) ∗ Pipeline.unscopedRest spec0 c (fun b => W (Proc.devRef .tc b))) := by
  rw [← Pipeline.unscopedBufs_held (Ix := Unit) (Name := ℕ) (U := UR sig nD τ) (Lvl := ℕ) c W]
  exact Pipeline.unscopedBufs_split₀ cfgs 0 winFacts₀0.arr_unscoped c _

/-- At the exit the windows' holdings and the bypassing buffers are all of the unscoped buffers at the exit contents. -/
theorem held_of_exit (c : Dev nD) :
    iprop((dats m 0 c).arrays ((dats m 0 c).arrAt · cfg0.N) ∗ Pipeline.unscopedRest spec0 c (V m c))
      ⊢ (StableHlo.held (c.tc : Thread nD τ) (Pipeline.ucRefs τ sig) (Vexit m c) : sProp 𝕄) := by
  rw [held_split]
  iintro ⟨Ha, Hz⟩
  isplitl [Ha]
  · iapply (bufs_of_arrays (dats m 0 c) (q_eq m c) (fun b => Vexit m c (Proc.devRef .tc b)) _ (Vexit_arr m c)); iexact Ha
  · have e : ∀ b ∈ Pipeline.restRefs sig spec0, (((c.tc : Thread nD τ).loc b ↦{fullShare} V m c b) : sProp 𝕄)
        = ((c.tc : Thread nD τ).loc b ↦{fullShare} Vexit m c (Proc.devRef .tc b)) := fun b hb => by rw [Vexit_rest m c b hb]
    unfold Pipeline.unscopedRest
    iapply (Entails.of_eq (bigSep_congr e))
    iexact Hz

/-- After the later lines all of the unscoped buffers give the windows' holdings back, and the bypassing buffers at
    their final contents. -/
theorem final_of_held (c : Dev nD) :
    (StableHlo.held (c.tc : Thread nD τ) (Pipeline.ucRefs τ sig) (StableHlo.after (List.flatten postOps) (Vexit m c)) : sProp 𝕄)
      ⊢ iprop((dats m 0 c).arrays ((dats m 0 c).arrAt · cfg0.N) ∗ Pipeline.unscopedRest spec0 c (Vfin m c)) := by
  rw [held_split]
  iintro ⟨Ha, Hz⟩
  isplitl [Ha]
  · iapply (arrays_of_bufs (dats m 0 c) (q_eq m c) (Vfin m c) _ (Vfin_arr m c)); iexact Ha
  · iexact Hz

-- a rule stated for any thread is applied at the TensorCore thread: unification may unfold plain definitions in a metavariable's type
set_option backward.isDefEq.respectTransparency.types false in
/-- The later host lines, from the region's exit: the windows' holdings and the bypassing buffers are all of the core's
    unscoped buffers, the lines run over those, and the windows' holdings come back unchanged. -/
theorem htail (c : Dev nD) (Q' : PUnit → sProp 𝕄) :
    iprop((iprop((dats m 0 c).arrays ((dats m 0 c).arrAt · cfg0.N) ∗ Pipeline.unscopedRest spec0 c (Vfin m c)) -∗ Q' ⟨⟩)
        ∗ boundary (c.tc : Thread nD τ) ∗ (dats m 0 c).arrays ((dats m 0 c).arrAt · cfg0.N) ∗ Pipeline.unscopedRest spec0 c (V m c))
      ⊢ wp frame (wpE (Pipeline.defs (fun q => (cfgs q).toPCfg (Val := Elt F)) (defs₀ (F := F))) (Variants.lift Variants.none) (c.tc : Thread nD τ) none) Set.univ
          (Pipeline.chain ((postOps (F := F)).map StableHlo.seq)) Q' := by
  rw [← List.append_nil ((postOps (F := F)).map StableHlo.seq)]
  iintro ⟨Hk, Hb, Ha, Hz⟩
  ihave Hh := (held_of_exit m c) $$ [Ha Hz]
  · isplitl [Ha]; · iexact Ha
    iexact Hz
  iapply (Pipeline.wp_seqs_then (fun q => (cfgs q).toPCfg (Val := Elt F)) (defs₀ (F := F)) Variants.none c (Pipeline.ucRefs τ sig) [] postOps postOps_sub' postOps_fresh' (Vexit m c)) $$ [Hb Hh]
  · isplitl [Hb]; · iexact Hb
    iexact Hh
  iintro ⟨Hb, Hh⟩
  rw [Pipeline.chain_nil, wp_pure]
  imodintro
  iapply Hk
  iapply (final_of_held m c); iexact Hh

set_option maxHeartbeats 4000000 in
set_option maxRecDepth 65536 in
set_option backward.isDefEq.respectTransparency.types false in
/-- THE REGION RUN. From any memory with zero counters every weakly fair execution of @main terminates, nothing faulting,
    with every window's array at what the proof data compute and every other unscoped buffer at what the later host
    lines leave from the region's exit contents. -/
theorem run_region :
    θ_run defs (onTc (τ := τ) (main (F := F))) ⟨m, fun _ => 0, ρ⟩ (fun r => ∀ c : Dev nD,
      (∀ w, r.2.mem ((cfg0.win w).arr.view.loc (c.tc : Thread nD τ)) = (dats m 0 c).arrAt w cfg0.N)
      ∧ ∀ b ∈ Pipeline.restRefs sig spec0, r.2.mem ((c.tc : Thread nD τ).loc b) = Vfin m c b) :=
  Pipeline.θ_run_region_noSem_pf_tail (fun q => (cfgs q).toPCfg (Val := Elt F)) (fun q => (cfgs q).toPCfg_adm) (dats m) () cellOf_inj 0
    winFacts₀0 (Pipeline.PreFacts.none _) emb₁ defs₀ Variants.none m ρ main
    (fun _ => Pipeline.chain ((postOps (F := F)).map StableHlo.seq)) (fun c => (body_obligation m c).loose) block_pos0 arr_whole0 stage_whole0
    (fun _ _ => rfl)
    (u₀ := initOf (Pipeline.cells cfgs cellOf_inj) (Pipeline.launchToks cfgs cellOf_inj)) (hu₀ := .rfl)
    (V := V m) (hmain := hmain m Variants.none)
    (hsplit := fun c => arrays_of_bufs (dats m 0 c) (q_eq m c) (V m c) _ (fun w => A_eq m c w))
    (hpf := fun _ k => k.elim0)
    (X := fun _ => iprop(emp)) (Y := fun _ => iprop(emp))
    (Z := fun c => Pipeline.unscopedRest spec0 c (V m c)) (Z' := fun c => Pipeline.unscopedRest spec0 c (Vfin m c))
    (hX := fun c => by
      rw [Pipeline.unscopedRestP_none]
      iintro H; isplitr; · iempintro
      iexact H)
    (hin := fun c => by
      show _ ⊢ Pipeline.scopedRest spec0 c
      iintro ⟨-, -, HR⟩; iexact HR)
    (hout := fun c => by
      rw [show (dats m 0 c).Φ (Fin.last cfg0.N) = PhiS m c cfg0.N (Nat.le_refl _) from rfl,
        PhiS_pos m c _ _ (by rw [show cfg0.N = 64 from N_0]; decide), scopedRest_scratch]
      iintro H; isplitr; · iempintro
      iexists _; iexact H)
    (htail := htail m)
    (QY := fun c s => ∀ b ∈ Pipeline.restRefs sig spec0, s.mem ((c.tc : Thread nD τ).loc b) = Vfin m c b)
    (hY := fun c s' => by
      iintro ⟨-, HU, HSI⟩
      unfold Pipeline.unscopedRest
      imodintro
      iapply (pointsTo_read_all (Pipeline.restRefs sig spec0) (fun b => (c.tc : Thread nD τ).loc b) (Vfin m c) s')
      isplitl [HU] <;> iassumption)
    (hQ := fun s h c => ⟨(h c).1, (h c).2.2⟩)

end Cert.Kernel.Region

end
-- ==== Proof.WordRegionFrame.lean ====
/-
  (For the program as printed, before its idealization: the same argument word for word, at the word-level instance.)
  The frame: the program runs to the end without a fault and its five argument arrays end as they were launched. The
  host operations write only their own result buffers; of the arguments the region touches the feature matrix alone,
  and only reads it.
-/
import proofs.«116593_j68178310857069_1_alg».proof.Proof.WordRegionRun

set_option maxRecDepth 16384

noncomputable section

namespace Cert.Kernel.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No host operation before the region writes an argument: at the region's entry each is as launched. -/
theorem V_main_arg0 (c : Dev nD) : V m c main_arg0 = m ((c.tc : Thread nD τ).loc main_arg0) := by
  show StableHlo.after (List.flatten preOps) (fun b => m (c, b)) (Proc.devRef .tc main_arg0) = _
  simp only [preOps, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp <;> rfl
theorem V_main_arg1 (c : Dev nD) : V m c main_arg1 = m ((c.tc : Thread nD τ).loc main_arg1) := by
  show StableHlo.after (List.flatten preOps) (fun b => m (c, b)) (Proc.devRef .tc main_arg1) = _
  simp only [preOps, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp <;> rfl
theorem V_main_arg2 (c : Dev nD) : V m c main_arg2 = m ((c.tc : Thread nD τ).loc main_arg2) := by
  show StableHlo.after (List.flatten preOps) (fun b => m (c, b)) (Proc.devRef .tc main_arg2) = _
  simp only [preOps, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp <;> rfl
theorem V_main_arg3 (c : Dev nD) : V m c main_arg3 = m ((c.tc : Thread nD τ).loc main_arg3) := by
  show StableHlo.after (List.flatten preOps) (fun b => m (c, b)) (Proc.devRef .tc main_arg3) = _
  simp only [preOps, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp <;> rfl
theorem V_main_arg4 (c : Dev nD) : V m c main_arg4 = m ((c.tc : Thread nD τ).loc main_arg4) := by
  show StableHlo.after (List.flatten preOps) (fun b => m (c, b)) (Proc.devRef .tc main_arg4) = _
  simp only [preOps, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp <;> rfl

/-- Nor does any after it. -/
theorem Vfin_main_arg0 (c : Dev nD) : Vfin m c main_arg0 = Vexit m c (Proc.devRef .tc main_arg0) := by
  show StableHlo.after (List.flatten postOps) (Vexit m c) (Proc.devRef .tc main_arg0) = _
  simp only [postOps, hostOps1, hostOps1_1, hostOps1_2, List.flatten_cons, List.flatten_nil, List.append_nil, List.cons_append, List.nil_append]
  after_results_simp <;> rfl
theorem Vfin_main_arg2 (c : Dev nD) : Vfin m c main_arg2 = Vexit m c (Proc.devRef .tc main_arg2) := by
  show StableHlo.after (List.flatten postOps) (Vexit m c) (Proc.devRef .tc main_arg2) = _
  simp only [postOps, hostOps1, hostOps1_1, hostOps1_2, List.flatten_cons, List.flatten_nil, List.append_nil, List.cons_append, List.nil_append]
  after_results_simp <;> rfl
theorem Vfin_main_arg3 (c : Dev nD) : Vfin m c main_arg3 = Vexit m c (Proc.devRef .tc main_arg3) := by
  show StableHlo.after (List.flatten postOps) (Vexit m c) (Proc.devRef .tc main_arg3) = _
  simp only [postOps, hostOps1, hostOps1_1, hostOps1_2, List.flatten_cons, List.flatten_nil, List.append_nil, List.cons_append, List.nil_append]
  after_results_simp <;> rfl
theorem Vfin_main_arg4 (c : Dev nD) : Vfin m c main_arg4 = Vexit m c (Proc.devRef .tc main_arg4) := by
  show StableHlo.after (List.flatten postOps) (Vexit m c) (Proc.devRef .tc main_arg4) = _
  simp only [postOps, hostOps1, hostOps1_1, hostOps1_2, List.flatten_cons, List.flatten_nil, List.append_nil, List.cons_append, List.nil_append]
  after_results_simp <;> rfl

theorem rest_main_arg0 : main_arg0 ∈ Pipeline.restRefs sig spec0 := Pipeline.mem_restRefs_of main_arg0 rfl (by decide)
theorem rest_main_arg2 : main_arg2 ∈ Pipeline.restRefs sig spec0 := Pipeline.mem_restRefs_of main_arg2 rfl (by decide)
theorem rest_main_arg3 : main_arg3 ∈ Pipeline.restRefs sig spec0 := Pipeline.mem_restRefs_of main_arg3 rfl (by decide)
theorem rest_main_arg4 : main_arg4 ∈ Pipeline.restRefs sig spec0 := Pipeline.mem_restRefs_of main_arg4 rfl (by decide)

/-- THE FRAME of the program, at any instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨((h c).2 main_arg0 rest_main_arg0).trans ((Vfin_main_arg0 m c).trans ((Vexit_rest m c main_arg0 rest_main_arg0).trans (V_main_arg0 m c))),
     ((h c).1 0).trans (((dats m 0 c).arrAt_in 0 rfl _).trans ((A_eq m c 0).trans (V_main_arg1 m c))),
     ((h c).2 main_arg2 rest_main_arg2).trans ((Vfin_main_arg2 m c).trans ((Vexit_rest m c main_arg2 rest_main_arg2).trans (V_main_arg2 m c))),
     ((h c).2 main_arg3 rest_main_arg3).trans ((Vfin_main_arg3 m c).trans ((Vexit_rest m c main_arg3 rest_main_arg3).trans (V_main_arg3 m c))),
     ((h c).2 main_arg4 rest_main_arg4).trans ((Vfin_main_arg4 m c).trans ((Vexit_rest m c main_arg4 rest_main_arg4).trans (V_main_arg4 m c)))⟩)
    (run_region m ρ)

end Cert.Kernel.Region

end
-- ==== Proof.RegionEntry.lean ====
/-
  The program around its one kernel region: eleven stretches of host operations, the region, three more stretches.
  The contents every buffer holds when the region is entered are the fold of the earlier stretches over the launch
  memory; the program is that prefix, the region, and the later stretches as the region's continuation.
-/
import proofs.«116593_j68178310857069_1_alg».proof.Proof.Gen.KernelIdeal.Launch
import proofs.«116593_j68178310857069_1_alg».proof.Proof.Gen.KernelIdeal.Skeleton
import proofs.«116593_j68178310857069_1_alg».proof.Proof.Gen.KernelIdeal.Points
import Idealize.ShloMosaic.Lib.Pipeline.FrameBody
import Idealize.ShloMosaic.Lib.Pipeline.FrameSuffix
import Idealize.ShloMosaic.Lib.Tactic

set_option maxRecDepth 16384

noncomputable section

namespace Cert.KernelIdeal.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The host operations before the region, stretch by stretch. -/
abbrev preOps : List (List (HloOp τ sig (Elt F))) :=
  [hostOps0, hostOps0_1, hostOps0_2, hostOps0_3, hostOps0_4, hostOps0_5, hostOps0_6, hostOps0_7, hostOps0_8, hostOps0_9, hostOps0_10]
/-- The host operations after the region. -/
abbrev postOps : List (List (HloOp τ sig (Elt F))) := [hostOps1, hostOps1_1, hostOps1_2]

/-- Core `c`'s buffer contents when the region is entered: the earlier host operations applied to the launch memory. -/
abbrev V0 (c : Dev nD) : Valuation τ sig (Elt F) := StableHlo.after (List.flatten preOps) (fun b => m (c, b))
/-- The same read at a TensorCore reference. -/
abbrev V (c : Dev nD) (b : Ref sig .tc) : Buf (Elt F) ((c : Thread nD τ).loc b) := V0 m c (Proc.devRef .tc b)

theorem preOps_sub : (preOps : List (List (HloOp τ sig (Elt F)))).Forall fun ops => ops.Forall fun op => op.bufs ⊆ StableHlo.tcRefs τ sig := by
  simp only [List.Forall]
  exact ⟨hostOps0_sub, hostOps0_1_sub, hostOps0_2_sub, hostOps0_3_sub, hostOps0_4_sub, hostOps0_5_sub, hostOps0_6_sub, hostOps0_7_sub,
    hostOps0_8_sub, hostOps0_9_sub, hostOps0_10_sub⟩

theorem preOps_fresh : (preOps : List (List (HloOp τ sig (Elt F)))).Forall fun ops => ops.Forall fun op => op.fresh = ∅ := by
  simp only [List.Forall]; repeat' constructor

theorem postOps_fresh : (postOps : List (List (HloOp τ sig (Elt F)))).Forall fun ops => ops.Forall fun op => op.fresh = ∅ := by
  simp only [List.Forall]; repeat' constructor

theorem postOps_sub : (postOps : List (List (HloOp τ sig (Elt F)))).Forall fun ops => ops.Forall fun op => op.bufs ⊆ StableHlo.tcRefs τ sig := by
  simp only [List.Forall]
  exact ⟨hostOps1_sub, hostOps1_1_sub, hostOps1_2_sub⟩

/-- @main is the earlier host lines, the region, the later host lines: holding every unscoped buffer at the launch
    memory it reduces to the region, continued by the later lines, holding them at the entry contents. -/
theorem hmain (𝒱₀ : Variants) : Pipeline.HMainK (Ix := Unit) (Name := ℕ) (U := UR sig nD τ) (Lvl := ℕ) cfgs 0 defs₀ 𝒱₀ m (main (F := F)) (V m)
      (fun _ => Pipeline.chain (postOps.map StableHlo.seq)) :=
  Pipeline.hmain_around cfgs 0 defs₀ 𝒱₀ m main preOps postOps preOps_sub preOps_fresh main_chain

end Cert.KernelIdeal.Region

end
-- ==== Proof.SharedArrays.lean ====
/-
  Two windows of the region read one array (the feature matrix, once by row tile and once by column tile), so the
  region cannot hold every window's array outright. The seven distinct buffers behind the eight windows, each whole at
  the full share, are exchanged for the eight windows' holdings with the feature matrix's share cut in two halves, one
  per window on it; and back, when both halves are held at the same contents.
-/
import proofs.«116593_j68178310857069_1_alg».proof.Proof.RegionEntry

set_option maxRecDepth 16384

noncomputable section

namespace Cert.KernelIdeal.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The distinct buffers behind the windows' arrays, one by one. -/
theorem arrBufs_chain {M : Type} [URA M] (Φ : Ref sig .tc → sProp M) :
    bigSep (Finset.univ.image (Pipeline.arrRef spec0)) Φ
      = iprop(Φ main_arg1 ∗ Φ main_v84 ∗ Φ main_v85 ∗ Φ main_v86 ∗ Φ main_v87 ∗ Φ main_v88 ∗ Φ main_v89) :=
  bigSep_eq_bigSepL_of_eq [main_arg1, main_v84, main_v85, main_v86, main_v87, main_v88, main_v89] (by decide) (by decide) Φ

/-- How the shares are dealt: the two windows on the feature matrix take its two halves, every other input its array whole. -/
def dealt : Fin 8 → PosShare TreeShare :=
  fun | 0 => fullShare.left | 1 => fullShare.right | 2 => fullShare | 3 => fullShare | 4 => fullShare | 5 => fullShare | 6 => fullShare
      | 7 => fullShare | ⟨_ + 8, h⟩ => absurd h (Nat.not_lt.2 (Nat.le_add_left _ _))

section
variable {c : Dev nD} (dat : Dat τ (Elt F) Unit ℕ (UR sig nD τ) ℕ cfg0 c) (hq : dat.q = dealt)
include hq

theorem share_eq (w : Fin 8) : dat.share w = dealt w := by
  unfold Dat.share; rw [hq]
  match w with
  | 0 => rfl | 1 => rfl | 2 => rfl | 3 => rfl | 4 => rfl | 5 => rfl | 6 => rfl | 7 => rfl

/-- One window's holding is the buffer behind its array at the window's share. -/
theorem window_eq (V : (b : Ref sig .tc) → Buf (Elt F) ((c.tc : Thread nD τ).loc b))
    (Fa : (w : Fin cfg0.W) → Buf (Elt F) ((cfg0.win w).arr.view.loc (c.tc : Thread nD τ))) (hF : ∀ w, Fa w = V (Pipeline.arrRef spec0 w)) (w : Fin 8) :
    (View.loc c.tc (cfg0.win w).arr.view ↦[(cfg0.win w).arr.view.set]{dat.share w} Fa w : sProp 𝕄)
      = ((c.tc : Thread nD τ).loc (Pipeline.arrRef spec0 w) ↦{dealt w} V (Pipeline.arrRef spec0 w)) := by
  rw [share_eq dat hq w, (arr_whole0 w).set_eq_univ, hF w]

/-- At the region's entry: the buffers behind the arrays, whole, give every window its holding. -/
theorem arrays_of_bufs (V : (b : Ref sig .tc) → Buf (Elt F) ((c.tc : Thread nD τ).loc b))
    (Fa : (w : Fin cfg0.W) → Buf (Elt F) ((cfg0.win w).arr.view.loc (c.tc : Thread nD τ))) (hF : ∀ w, Fa w = V (Pipeline.arrRef spec0 w)) :
    (Pipeline.arrBufs spec0 c V : sProp 𝕄) ⊢ dat.arrays Fa := by
  have e := fun w => Entails.of_eq (window_eq dat hq V Fa hF w).symm
  unfold Dat.arrays Pipeline.arrBufs
  rw [bigSep_W0, arrBufs_chain]
  iintro ⟨H1, H84, H85, H86, H87, H88, H89⟩
  ihave H1' := (pointsTo_share (PosShare.mem_left_op_right fullShare)).1 $$ H1
  icases H1' with ⟨Hl, Hr⟩
  isplitl [Hl]; · iapply (e 0); iexact Hl
  isplitl [Hr]; · iapply (e 1); iexact Hr
  isplitl [H84]; · iapply (e 2); iexact H84
  isplitl [H85]; · iapply (e 3); iexact H85
  isplitl [H86]; · iapply (e 4); iexact H86
  isplitl [H87]; · iapply (e 5); iexact H87
  isplitl [H88]; · iapply (e 6); iexact H88
  iapply (e 7); iexact H89

/-- At the region's exit: every window's holding gives the buffers back whole, the feature matrix's two halves joined. -/
theorem bufs_of_arrays (V : (b : Ref sig .tc) → Buf (Elt F) ((c.tc : Thread nD τ).loc b))
    (Fa : (w : Fin cfg0.W) → Buf (Elt F) ((cfg0.win w).arr.view.loc (c.tc : Thread nD τ))) (hF : ∀ w, Fa w = V (Pipeline.arrRef spec0 w)) :
    dat.arrays Fa ⊢ (Pipeline.arrBufs spec0 c V : sProp 𝕄) := by
  have e := fun w => Entails.of_eq (window_eq dat hq V Fa hF w)
  unfold Dat.arrays Pipeline.arrBufs
  rw [bigSep_W0, arrBufs_chain]
  iintro ⟨H0, H1, H2, H3, H4, H5, H6, H7⟩
  isplitl [H0 H1]
  · iapply (pointsTo_share (PosShare.mem_left_op_right fullShare)).2
    isplitl [H0]; · iapply (e 0); iexact H0
    iapply (e 1); iexact H1
  isplitl [H2]; · iapply (e 2); iexact H2
  isplitl [H3]; · iapply (e 3); iexact H3
  isplitl [H4]; · iapply (e 4); iexact H4
  isplitl [H5]; · iapply (e 5); iexact H5
  isplitl [H6]; · iapply (e 6); iexact H6
  iapply (e 7); iexact H7

end

end Cert.KernelIdeal.Region

end
-- ==== Proof.RegionData.lean ====
/-
  What the region holds, point by point. The grid is 8 × 8: point t is row tile t / 8 and column tile t % 8. Each input
  window's buffer holds its block of the array the region found. The scratch accumulator is reset where the column
  tile is 0 and after point t holds the row tile's partial sums over the column tiles up to t % 8; the output window's
  buffer is written where the column tile is 7, with the logarithm of one plus that accumulator.
-/
import proofs.«116593_j68178310857069_1_alg».proof.Proof.SharedArrays

set_option maxRecDepth 16384

noncomputable section

namespace Cert.KernelIdeal.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The reset condition, as the body computes it: the column-tile coordinate is zero. -/
abbrev condFirst (i : grid0.Coords) : Prop := (Scalar.cmpi .ne (Scalar.extui (Scalar.cmpi .eq (BitVec.ofNat 32 (i 1).val) 0#32)) 0#32) = 1#1
/-- The write-out condition: the column-tile coordinate is the last. -/
abbrev condLast (i : grid0.Coords) : Prop := k0_cond2 i = 1#1

/-- The reset happens at the points ≡ 0 (mod 8). -/
theorem hcondFirst : ∀ t : Fin cfg0.N, condFirst (grid0.coords t) ↔ t.val % 8 = 0 :=
  (by decide +kernel : ∀ t : Fin grid0.N, condFirst (grid0.coords t) ↔ t.val % 8 = 0)
/-- The write-out happens at the points ≡ 7 (mod 8). -/
theorem hcondLast : ∀ t : Fin cfg0.N, condLast (grid0.coords t) ↔ t.val % 8 = 7 :=
  (by decide +kernel : ∀ t : Fin grid0.N, condLast (grid0.coords t) ↔ t.val % 8 = 7)

/-- One point's update of the accumulator: the old accumulator plus the lane sums of the point's masked exponentials. -/
def step (c : Dev nD) (t : Fin cfg0.N) (acc : Vec F S512x1 .f32) : Vec F S512x1 .f32 :=
  k0_pay1 (k0_pay4 (iblk m c 0 t) (iblk m c 1 t) (iblk m c 2 t) (iblk m c 3 t)) (k0_pay5 (grid0.coords t) (iblk m c 4 t) (iblk m c 5 t))
    (iblk m c 6 t) acc

/-- The accumulator after point `n`: restarted from zeros where the column tile is 0, else carried from the point before. -/
def accAt (c : Dev nD) : (n : ℕ) → n < cfg0.N → Vec F S512x1 .f32
  | 0, hn => step m c ⟨0, hn⟩ k0_pay3
  | n + 1, hn => step m c ⟨n + 1, hn⟩ (if (n + 1) % 8 = 0 then k0_pay3 else accAt c n (Nat.lt_of_succ_lt hn))

theorem accAt_first (c : Dev nD) (t : Fin cfg0.N) (h : t.val % 8 = 0) : accAt m c t.val t.isLt = step m c t k0_pay3 := by
  obtain ⟨n, hn⟩ := t
  cases n with
  | zero => rfl
  | succ n => exact congrArg (step m c ⟨n + 1, hn⟩) (if_pos h)

theorem accAt_next (c : Dev nD) (t : Fin cfg0.N) (h : ¬ t.val % 8 = 0) :
    accAt m c t.val t.isLt = step m c t (accAt m c (t.val - 1) (Nat.lt_of_le_of_lt (Nat.sub_le _ _) t.isLt)) := by
  obtain ⟨n, hn⟩ := t
  cases n with
  | zero => exact absurd (Nat.zero_mod _) h
  | succ n => exact congrArg (step m c ⟨n + 1, hn⟩) (if_neg h)

/-- The scratch accumulator as a memref: a whole scoped buffer of the kernel's own. -/
abbrev scM : Memref sig .tc .vmem S512x1 .f32 := Memref.whole cc0_scratch0

/-- The region's invariant before position `n`: before the first point the scratch holds anything; afterwards what the
    point before left in it. -/
def PhiS (c : Dev nD) : (n : ℕ) → n ≤ cfg0.N → sProp 𝕄
  | 0, _ => Pipeline.scopedRest spec0 c
  | n + 1, hn => owns (c : Thread nD τ) scM fullShare (accAt m c n hn)

theorem PhiS_pos (c : Dev nD) (n : ℕ) (h : n ≤ cfg0.N) (hz : n ≠ 0) :
    PhiS m c n h = owns (c : Thread nD τ) scM fullShare (accAt m c (n - 1) (by omega)) := by
  cases n with
  | zero => exact absurd rfl hz
  | succ n => rfl

/-- The scoped rest is the scratch at some contents. -/
theorem scopedRest_scratch (c : Dev nD) :
    (Pipeline.scopedRest spec0 c : sProp 𝕄) = iprop(∃ d, owns (c : Thread nD τ) scM fullShare d) := by
  rw [scopedRest0_eq]; simp only [scM, owns_whole]; try rfl

/-- The proof data of the region on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => k0_pay2 (accAt m c t.val t.isLt)
    | ⟨_ + 8, h⟩ => absurd h (Nat.not_lt.2 (Nat.le_add_left _ _))
  Φ t := PhiS m c t.val (Nat.le_of_lt_succ t.isLt)
  q := dealt
  owed _ := 0

theorem A_eq (c : Dev nD) (w : Fin cfg0.W) : (dats m 0 c).A w = V m c (Pipeline.arrRef spec0 w) := by
  dsimp only [dats]
theorem q_eq (c : Dev nD) : (dats m 0 c).q = dealt := rfl

theorem PhiS_castSucc (c : Dev nD) (t : Fin cfg0.N) : (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = k0_pay2 (accAt m c t.val t.isLt) := by dsimp only [dats]

/-- Each input window's current buffer holds its block at every point, fetched there or not: an input the body only
    reads keeps its block where the index map did not move. -/
theorem before0 (c : Dev nD) (t : Fin cfg0.N) (d) : (dats m 0 c).before 0 t d = iblk m c 0 t :=
  ((dats m 0 c).before_in_eq_fetched 0 rfl (fun _ => rfl) (fun _ _ _ => rfl)
      (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl)
      (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl)
      (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl)
      (fun t => by rw [after3]; unfold Dat.blockOf iblk; rw [A_eq]; try rfl) t d).trans
    (by unfold Dat.fetched Dat.blockOf iblk; rw [A_eq]; try rfl)
theorem before4 (c : Dev nD) (t : Fin cfg0.N) (d) : (dats m 0 c).before 4 t d = iblk m c 4 t :=
  ((dats m 0 c).before_in_eq_fetched 4 rfl (fun _ => rfl) (fun _ _ _ => rfl)
      (fun t => by rw [after4]; unfold Dat.blockOf iblk; rw [A_eq]; try rfl) t d).trans
    (by unfold Dat.fetched Dat.blockOf iblk; rw [A_eq]; try rfl)
theorem before5 (c : Dev nD) (t : Fin cfg0.N) (d) : (dats m 0 c).before 5 t d = iblk m c 5 t :=
  ((dats m 0 c).before_in_eq_fetched 5 rfl (fun _ => rfl) (fun _ _ _ => rfl)
      (fun t => by rw [after5]; unfold Dat.blockOf iblk; rw [A_eq]; try rfl) t d).trans
    (by unfold Dat.fetched Dat.blockOf iblk; rw [A_eq]; try rfl)
theorem before6 (c : Dev nD) (t : Fin cfg0.N) (d) : (dats m 0 c).before 6 t d = iblk m c 6 t :=
  ((dats m 0 c).before_in_eq_fetched 6 rfl (fun _ => rfl) (fun _ _ _ => rfl)
      (fun t => by rw [after6]; unfold Dat.blockOf iblk; rw [A_eq]; try rfl) t d).trans
    (by unfold Dat.fetched Dat.blockOf iblk; rw [A_eq]; try rfl)

end Cert.KernelIdeal.Region

end
-- ==== Proof.BodyRun.lean ====
/-
  The kernel body run once, on whole staging buffers holding given contents, in each of the three control cases the
  8 × 8 grid meets: the column tile is the first (the accumulator is reset, then added to), a middle one (added to), the
  last (added to, then the logarithm of one plus it is written to the output block). The inputs' buffers are left as found.
-/
import proofs.«116593_j68178310857069_1_alg».proof.Proof.RegionData
import Idealize.ShloMosaic.Lib.Pipeline.Value

set_option maxRecDepth 16384

noncomputable section

namespace Cert.KernelIdeal.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

theorem zeros2 : (![0, 0] : Fin 2 → Nat) = fun _ => 0 := by funext a; fin_cases a <;> rfl

set_option maxHeartbeats 2000000 in
/-- A middle column tile: the accumulator takes the point's lane sums on top of what it held; the output block is untouched. -/
theorem run_middle (c : Dev nD) (i : grid0.Coords)
    (a2 : Memref sig .tc .vmem S512x512 .f32) (h2 : a2.IsWhole) (a3 : Memref sig .tc .vmem S512x512 .f32) (h3 : a3.IsWhole)
    (a4 : Memref sig .tc .vmem S512x1 .f32) (h4 : a4.IsWhole) (a5 : Memref sig .tc .vmem S1x512 .f32) (h5 : a5.IsWhole)
    (a6 : Memref sig .tc .vmem S512x1 .i32) (h6 : a6.IsWhole) (a7 : Memref sig .tc .vmem S1x512 .i32) (h7 : a7.IsWhole)
    (a8 : Memref sig .tc .vmem S1x1 .f32) (h8 : a8.IsWhole) (a9 : Memref sig .tc .vmem S512x1 .f32) (h9 : a9.IsWhole)
    (a10 : Memref sig .tc .vmem S512x1 .f32) (h10 : a10.IsWhole)
    (hc1 : ¬condFirst i) (hc2 : ¬condLast i)
    (x0 x1 : Vec F S512x512 .f32) (x2 : Vec F S512x1 .f32) (x3 : Vec F S1x512 .f32) (x4 : Vec F S512x1 .i32) (x5 : Vec F S1x512 .i32)
    (x6 : Vec F S1x1 .f32) (xo xs : Vec F S512x1 .f32) (E : Set ℕ) (K : PUnit → sProp 𝕄) :
    iprop(owns (c : Thread nD τ) a2 fullShare x0 ∗ owns (c : Thread nD τ) a3 fullShare x1 ∗ owns (c : Thread nD τ) a4 fullShare x2
        ∗ owns (c : Thread nD τ) a5 fullShare x3 ∗ owns (c : Thread nD τ) a6 fullShare x4 ∗ owns (c : Thread nD τ) a7 fullShare x5
        ∗ owns (c : Thread nD τ) a8 fullShare x6 ∗ owns (c : Thread nD τ) a9 fullShare xo ∗ owns (c : Thread nD τ) a10 fullShare xs
        ∗ (iprop(owns (c : Thread nD τ) a2 fullShare x0 ∗ owns (c : Thread nD τ) a3 fullShare x1 ∗ owns (c : Thread nD τ) a4 fullShare x2
        ∗ owns (c : Thread nD τ) a5 fullShare x3 ∗ owns (c : Thread nD τ) a6 fullShare x4 ∗ owns (c : Thread nD τ) a7 fullShare x5
        ∗ owns (c : Thread nD τ) a8 fullShare x6 ∗ owns (c : Thread nD τ) a9 fullShare xo
            ∗ owns (c : Thread nD τ) a10 fullShare (k0_pay1 (k0_pay4 x0 x1 x2 x3) (k0_pay5 i x4 x5) x6 xs)) -∗ K ⟨⟩))
      ⊢ wp frame (wpE (defs₀ (F := F)) Variants.none c none) E (cc0__pairwise_kernel i a2 h2 a3 h3 a4 h4 a5 h5 a6 h6 a7 h7 a8 h8 a9 h9 a10 h10) K := by
  have hz := zeros2
  simp only [cc0__pairwise_kernel_eq_skeleton]; unfold cc0__pairwise_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fo, %hfo, HO⟩, ⟨%fs, %hfs, HS⟩, Hk⟩
  obtain rfl := h2.eq_unread hf0; obtain rfl := h3.eq_unread hf1; obtain rfl := h4.eq_unread hf2; obtain rfl := h5.eq_unread hf3
  obtain rfl := h6.eq_unread hf4; obtain rfl := h7.eq_unread hf5; obtain rfl := h8.eq_unread hf6; obtain rfl := h9.eq_unread hfo
  obtain rfl := h10.eq_unread hfs
  sl_exec (disch := first | exact hc1 | exact hc2)
  sl_step
  iapply Hk
  isplitl [H0]; · iexists _; isplitr; · ipureintro; exact h2.read_unread _
                  iexact H0
  isplitl [H1]; · iexists _; isplitr; · ipureintro; exact h3.read_unread _
                  iexact H1
  isplitl [H2]; · iexists _; isplitr; · ipureintro; exact h4.read_unread _
                  iexact H2
  isplitl [H3]; · iexists _; isplitr; · ipureintro; exact h5.read_unread _
                  iexact H3
  isplitl [H4]; · iexists _; isplitr; · ipureintro; exact h6.read_unread _
                  iexact H4
  isplitl [H5]; · iexists _; isplitr; · ipureintro; exact h7.read_unread _
                  iexact H5
  isplitl [H6]; · iexists _; isplitr; · ipureintro; exact h8.read_unread _
                  iexact H6
  isplitl [HO]; · iexists _; isplitr; · ipureintro; exact h9.read_unread _
                  iexact HO
  iexists _; isplitr
  swap; · iexact HS
  ipureintro
  rw [View.read_writes_eq_canon _ _ _ (fun y => ⟨_, List.mem_cons_self, View.mem_set_unit_zero hz inb_S512x1_S512x1_0_0 y⟩), View.canon_cons_unit_zero hz]
  sl_unfold_words
  simp only [View.readAt_eq_ld, View.readCov_unit_zero (S := S512x1) _ hz, View.canon_cons_unit_zero (S := S512x1) hz, h2.read_unread, h3.read_unread, h4.read_unread, h5.read_unread, h6.read_unread,
    h7.read_unread, h8.read_unread, h9.read_unread, h10.read_unread, View.ld_unit_zero (S := S512x512) hz, View.ld_unit_zero (S := S512x1) hz,
    View.ld_unit_zero (S := S1x512) hz, View.ld_unit_zero (S := S1x1) hz]
  rfl

set_option maxHeartbeats 2000000 in
/-- The first column tile: whatever the accumulator held, it is reset to zeros and takes the point's lane sums. -/
theorem run_first (c : Dev nD) (i : grid0.Coords)
    (a2 : Memref sig .tc .vmem S512x512 .f32) (h2 : a2.IsWhole) (a3 : Memref sig .tc .vmem S512x512 .f32) (h3 : a3.IsWhole)
    (a4 : Memref sig .tc .vmem S512x1 .f32) (h4 : a4.IsWhole) (a5 : Memref sig .tc .vmem S1x512 .f32) (h5 : a5.IsWhole)
    (a6 : Memref sig .tc .vmem S512x1 .i32) (h6 : a6.IsWhole) (a7 : Memref sig .tc .vmem S1x512 .i32) (h7 : a7.IsWhole)
    (a8 : Memref sig .tc .vmem S1x1 .f32) (h8 : a8.IsWhole) (a9 : Memref sig .tc .vmem S512x1 .f32) (h9 : a9.IsWhole)
    (a10 : Memref sig .tc .vmem S512x1 .f32) (h10 : a10.IsWhole)
    (hc1 : condFirst i) (hc2 : ¬condLast i)
    (x0 x1 : Vec F S512x512 .f32) (x2 : Vec F S512x1 .f32) (x3 : Vec F S1x512 .f32) (x4 : Vec F S512x1 .i32) (x5 : Vec F S1x512 .i32)
    (x6 : Vec F S1x1 .f32) (xo xs : Vec F S512x1 .f32) (E : Set ℕ) (K : PUnit → sProp 𝕄) :
    iprop(owns (c : Thread nD τ) a2 fullShare x0 ∗ owns (c : Thread nD τ) a3 fullShare x1 ∗ owns (c : Thread nD τ) a4 fullShare x2
        ∗ owns (c : Thread nD τ) a5 fullShare x3 ∗ owns (c : Thread nD τ) a6 fullShare x4 ∗ owns (c : Thread nD τ) a7 fullShare x5
        ∗ owns (c : Thread nD τ) a8 fullShare x6 ∗ owns (c : Thread nD τ) a9 fullShare xo ∗ owns (c : Thread nD τ) a10 fullShare xs
        ∗ (iprop(owns (c : Thread nD τ) a2 fullShare x0 ∗ owns (c : Thread nD τ) a3 fullShare x1 ∗ owns (c : Thread nD τ) a4 fullShare x2
        ∗ owns (c : Thread nD τ) a5 fullShare x3 ∗ owns (c : Thread nD τ) a6 fullShare x4 ∗ owns (c : Thread nD τ) a7 fullShare x5
        ∗ owns (c : Thread nD τ) a8 fullShare x6 ∗ owns (c : Thread nD τ) a9 fullShare xo
            ∗ owns (c : Thread nD τ) a10 fullShare (k0_pay1 (k0_pay4 x0 x1 x2 x3) (k0_pay5 i x4 x5) x6 (k0_pay3 (F := F)))) -∗ K ⟨⟩))
      ⊢ wp frame (wpE (defs₀ (F := F)) Variants.none c none) E (cc0__pairwise_kernel i a2 h2 a3 h3 a4 h4 a5 h5 a6 h6 a7 h7 a8 h8 a9 h9 a10 h10) K := by
  have hz := zeros2
  simp only [cc0__pairwise_kernel_eq_skeleton]; unfold cc0__pairwise_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fo, %hfo, HO⟩, ⟨%fs, %hfs, HS⟩, Hk⟩
  obtain rfl := h2.eq_unread hf0; obtain rfl := h3.eq_unread hf1; obtain rfl := h4.eq_unread hf2; obtain rfl := h5.eq_unread hf3
  obtain rfl := h6.eq_unread hf4; obtain rfl := h7.eq_unread hf5; obtain rfl := h8.eq_unread hf6; obtain rfl := h9.eq_unread hfo
  obtain rfl := h10.eq_unread hfs
  sl_exec (disch := first | exact hc1 | exact hc2)
  sl_step
  iapply Hk
  isplitl [H0]; · iexists _; isplitr; · ipureintro; exact h2.read_unread _
                  iexact H0
  isplitl [H1]; · iexists _; isplitr; · ipureintro; exact h3.read_unread _
                  iexact H1
  isplitl [H2]; · iexists _; isplitr; · ipureintro; exact h4.read_unread _
                  iexact H2
  isplitl [H3]; · iexists _; isplitr; · ipureintro; exact h5.read_unread _
                  iexact H3
  isplitl [H4]; · iexists _; isplitr; · ipureintro; exact h6.read_unread _
                  iexact H4
  isplitl [H5]; · iexists _; isplitr; · ipureintro; exact h7.read_unread _
                  iexact H5
  isplitl [H6]; · iexists _; isplitr; · ipureintro; exact h8.read_unread _
                  iexact H6
  isplitl [HO]; · iexists _; isplitr; · ipureintro; exact h9.read_unread _
                  iexact HO
  iexists _; isplitr
  swap; · iexact HS
  ipureintro
  rw [View.read_writes_eq_canon _ _ _ (fun y => ⟨_, List.mem_cons_self, View.mem_set_unit_zero hz inb_S512x1_S512x1_0_0 y⟩), View.canon_cons_unit_zero hz]
  sl_unfold_words
  simp only [View.readAt_eq_ld, View.readCov_unit_zero (S := S512x1) _ hz, View.canon_cons_unit_zero (S := S512x1) hz, h2.read_unread, h3.read_unread, h4.read_unread, h5.read_unread, h6.read_unread,
    h7.read_unread, h8.read_unread, h9.read_unread, h10.read_unread, View.ld_unit_zero (S := S512x512) hz, View.ld_unit_zero (S := S512x1) hz,
    View.ld_unit_zero (S := S1x512) hz, View.ld_unit_zero (S := S1x1) hz]
  rfl

set_option maxHeartbeats 2000000 in
/-- The last column tile: the accumulator takes the point's lane sums, and the output block is written with the
    logarithm of one plus it. -/
theorem run_last (c : Dev nD) (i : grid0.Coords)
    (a2 : Memref sig .tc .vmem S512x512 .f32) (h2 : a2.IsWhole) (a3 : Memref sig .tc .vmem S512x512 .f32) (h3 : a3.IsWhole)
    (a4 : Memref sig .tc .vmem S512x1 .f32) (h4 : a4.IsWhole) (a5 : Memref sig .tc .vmem S1x512 .f32) (h5 : a5.IsWhole)
    (a6 : Memref sig .tc .vmem S512x1 .i32) (h6 : a6.IsWhole) (a7 : Memref sig .tc .vmem S1x512 .i32) (h7 : a7.IsWhole)
    (a8 : Memref sig .tc .vmem S1x1 .f32) (h8 : a8.IsWhole) (a9 : Memref sig .tc .vmem S512x1 .f32) (h9 : a9.IsWhole)
    (a10 : Memref sig .tc .vmem S512x1 .f32) (h10 : a10.IsWhole)
    (hc1 : ¬condFirst i) (hc2 : condLast i)
    (x0 x1 : Vec F S512x512 .f32) (x2 : Vec F S512x1 .f32) (x3 : Vec F S1x512 .f32) (x4 : Vec F S512x1 .i32) (x5 : Vec F S1x512 .i32)
    (x6 : Vec F S1x1 .f32) (xo xs : Vec F S512x1 .f32) (E : Set ℕ) (K : PUnit → sProp 𝕄) :
    iprop(owns (c : Thread nD τ) a2 fullShare x0 ∗ owns (c : Thread nD τ) a3 fullShare x1 ∗ owns (c : Thread nD τ) a4 fullShare x2
        ∗ owns (c : Thread nD τ) a5 fullShare x3 ∗ owns (c : Thread nD τ) a6 fullShare x4 ∗ owns (c : Thread nD τ) a7 fullShare x5
        ∗ owns (c : Thread nD τ) a8 fullShare x6 ∗ owns (c : Thread nD τ) a9 fullShare xo ∗ owns (c : Thread nD τ) a10 fullShare xs
        ∗ (iprop(owns (c : Thread nD τ) a2 fullShare x0 ∗ owns (c : Thread nD τ) a3 fullShare x1 ∗ owns (c : Thread nD τ) a4 fullShare x2
        ∗ owns (c : Thread nD τ) a5 fullShare x3 ∗ owns (c : Thread nD τ) a6 fullShare x4 ∗ owns (c : Thread nD τ) a7 fullShare x5
        ∗ owns (c : Thread nD τ) a8 fullShare x6 ∗ owns (c : Thread nD τ) a9 fullShare (k0_pay2 (k0_pay1 (k0_pay4 x0 x1 x2 x3) (k0_pay5 i x4 x5) x6 xs))
            ∗ owns (c : Thread nD τ) a10 fullShare (k0_pay1 (k0_pay4 x0 x1 x2 x3) (k0_pay5 i x4 x5) x6 xs)) -∗ K ⟨⟩))
      ⊢ wp frame (wpE (defs₀ (F := F)) Variants.none c none) E (cc0__pairwise_kernel i a2 h2 a3 h3 a4 h4 a5 h5 a6 h6 a7 h7 a8 h8 a9 h9 a10 h10) K := by
  have hz := zeros2
  simp only [cc0__pairwise_kernel_eq_skeleton]; unfold cc0__pairwise_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fo, %hfo, HO⟩, ⟨%fs, %hfs, HS⟩, Hk⟩
  obtain rfl := h2.eq_unread hf0; obtain rfl := h3.eq_unread hf1; obtain rfl := h4.eq_unread hf2; obtain rfl := h5.eq_unread hf3
  obtain rfl := h6.eq_unread hf4; obtain rfl := h7.eq_unread hf5; obtain rfl := h8.eq_unread hf6; obtain rfl := h9.eq_unread hfo
  obtain rfl := h10.eq_unread hfs
  sl_exec (disch := first | exact hc1 | exact hc2)
  sl_step
  iapply Hk
  isplitl [H0]; · iexists _; isplitr; · ipureintro; exact h2.read_unread _
                  iexact H0
  isplitl [H1]; · iexists _; isplitr; · ipureintro; exact h3.read_unread _
                  iexact H1
  isplitl [H2]; · iexists _; isplitr; · ipureintro; exact h4.read_unread _
                  iexact H2
  isplitl [H3]; · iexists _; isplitr; · ipureintro; exact h5.read_unread _
                  iexact H3
  isplitl [H4]; · iexists _; isplitr; · ipureintro; exact h6.read_unread _
                  iexact H4
  isplitl [H5]; · iexists _; isplitr; · ipureintro; exact h7.read_unread _
                  iexact H5
  isplitl [H6]; · iexists _; isplitr; · ipureintro; exact h8.read_unread _
                  iexact H6
  isplitl [HO]
  · iexists _; isplitr
    swap; · iexact HO
    ipureintro
    rw [View.read_writes_eq_canon _ _ _ (fun y => ⟨_, List.mem_cons_self, View.mem_set_unit_zero hz inb_S512x1_S512x1_0_0 y⟩), View.canon_cons_unit_zero hz]
    sl_unfold_words
    simp only [View.readAt_eq_ld, View.readCov_unit_zero (S := S512x1) _ hz, View.canon_cons_unit_zero (S := S512x1) hz, h2.read_unread, h3.read_unread, h4.read_unread, h5.read_unread, h6.read_unread,
      h7.read_unread, h8.read_unread, h9.read_unread, h10.read_unread, View.ld_unit_zero (S := S512x512) hz, View.ld_unit_zero (S := S512x1) hz,
      View.ld_unit_zero (S := S1x512) hz, View.ld_unit_zero (S := S1x1) hz]
    rfl
  iexists _; isplitr
  swap; · iexact HS
  ipureintro
  sl_unfold_words
  rw [View.read_writes_eq_canon _ _ _ (fun y => ⟨_, List.mem_cons_self, View.mem_set_unit_zero hz inb_S512x1_S512x1_0_0 y⟩), View.canon_cons_unit_zero hz]
  try sl_unfold_words
  simp only [View.readAt_eq_ld, View.readCov_unit_zero (S := S512x1) _ hz, View.canon_cons_unit_zero (S := S512x1) hz, h2.read_unread, h3.read_unread, h4.read_unread, h5.read_unread, h6.read_unread,
    h7.read_unread, h8.read_unread, h9.read_unread, h10.read_unread, View.ld_unit_zero (S := S512x512) hz, View.ld_unit_zero (S := S512x1) hz,
    View.ld_unit_zero (S := S1x512) hz, View.ld_unit_zero (S := S1x1) hz]
  rfl

end Cert.KernelIdeal.Region

end
-- ==== Proof.RegionBody.lean ====
/-
  The body obligation at every grid point: from the invariant and every window's current buffer at what it then holds,
  the body runs to the invariant of the next point and every buffer at what the proof data say it leaves. The point's
  column tile decides which of the three runs applies.
-/
import proofs.«116593_j68178310857069_1_alg».proof.Proof.BodyRun

set_option maxRecDepth 16384

noncomputable section

namespace Cert.KernelIdeal.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

theorem live0 : ∀ t : Fin cfg0.N, cfg0.idle 0 (grid0.coords t) = false := fun _ => rfl
theorem live1 : ∀ t : Fin cfg0.N, cfg0.idle 1 (grid0.coords t) = false := fun _ => rfl
theorem live2 : ∀ t : Fin cfg0.N, cfg0.idle 2 (grid0.coords t) = false := fun _ => rfl
theorem live3 : ∀ t : Fin cfg0.N, cfg0.idle 3 (grid0.coords t) = false := fun _ => rfl
theorem live4 : ∀ t : Fin cfg0.N, cfg0.idle 4 (grid0.coords t) = false := fun _ => rfl
theorem live5 : ∀ t : Fin cfg0.N, cfg0.idle 5 (grid0.coords t) = false := fun _ => rfl
theorem live6 : ∀ t : Fin cfg0.N, cfg0.idle 6 (grid0.coords t) = false := fun _ => rfl
/-- Off the last column tile the output window is idle and is not written back. -/
theorem idle7 : ∀ t : Fin cfg0.N, ¬condLast (grid0.coords t) → cfg0.idle 7 (grid0.coords t) = true := by decide +kernel
theorem noFlush7 : ∀ t : Fin cfg0.N, ¬condLast (grid0.coords t) → (cfg0.win 7).flush t = false := by decide +kernel
/-- At the last column tile it is live. -/
theorem live7 : ∀ t : Fin cfg0.N, condLast (grid0.coords t) → cfg0.idle 7 (grid0.coords t) = false := by decide +kernel

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).owesAt () t.succ = (dats m 0 c).owesAt () t.castSucc from rfl]
  rw [show (dats m 0 c).Φ t.succ = owns (c : Thread nD τ) scM fullShare (accAt m c t.val t.isLt) from rfl]
  rw [show (dats m 0 c).leavesExact 0 t = owns (c : Thread nD τ) (st0_0 t) fullShare ((dats m 0 c).after 0 t) from by
    unfold Dat.leavesExact; rw [live0 t], after0]
  rw [show (dats m 0 c).leavesExact 1 t = owns (c : Thread nD τ) (st0_1 t) fullShare ((dats m 0 c).after 1 t) from by
    unfold Dat.leavesExact; rw [live1 t], after1]
  rw [show (dats m 0 c).leavesExact 2 t = owns (c : Thread nD τ) (st0_2 t) fullShare ((dats m 0 c).after 2 t) from by
    unfold Dat.leavesExact; rw [live2 t], after2]
  rw [show (dats m 0 c).leavesExact 3 t = owns (c : Thread nD τ) (st0_3 t) fullShare ((dats m 0 c).after 3 t) from by
    unfold Dat.leavesExact; rw [live3 t], after3]
  rw [show (dats m 0 c).leavesExact 4 t = owns (c : Thread nD τ) (st0_4 t) fullShare ((dats m 0 c).after 4 t) from by
    unfold Dat.leavesExact; rw [live4 t], after4]
  rw [show (dats m 0 c).leavesExact 5 t = owns (c : Thread nD τ) (st0_5 t) fullShare ((dats m 0 c).after 5 t) from by
    unfold Dat.leavesExact; rw [live5 t], after5]
  rw [show (dats m 0 c).leavesExact 6 t = owns (c : Thread nD τ) (st0_6 t) fullShare ((dats m 0 c).after 6 t) from by
    unfold Dat.leavesExact; rw [live6 t], after6]
  simp only [after0, after1, after2, after3, after4, after5, after6]
  have hN : t.val < 64 := lt_of_lt_of_eq t.isLt N_0
  by_cases h0 : t.val % 8 = 0
  · have hc1 : condFirst (grid0.coords t) := (hcondFirst t).mpr h0
    have hc2 : ¬condLast (grid0.coords t) := fun h => by have := (hcondLast t).mp h; omega
    rw [Dat.leavesExact_idle (dats m 0 c) 7 t (idle7 t hc2) (noFlush7 t hc2), accAt_first m c t h0]
    unfold step
    by_cases hz : t.val = 0
    · rw [PhiS_castSucc m c t, show PhiS m c t.val (Nat.le_of_lt t.isLt) = Pipeline.scopedRest spec0 c from by
        have : ∀ n h, n = 0 → PhiS m c n h = Pipeline.scopedRest spec0 c := fun n h e => by subst e; rfl
        exact this _ _ hz, scopedRest_scratch]
      iintro ⟨⟨%ds, HS⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run_first c (grid0.coords t) _ _ _ _ _ _ _ _ _ _ _ _ _ _ _ _ _ _ hc1 hc2 (iblk m c 0 t) (iblk m c 1 t) (iblk m c 2 t) (iblk m c 3 t)
        (iblk m c 4 t) (iblk m c 5 t) (iblk m c 6 t) ((dats m 0 c).before 7 t d7) ds Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexact HS
      iintro ⟨H0, H1, H2, H3, H4, H5, H6, H7, HS⟩
      isplitl [HS]; · iexact HS
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
    · rw [PhiS_castSucc m c t, PhiS_pos m c _ _ hz]
      iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run_first c (grid0.coords t) _ _ _ _ _ _ _ _ _ _ _ _ _ _ _ _ _ _ hc1 hc2 (iblk m c 0 t) (iblk m c 1 t) (iblk m c 2 t) (iblk m c 3 t)
        (iblk m c 4 t) (iblk m c 5 t) (iblk m c 6 t) ((dats m 0 c).before 7 t d7) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexact HS
      iintro ⟨H0, H1, H2, H3, H4, H5, H6, H7, HS⟩
      isplitl [HS]; · iexact HS
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
  · have hc1 : ¬condFirst (grid0.coords t) := fun h => h0 ((hcondFirst t).mp h)
    have hz : t.val ≠ 0 := fun e => h0 (by rw [e])
    rw [PhiS_castSucc m c t, PhiS_pos m c _ _ hz, accAt_next m c t h0]
    unfold step
    by_cases h7 : t.val % 8 = 7
    · have hc2 : condLast (grid0.coords t) := (hcondLast t).mpr h7
      rw [show (dats m 0 c).leavesExact 7 t = owns (c : Thread nD τ) (st0_7 t) fullShare ((dats m 0 c).after 7 t) from by
        unfold Dat.leavesExact; rw [live7 t hc2], after7, accAt_next m c t h0]
      unfold step
      iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run_last c (grid0.coords t) _ _ _ _ _ _ _ _ _ _ _ _ _ _ _ _ _ _ hc1 hc2 (iblk m c 0 t) (iblk m c 1 t) (iblk m c 2 t) (iblk m c 3 t)
        (iblk m c 4 t) (iblk m c 5 t) (iblk m c 6 t) ((dats m 0 c).before 7 t d7) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexact HS
      iintro ⟨H0, H1, H2, H3, H4, H5, H6, H7, HS⟩
      isplitl [HS]; · iexact HS
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · have hc2 : ¬condLast (grid0.coords t) := fun h => h7 ((hcondLast t).mp h)
      rw [Dat.leavesExact_idle (dats m 0 c) 7 t (idle7 t hc2) (noFlush7 t hc2)]
      iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run_middle c (grid0.coords t) _ _ _ _ _ _ _ _ _ _ _ _ _ _ _ _ _ _ hc1 hc2 (iblk m c 0 t) (iblk m c 1 t) (iblk m c 2 t) (iblk m c 3 t)
        (iblk m c 4 t) (iblk m c 5 t) (iblk m c 6 t) ((dats m 0 c).before 7 t d7) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexact HS
      iintro ⟨H0, H1, H2, H3, H4, H5, H6, H7, HS⟩
      isplitl [HS]; · iexact HS
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Region

end
-- ==== Proof.RegionRun.lean ====
/-
  The region launched. What it hands back: every window's array at what the write-backs leave (only the output
  array changes), every other buffer as the region found it; the later host lines then run from those contents. Two
  windows share the feature matrix, so its share is split on the way in and joined on the way out, and the later lines
  run over all of the core's unscoped buffers at once.
-/
import proofs.«116593_j68178310857069_1_alg».proof.Proof.RegionBody

set_option maxRecDepth 16384

noncomputable section

namespace Cert.KernelIdeal.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Core `c`'s buffer contents when the region is left: as entered, the output array at what the write-backs left. -/
def Vexit (c : Dev nD) : Valuation τ sig (Elt F) :=
  Function.update (V0 m c) (Proc.devRef .tc main_v89) ((dats m 0 c).arrAt 7 cfg0.N)

/-- and after the later host lines. -/
def Vfin (c : Dev nD) (b : Ref sig .tc) : Buf (Elt F) ((c.tc : Thread nD τ).loc b) :=
  StableHlo.after (List.flatten postOps) (Vexit m c) (Proc.devRef .tc b)

/-- Every window's array at the exit is what the proof data compute: an input's is never written back. -/
theorem Vexit_arr (c : Dev nD) (w : Fin 8) :
    (dats m 0 c).arrAt w cfg0.N = Vexit m c (Proc.devRef .tc (Pipeline.arrRef spec0 w)) := by
  have hin : ∀ (w : Fin 8) (hw : (cfg0.win w).isOut = false) (hne : Pipeline.arrRef spec0 w ≠ main_v89),
      (dats m 0 c).arrAt w cfg0.N = Vexit m c (Proc.devRef .tc (Pipeline.arrRef spec0 w)) := fun w hw hne => by
    rw [(dats m 0 c).arrAt_in w hw, A_eq]
    exact (Function.update_of_ne (StableHlo.devRef_ne_of_ne hne) _ _).symm
  match w with
  | 0 => exact hin 0 rfl (by decide)
  | 1 => exact hin 1 rfl (by decide)
  | 2 => exact hin 2 rfl (by decide)
  | 3 => exact hin 3 rfl (by decide)
  | 4 => exact hin 4 rfl (by decide)
  | 5 => exact hin 5 rfl (by decide)
  | 6 => exact hin 6 rfl (by decide)
  | 7 =>
    show _ = Function.update (V0 m c) (Proc.devRef .tc main_v89) ((dats m 0 c).arrAt 7 cfg0.N) (Proc.devRef .tc main_v89)
    rw [Function.update_self]

/-- A buffer that bypasses the region is at the exit as at the entry. -/
theorem Vexit_rest (c : Dev nD) (b : Ref sig .tc) (hb : b ∈ Pipeline.restRefs sig spec0) :
    Vexit m c (Proc.devRef .tc b) = V m c b := by
  refine Function.update_of_ne (StableHlo.devRef_ne_of_ne fun e => ?_) _ _
  exact (Finset.mem_sdiff.mp hb).2 (Finset.mem_image.mpr ⟨7, Finset.mem_univ _, e.symm⟩)

/-- The later host lines write no array of the region. -/
theorem Vfin_main_arg1 (c : Dev nD) : Vfin m c main_arg1 = Vexit m c (Proc.devRef .tc main_arg1) := by
  show StableHlo.after (List.flatten postOps) (Vexit m c) (Proc.devRef .tc main_arg1) = _
  simp only [postOps, hostOps1, hostOps1_1, hostOps1_2, List.flatten_cons, List.flatten_nil, List.append_nil, List.cons_append, List.nil_append]
  after_results_simp <;> rfl
theorem Vfin_main_v84 (c : Dev nD) : Vfin m c main_v84 = Vexit m c (Proc.devRef .tc main_v84) := by
  show StableHlo.after (List.flatten postOps) (Vexit m c) (Proc.devRef .tc main_v84) = _
  simp only [postOps, hostOps1, hostOps1_1, hostOps1_2, List.flatten_cons, List.flatten_nil, List.append_nil, List.cons_append, List.nil_append]
  after_results_simp <;> rfl
theorem Vfin_main_v85 (c : Dev nD) : Vfin m c main_v85 = Vexit m c (Proc.devRef .tc main_v85) := by
  show StableHlo.after (List.flatten postOps) (Vexit m c) (Proc.devRef .tc main_v85) = _
  simp only [postOps, hostOps1, hostOps1_1, hostOps1_2, List.flatten_cons, List.flatten_nil, List.append_nil, List.cons_append, List.nil_append]
  after_results_simp <;> rfl
theorem Vfin_main_v86 (c : Dev nD) : Vfin m c main_v86 = Vexit m c (Proc.devRef .tc main_v86) := by
  show StableHlo.after (List.flatten postOps) (Vexit m c) (Proc.devRef .tc main_v86) = _
  simp only [postOps, hostOps1, hostOps1_1, hostOps1_2, List.flatten_cons, List.flatten_nil, List.append_nil, List.cons_append, List.nil_append]
  after_results_simp <;> rfl
theorem Vfin_main_v87 (c : Dev nD) : Vfin m c main_v87 = Vexit m c (Proc.devRef .tc main_v87) := by
  show StableHlo.after (List.flatten postOps) (Vexit m c) (Proc.devRef .tc main_v87) = _
  simp only [postOps, hostOps1, hostOps1_1, hostOps1_2, List.flatten_cons, List.flatten_nil, List.append_nil, List.cons_append, List.nil_append]
  after_results_simp <;> rfl
theorem Vfin_main_v88 (c : Dev nD) : Vfin m c main_v88 = Vexit m c (Proc.devRef .tc main_v88) := by
  show StableHlo.after (List.flatten postOps) (Vexit m c) (Proc.devRef .tc main_v88) = _
  simp only [postOps, hostOps1, hostOps1_1, hostOps1_2, List.flatten_cons, List.flatten_nil, List.append_nil, List.cons_append, List.nil_append]
  after_results_simp <;> rfl
theorem Vfin_main_v89 (c : Dev nD) : Vfin m c main_v89 = Vexit m c (Proc.devRef .tc main_v89) := by
  show StableHlo.after (List.flatten postOps) (Vexit m c) (Proc.devRef .tc main_v89) = _
  simp only [postOps, hostOps1, hostOps1_1, hostOps1_2, List.flatten_cons, List.flatten_nil, List.append_nil, List.cons_append, List.nil_append]
  after_results_simp <;> rfl

theorem Vfin_arr (c : Dev nD) (w : Fin 8) : (dats m 0 c).arrAt w cfg0.N = Vfin m c (Pipeline.arrRef spec0 w) := by
  rw [Vexit_arr]
  match w with
  | 0 => exact (Vfin_main_arg1 m c).symm
  | 1 => exact (Vfin_main_arg1 m c).symm
  | 2 => exact (Vfin_main_v84 m c).symm
  | 3 => exact (Vfin_main_v85 m c).symm
  | 4 => exact (Vfin_main_v86 m c).symm
  | 5 => exact (Vfin_main_v87 m c).symm
  | 6 => exact (Vfin_main_v88 m c).symm
  | 7 => exact (Vfin_main_v89 m c).symm

theorem postOps_sub' : ∀ ops ∈ (postOps : List (List (HloOp τ sig (Elt F)))), ∀ op ∈ ops, op.bufs ⊆ Pipeline.ucRefs τ sig :=
  fun ops ho op h => Pipeline.sub_ucRefs op ((List.forall_iff_forall_mem.mp ((List.forall_iff_forall_mem.mp postOps_sub) ops ho)) op h)
theorem postOps_fresh' : ∀ ops ∈ (postOps : List (List (HloOp τ sig (Elt F)))), ∀ op ∈ ops, op.fresh = ∅ :=
  fun ops ho op h => (List.forall_iff_forall_mem.mp ((List.forall_iff_forall_mem.mp postOps_fresh) ops ho)) op h

/-- All of the core's unscoped buffers at a valuation: the buffers behind the arrays and the bypassing ones. -/
theorem held_split (c : Dev nD) (W : Valuation τ sig (Elt F)) :
    (StableHlo.held (c.tc : Thread nD τ) (Pipeline.ucRefs τ sig) W : sProp 𝕄)
      = iprop(Pipeline.arrBufs spec0 c (fun b => W (Proc.devRef .tc b)) ∗ Pipeline.unscopedRest spec0 c (fun b => W (Proc.devRef .tc b))) := by
  rw [← Pipeline.unscopedBufs_held (Ix := Unit) (Name := ℕ) (U := UR sig nD τ) (Lvl := ℕ) c W]
  exact Pipeline.unscopedBufs_split₀ cfgs 0 winFacts₀0.arr_unscoped c _

/-- At the exit the windows' holdings and the bypassing buffers are all of the unscoped buffers at the exit contents. -/
theorem held_of_exit (c : Dev nD) :
    iprop((dats m 0 c).arrays ((dats m 0 c).arrAt · cfg0.N) ∗ Pipeline.unscopedRest spec0 c (V m c))
      ⊢ (StableHlo.held (c.tc : Thread nD τ) (Pipeline.ucRefs τ sig) (Vexit m c) : sProp 𝕄) := by
  rw [held_split]
  iintro ⟨Ha, Hz⟩
  isplitl [Ha]
  · iapply (bufs_of_arrays (dats m 0 c) (q_eq m c) (fun b => Vexit m c (Proc.devRef .tc b)) _ (Vexit_arr m c)); iexact Ha
  · have e : ∀ b ∈ Pipeline.restRefs sig spec0, (((c.tc : Thread nD τ).loc b ↦{fullShare} V m c b) : sProp 𝕄)
        = ((c.tc : Thread nD τ).loc b ↦{fullShare} Vexit m c (Proc.devRef .tc b)) := fun b hb => by rw [Vexit_rest m c b hb]
    unfold Pipeline.unscopedRest
    iapply (Entails.of_eq (bigSep_congr e))
    iexact Hz

/-- After the later lines all of the unscoped buffers give the windows' holdings back, and the bypassing buffers at
    their final contents. -/
theorem final_of_held (c : Dev nD) :
    (StableHlo.held (c.tc : Thread nD τ) (Pipeline.ucRefs τ sig) (StableHlo.after (List.flatten postOps) (Vexit m c)) : sProp 𝕄)
      ⊢ iprop((dats m 0 c).arrays ((dats m 0 c).arrAt · cfg0.N) ∗ Pipeline.unscopedRest spec0 c (Vfin m c)) := by
  rw [held_split]
  iintro ⟨Ha, Hz⟩
  isplitl [Ha]
  · iapply (arrays_of_bufs (dats m 0 c) (q_eq m c) (Vfin m c) _ (Vfin_arr m c)); iexact Ha
  · iexact Hz

-- a rule stated for any thread is applied at the TensorCore thread: unification may unfold plain definitions in a metavariable's type
set_option backward.isDefEq.respectTransparency.types false in
/-- The later host lines, from the region's exit: the windows' holdings and the bypassing buffers are all of the core's
    unscoped buffers, the lines run over those, and the windows' holdings come back unchanged. -/
theorem htail (c : Dev nD) (Q' : PUnit → sProp 𝕄) :
    iprop((iprop((dats m 0 c).arrays ((dats m 0 c).arrAt · cfg0.N) ∗ Pipeline.unscopedRest spec0 c (Vfin m c)) -∗ Q' ⟨⟩)
        ∗ boundary (c.tc : Thread nD τ) ∗ (dats m 0 c).arrays ((dats m 0 c).arrAt · cfg0.N) ∗ Pipeline.unscopedRest spec0 c (V m c))
      ⊢ wp frame (wpE (Pipeline.defs (fun q => (cfgs q).toPCfg (Val := Elt F)) (defs₀ (F := F))) (Variants.lift Variants.none) (c.tc : Thread nD τ) none) Set.univ
          (Pipeline.chain ((postOps (F := F)).map StableHlo.seq)) Q' := by
  rw [← List.append_nil ((postOps (F := F)).map StableHlo.seq)]
  iintro ⟨Hk, Hb, Ha, Hz⟩
  ihave Hh := (held_of_exit m c) $$ [Ha Hz]
  · isplitl [Ha]; · iexact Ha
    iexact Hz
  iapply (Pipeline.wp_seqs_then (fun q => (cfgs q).toPCfg (Val := Elt F)) (defs₀ (F := F)) Variants.none c (Pipeline.ucRefs τ sig) [] postOps postOps_sub' postOps_fresh' (Vexit m c)) $$ [Hb Hh]
  · isplitl [Hb]; · iexact Hb
    iexact Hh
  iintro ⟨Hb, Hh⟩
  rw [Pipeline.chain_nil, wp_pure]
  imodintro
  iapply Hk
  iapply (final_of_held m c); iexact Hh

set_option maxHeartbeats 4000000 in
set_option maxRecDepth 65536 in
set_option backward.isDefEq.respectTransparency.types false in
/-- THE REGION RUN. From any memory with zero counters every weakly fair execution of @main terminates, nothing faulting,
    with every window's array at what the proof data compute and every other unscoped buffer at what the later host
    lines leave from the region's exit contents. -/
theorem run_region :
    θ_run defs (onTc (τ := τ) (main (F := F))) ⟨m, fun _ => 0, ρ⟩ (fun r => ∀ c : Dev nD,
      (∀ w, r.2.mem ((cfg0.win w).arr.view.loc (c.tc : Thread nD τ)) = (dats m 0 c).arrAt w cfg0.N)
      ∧ ∀ b ∈ Pipeline.restRefs sig spec0, r.2.mem ((c.tc : Thread nD τ).loc b) = Vfin m c b) :=
  Pipeline.θ_run_region_noSem_pf_tail (fun q => (cfgs q).toPCfg (Val := Elt F)) (fun q => (cfgs q).toPCfg_adm) (dats m) () cellOf_inj 0
    winFacts₀0 (Pipeline.PreFacts.none _) emb₁ defs₀ Variants.none m ρ main
    (fun _ => Pipeline.chain ((postOps (F := F)).map StableHlo.seq)) (fun c => (body_obligation m c).loose) block_pos0 arr_whole0 stage_whole0
    (fun _ _ => rfl)
    (u₀ := initOf (Pipeline.cells cfgs cellOf_inj) (Pipeline.launchToks cfgs cellOf_inj)) (hu₀ := .rfl)
    (V := V m) (hmain := hmain m Variants.none)
    (hsplit := fun c => arrays_of_bufs (dats m 0 c) (q_eq m c) (V m c) _ (fun w => A_eq m c w))
    (hpf := fun _ k => k.elim0)
    (X := fun _ => iprop(emp)) (Y := fun _ => iprop(emp))
    (Z := fun c => Pipeline.unscopedRest spec0 c (V m c)) (Z' := fun c => Pipeline.unscopedRest spec0 c (Vfin m c))
    (hX := fun c => by
      rw [Pipeline.unscopedRestP_none]
      iintro H; isplitr; · iempintro
      iexact H)
    (hin := fun c => by
      show _ ⊢ Pipeline.scopedRest spec0 c
      iintro ⟨-, -, HR⟩; iexact HR)
    (hout := fun c => by
      rw [show (dats m 0 c).Φ (Fin.last cfg0.N) = PhiS m c cfg0.N (Nat.le_refl _) from rfl,
        PhiS_pos m c _ _ (by rw [show cfg0.N = 64 from N_0]; decide), scopedRest_scratch]
      iintro H; isplitr; · iempintro
      iexists _; iexact H)
    (htail := htail m)
    (QY := fun c s => ∀ b ∈ Pipeline.restRefs sig spec0, s.mem ((c.tc : Thread nD τ).loc b) = Vfin m c b)
    (hY := fun c s' => by
      iintro ⟨-, HU, HSI⟩
      unfold Pipeline.unscopedRest
      imodintro
      iapply (pointsTo_read_all (Pipeline.restRefs sig spec0) (fun b => (c.tc : Thread nD τ).loc b) (Vfin m c) s')
      isplitl [HU] <;> iassumption)
    (hQ := fun s h c => ⟨(h c).1, (h c).2.2⟩)

end Cert.KernelIdeal.Region

end
-- ==== Proof.RegionFrame.lean ====
/-
  The frame: the program runs to the end without a fault and its five argument arrays end as they were launched. The
  host operations write only their own result buffers; of the arguments the region touches the feature matrix alone,
  and only reads it.
-/
import proofs.«116593_j68178310857069_1_alg».proof.Proof.RegionRun

set_option maxRecDepth 16384

noncomputable section

namespace Cert.KernelIdeal.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- No host operation before the region writes an argument: at the region's entry each is as launched. -/
theorem V_main_arg0 (c : Dev nD) : V m c main_arg0 = m ((c.tc : Thread nD τ).loc main_arg0) := by
  show StableHlo.after (List.flatten preOps) (fun b => m (c, b)) (Proc.devRef .tc main_arg0) = _
  simp only [preOps, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp <;> rfl
theorem V_main_arg1 (c : Dev nD) : V m c main_arg1 = m ((c.tc : Thread nD τ).loc main_arg1) := by
  show StableHlo.after (List.flatten preOps) (fun b => m (c, b)) (Proc.devRef .tc main_arg1) = _
  simp only [preOps, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp <;> rfl
theorem V_main_arg2 (c : Dev nD) : V m c main_arg2 = m ((c.tc : Thread nD τ).loc main_arg2) := by
  show StableHlo.after (List.flatten preOps) (fun b => m (c, b)) (Proc.devRef .tc main_arg2) = _
  simp only [preOps, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp <;> rfl
theorem V_main_arg3 (c : Dev nD) : V m c main_arg3 = m ((c.tc : Thread nD τ).loc main_arg3) := by
  show StableHlo.after (List.flatten preOps) (fun b => m (c, b)) (Proc.devRef .tc main_arg3) = _
  simp only [preOps, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp <;> rfl
theorem V_main_arg4 (c : Dev nD) : V m c main_arg4 = m ((c.tc : Thread nD τ).loc main_arg4) := by
  show StableHlo.after (List.flatten preOps) (fun b => m (c, b)) (Proc.devRef .tc main_arg4) = _
  simp only [preOps, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp <;> rfl

/-- Nor does any after it. -/
theorem Vfin_main_arg0 (c : Dev nD) : Vfin m c main_arg0 = Vexit m c (Proc.devRef .tc main_arg0) := by
  show StableHlo.after (List.flatten postOps) (Vexit m c) (Proc.devRef .tc main_arg0) = _
  simp only [postOps, hostOps1, hostOps1_1, hostOps1_2, List.flatten_cons, List.flatten_nil, List.append_nil, List.cons_append, List.nil_append]
  after_results_simp <;> rfl
theorem Vfin_main_arg2 (c : Dev nD) : Vfin m c main_arg2 = Vexit m c (Proc.devRef .tc main_arg2) := by
  show StableHlo.after (List.flatten postOps) (Vexit m c) (Proc.devRef .tc main_arg2) = _
  simp only [postOps, hostOps1, hostOps1_1, hostOps1_2, List.flatten_cons, List.flatten_nil, List.append_nil, List.cons_append, List.nil_append]
  after_results_simp <;> rfl
theorem Vfin_main_arg3 (c : Dev nD) : Vfin m c main_arg3 = Vexit m c (Proc.devRef .tc main_arg3) := by
  show StableHlo.after (List.flatten postOps) (Vexit m c) (Proc.devRef .tc main_arg3) = _
  simp only [postOps, hostOps1, hostOps1_1, hostOps1_2, List.flatten_cons, List.flatten_nil, List.append_nil, List.cons_append, List.nil_append]
  after_results_simp <;> rfl
theorem Vfin_main_arg4 (c : Dev nD) : Vfin m c main_arg4 = Vexit m c (Proc.devRef .tc main_arg4) := by
  show StableHlo.after (List.flatten postOps) (Vexit m c) (Proc.devRef .tc main_arg4) = _
  simp only [postOps, hostOps1, hostOps1_1, hostOps1_2, List.flatten_cons, List.flatten_nil, List.append_nil, List.cons_append, List.nil_append]
  after_results_simp <;> rfl

theorem rest_main_arg0 : main_arg0 ∈ Pipeline.restRefs sig spec0 := Pipeline.mem_restRefs_of main_arg0 rfl (by decide)
theorem rest_main_arg2 : main_arg2 ∈ Pipeline.restRefs sig spec0 := Pipeline.mem_restRefs_of main_arg2 rfl (by decide)
theorem rest_main_arg3 : main_arg3 ∈ Pipeline.restRefs sig spec0 := Pipeline.mem_restRefs_of main_arg3 rfl (by decide)
theorem rest_main_arg4 : main_arg4 ∈ Pipeline.restRefs sig spec0 := Pipeline.mem_restRefs_of main_arg4 rfl (by decide)

/-- THE FRAME of the program, at any instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨((h c).2 main_arg0 rest_main_arg0).trans ((Vfin_main_arg0 m c).trans ((Vexit_rest m c main_arg0 rest_main_arg0).trans (V_main_arg0 m c))),
     ((h c).1 0).trans (((dats m 0 c).arrAt_in 0 rfl _).trans ((A_eq m c 0).trans (V_main_arg1 m c))),
     ((h c).2 main_arg2 rest_main_arg2).trans ((Vfin_main_arg2 m c).trans ((Vexit_rest m c main_arg2 rest_main_arg2).trans (V_main_arg2 m c))),
     ((h c).2 main_arg3 rest_main_arg3).trans ((Vfin_main_arg3 m c).trans ((Vexit_rest m c main_arg3 rest_main_arg3).trans (V_main_arg3 m c))),
     ((h c).2 main_arg4 rest_main_arg4).trans ((Vfin_main_arg4 m c).trans ((Vexit_rest m c main_arg4 rest_main_arg4).trans (V_main_arg4 m c)))⟩)
    (run_region m ρ)

end Cert.KernelIdeal.Region

end
-- ==== Proof.RefStagesArgs.lean ====
/-
  The reference leaves its arguments alone.

  None of the reference's 222 operations writes an argument array, so after all of them each argument's buffer holds its
  launch contents; with the run — every weakly fair execution terminates with every buffer at the fold of the operations
  over the launch contents — this is the frame: the reference runs to the end and its five arguments end as they were.
-/
import proofs.«116593_j68178310857069_1_alg».proof.Proof.RefRunPatched
import proofs.«116593_j68178310857069_1_alg».proof.Proof.RefReadPatched
import Idealize.ShloMosaic.Lib.Pipeline.Frame

noncomputable section

namespace Cert.ReferenceIdeal.Stages

open Cert.ReferenceIdeal Cert.ReferenceIdeal.Gen Idealize.ShloMosaic Idealize.ShloMosaic.TcCoe Idealize.SL.Sem Idealize.ShloMosaic.StableHlo Cert.ReferenceIdeal.ValueP

variable {F : FTy → Type} [FloatOps F]

/-! ## The arguments after all the operations, and the run -/

set_option maxHeartbeats 4000000 in
/-- No operation writes argument 0: after all of them its buffer holds its launch contents. -/
theorem arg_full_0 (m : (ℓ : Loc nD τ sig) → Buf (Elt F) ℓ) (c : Dev nD) :
    after (ops (F := F)) (launchContents m c) (Proc.devRef .tc main_arg0) = m ((c.tc : Thread nD τ).loc main_arg0) := by
  after_results_simp <;> rfl

set_option maxHeartbeats 4000000 in
/-- No operation writes argument 1: after all of them its buffer holds its launch contents. -/
theorem arg_full_1 (m : (ℓ : Loc nD τ sig) → Buf (Elt F) ℓ) (c : Dev nD) :
    after (ops (F := F)) (launchContents m c) (Proc.devRef .tc main_arg1) = m ((c.tc : Thread nD τ).loc main_arg1) := by
  after_results_simp <;> rfl

set_option maxHeartbeats 4000000 in
/-- No operation writes argument 2: after all of them its buffer holds its launch contents. -/
theorem arg_full_2 (m : (ℓ : Loc nD τ sig) → Buf (Elt F) ℓ) (c : Dev nD) :
    after (ops (F := F)) (launchContents m c) (Proc.devRef .tc main_arg2) = m ((c.tc : Thread nD τ).loc main_arg2) := by
  after_results_simp <;> rfl

set_option maxHeartbeats 4000000 in
/-- No operation writes argument 3: after all of them its buffer holds its launch contents. -/
theorem arg_full_3 (m : (ℓ : Loc nD τ sig) → Buf (Elt F) ℓ) (c : Dev nD) :
    after (ops (F := F)) (launchContents m c) (Proc.devRef .tc main_arg3) = m ((c.tc : Thread nD τ).loc main_arg3) := by
  after_results_simp <;> rfl

set_option maxHeartbeats 4000000 in
/-- No operation writes argument 4: after all of them its buffer holds its launch contents. -/
theorem arg_full_4 (m : (ℓ : Loc nD τ sig) → Buf (Elt F) ℓ) (c : Dev nD) :
    after (ops (F := F)) (launchContents m c) (Proc.devRef .tc main_arg4) = m ((c.tc : Thread nD τ).loc main_arg4) := by
  after_results_simp <;> rfl

/-- Every weakly fair execution of the reference terminates with its five argument arrays as they were. -/
theorem frame (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨(h c main_arg0).trans (arg_full_0 m c), (h c main_arg1).trans (arg_full_1 m c), (h c main_arg2).trans (arg_full_2 m c),
      (h c main_arg3).trans (arg_full_3 m c), (h c main_arg4).trans (arg_full_4 m c)⟩)
    (run_fold (F := F) m ρ)

end Cert.ReferenceIdeal.Stages

end
-- ==== Proof.RegionResult.lean ====
/-
  The program's one result is a buffer the region never holds: after the run it is what the later host lines compute
  from the region's exit contents.
-/
import proofs.«116593_j68178310857069_1_alg».proof.Proof.RegionFrame

set_option maxRecDepth 16384

noncomputable section

namespace Cert.KernelIdeal.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

theorem rest_main_v112 : main_v112 ∈ Pipeline.restRefs sig spec0 := Pipeline.mem_restRefs_of main_v112 rfl (by decide)

/-- THE RUN, read: the result buffer at the later lines' fold over the exit contents, the arguments unchanged. -/
theorem run_result : θ_run defs (onTc (τ := τ) (main (F := F))) ⟨m, fun _ => 0, ρ⟩ (fun r => ∀ c : Dev nD,
      r.2.mem ((c.tc : Thread nD τ).loc main_v112) = Vfin m c main_v112
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c).2 main_v112 rest_main_v112,
     ((h c).2 main_arg0 rest_main_arg0).trans ((Vfin_main_arg0 m c).trans ((Vexit_rest m c main_arg0 rest_main_arg0).trans (V_main_arg0 m c))),
     ((h c).1 0).trans (((dats m 0 c).arrAt_in 0 rfl _).trans ((A_eq m c 0).trans (V_main_arg1 m c))),
     ((h c).2 main_arg2 rest_main_arg2).trans ((Vfin_main_arg2 m c).trans ((Vexit_rest m c main_arg2 rest_main_arg2).trans (V_main_arg2 m c))),
     ((h c).2 main_arg3 rest_main_arg3).trans ((Vfin_main_arg3 m c).trans ((Vexit_rest m c main_arg3 rest_main_arg3).trans (V_main_arg3 m c))),
     ((h c).2 main_arg4 rest_main_arg4).trans ((Vfin_main_arg4 m c).trans ((Vexit_rest m c main_arg4 rest_main_arg4).trans (V_main_arg4 m c)))⟩)
    (run_region m ρ)

/-- The exit contents at the buffers the later lines read besides the region's result: as at the entry. -/
theorem Vexit_main_v3 (c : Dev nD) : Vexit m c (Proc.devRef .tc main_v3) = V m c main_v3 :=
  Vexit_rest m c main_v3 (Pipeline.mem_restRefs_of main_v3 rfl (by decide))
theorem Vexit_main_v79 (c : Dev nD) : Vexit m c (Proc.devRef .tc main_v79) = V m c main_v79 :=
  Vexit_rest m c main_v79 (Pipeline.mem_restRefs_of main_v79 rfl (by decide))
theorem Vexit_main_arg4 (c : Dev nD) : Vexit m c (Proc.devRef .tc main_arg4) = m ((c.tc : Thread nD τ).loc main_arg4) :=
  (Vexit_rest m c main_arg4 rest_main_arg4).trans (V_main_arg4 m c)
theorem Vexit_main_v89 (c : Dev nD) : Vexit m c (Proc.devRef .tc main_v89) = (dats m 0 c).arrAt 7 cfg0.N :=
  (Vexit_arr m c 7).symm

end Cert.KernelIdeal.Region

end
-- ==== Proof.EntryValues.lean ====
/-
  The arrays the region's narrow windows read are reshapes the host makes just before the region: the row sums of squares
  as a column and as a row, the targets as a column and as a row, the mean variance as a 1 × 1 array. Read at coordinates
  they are the entries of the vectors they were made from.
-/
import proofs.«116593_j68178310857069_1_alg».proof.Proof.RegionEntry
import Idealize.ShloMosaic.Lib.Pipeline.Value
import Idealize.ShloMosaic.Lib.ValueIdx
import Idealize.ShloMosaic.Lib.ValueLayout

set_option maxRecDepth 16384

noncomputable section

namespace Cert.KernelIdeal.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

open ValueIdx

/-- The host operations before the last stretch. -/
abbrev earlyOps : List (List (HloOp τ sig (Elt F))) :=
  [hostOps0, hostOps0_1, hostOps0_2, hostOps0_3, hostOps0_4, hostOps0_5, hostOps0_6, hostOps0_7, hostOps0_8, hostOps0_9]

/-- Core `c`'s buffer contents before the last stretch of host operations. -/
abbrev W (c : Dev nD) : Valuation τ sig (Elt F) := StableHlo.after (List.flatten earlyOps) (fun b => m (c, b))

/-- The entry contents are the last stretch applied to those. -/
theorem V0_eq (c : Dev nD) : V0 m c = StableHlo.after hostOps0_10 (W m c) := by
  show StableHlo.after (List.flatten (earlyOps ++ [hostOps0_10])) _ = _
  rw [List.flatten_append, StableHlo.after_append]
  rfl

theorem V_v84 (c : Dev nD) : (V m c main_v84 : S4096x1.Idx → Elt F .f32) = shapeCast S4096x1 (V m c main_v83 : S4096.Idx → Elt F .f32) shapeCasts_S4096_S4096x1 := by
  show V0 m c (Proc.devRef .tc main_v84) = shapeCast S4096x1 (V0 m c (Proc.devRef .tc main_v83)) shapeCasts_S4096_S4096x1
  rw [V0_eq]; generalize W m c = Wv
  after_results; rfl
theorem V_v85 (c : Dev nD) : (V m c main_v85 : S1x4096.Idx → Elt F .f32) = shapeCast S1x4096 (V m c main_v83 : S4096.Idx → Elt F .f32) shapeCasts_S4096_S1x4096 := by
  show V0 m c (Proc.devRef .tc main_v85) = shapeCast S1x4096 (V0 m c (Proc.devRef .tc main_v83)) shapeCasts_S4096_S1x4096
  rw [V0_eq]; generalize W m c = Wv
  after_results; rfl
theorem V_v86 (c : Dev nD) : (V m c main_v86 : S4096x1.Idx → Elt F .i32) = shapeCast S4096x1 (V m c main_arg4 : S4096.Idx → Elt F .i32) shapeCasts_S4096_S4096x1 := by
  show V0 m c (Proc.devRef .tc main_v86) = shapeCast S4096x1 (V0 m c (Proc.devRef .tc main_arg4)) shapeCasts_S4096_S4096x1
  rw [V0_eq]; generalize W m c = Wv
  after_results; rfl
theorem V_v87 (c : Dev nD) : (V m c main_v87 : S1x4096.Idx → Elt F .i32) = shapeCast S1x4096 (V m c main_arg4 : S4096.Idx → Elt F .i32) shapeCasts_S4096_S1x4096 := by
  show V0 m c (Proc.devRef .tc main_v87) = shapeCast S1x4096 (V0 m c (Proc.devRef .tc main_arg4)) shapeCasts_S4096_S1x4096
  rw [V0_eq]; generalize W m c = Wv
  after_results; rfl
theorem V_v88 (c : Dev nD) : (V m c main_v88 : S1x1.Idx → Elt F .f32) = shapeCast S1x1 (V m c main_v81 : S_.Idx → Elt F .f32) shapeCasts_S_S1x1 := by
  show V0 m c (Proc.devRef .tc main_v88) = shapeCast S1x1 (V0 m c (Proc.devRef .tc main_v81)) shapeCasts_S_S1x1
  rw [V0_eq]; generalize W m c = Wv
  after_results; rfl

/-- A vector cast to a column, read at a row. -/
theorem cast_col_apply {α : Type} (x : S4096.Idx → α) (r : Fin 4096) : shapeCast S4096x1 x shapeCasts_S4096_S4096x1 (ix2 r (0 : Fin 1)) = x (ix1 r) :=
  shapeCast_apply x _ _ _ (by
    rw [Shape.rowMajor_val_two, Shape.rowMajor_val_one]
    show r.val = r.val * 1 + 0
    omega)

theorem sq_col (c : Dev nD) (r : Fin 4096) : (V m c main_v84 : S4096x1.Idx → Elt F .f32) (ix2 r (0 : Fin 1)) = (V m c main_v83 : S4096.Idx → Elt F .f32) (ix1 r) := by
  rw [V_v84]; exact cast_col_apply _ r
theorem sq_row (c : Dev nD) (r : Fin 4096) : (V m c main_v85 : S1x4096.Idx → Elt F .f32) (ix2 (0 : Fin 1) r) = (V m c main_v83 : S4096.Idx → Elt F .f32) (ix1 r) := by
  rw [V_v85]; exact shapeCast_a_1a_apply _ _ 0 r
theorem tg_col (c : Dev nD) (r : Fin 4096) : (V m c main_v86 : S4096x1.Idx → Elt F .i32) (ix2 r (0 : Fin 1)) = (V m c main_arg4 : S4096.Idx → Elt F .i32) (ix1 r) := by
  rw [V_v86]; exact cast_col_apply _ r
theorem tg_row (c : Dev nD) (r : Fin 4096) : (V m c main_v87 : S1x4096.Idx → Elt F .i32) (ix2 (0 : Fin 1) r) = (V m c main_arg4 : S4096.Idx → Elt F .i32) (ix1 r) := by
  rw [V_v87]; exact shapeCast_a_1a_apply _ _ 0 r
theorem bar_cell (c : Dev nD) : (V m c main_v88 : S1x1.Idx → Elt F .f32) (ix2 (0 : Fin 1) (0 : Fin 1)) = (V m c main_v81 : S_.Idx → Elt F .f32) ix0 := by
  rw [V_v88]
  exact shapeCast_apply _ _ _ _ (by
    show (S_.rowMajor ix0).val = (S1x1.rowMajor (ix2 (0 : Fin 1) (0 : Fin 1))).val
    decide)

end Cert.KernelIdeal.Region

end
-- ==== Proof.PairSpec.lean ====
/-
  The pairwise row statistic, stated once over literal shapes, and the algebra that joins a tiled accumulation
  of it to the whole-row sum.

  From features f : f32[4096, 512], their row sums of squares sq : f32[4096], integer labels t : i32[4096] and a
  scalar bar, row r of the result is

      log1p ( 0 + Σ_{c < 4096}  [t r = t c and r ≠ c] · exp( ((sq r + sq c − 2 · Σ_{k < 512} f r k · f c k) − 2 · bar) / 5120 ) )

  on the extended reals, every operation the exact one (the sum, the product, the quotient by the real 5120, the
  exponential with exp(−∞) = 0, and log1p x = log (1 + x)); a pair that is masked out contributes the zero word.
  The summand is written with the operations in the order both programs apply them, so that reading either
  program at an index lands on it without rearranging: the squared distance first, then the shift by 2 · bar,
  then the quotient, the exponential, and the select on the one-bit mask.

  Two arrangements of the row sum meet here. One sums the 4096 columns of a row at once, from the zero word.
  The other cuts the columns into 8 tiles of 512, and starting from the zero word adds one tile's lane sum
  after another. Addition on the extended reals is commutative and associative (no finiteness is needed
  to regroup a finite sum), so after the eighth tile the accumulator is the whole-row sum: accUpTo_eight.
  The other difference is the quotient: a product with the rational 1/5120 is the quotient by the real 5120
  at every extended real, ±∞ included (mul_inv_5120).
-/
import Idealize.ShloMosaic.PureOps.Ideal
import Idealize.ShloMosaic.PureOps.Ideal.Laws
import Idealize.ShloMosaic.Lib.ValueIdx

noncomputable section

open scoped BigOperators

namespace Cert.Pairwise

open Idealize.ShloMosaic Idealize.ShloMosaic.ValueIdx

/-- The feature array's shape, 4096 rows of 512. -/
abbrev SFeat : Shape := ⟨2, ![4096, 512]⟩
/-- The shape of one value per row. -/
abbrev SRow : Shape := ⟨1, ![4096]⟩

/-! ## The specification -/

/-- The squared distance of rows r and c from the row sums of squares and the inner product:
    (sq r + sq c) − 2 · Σ_k f r k · f c k, the 2 being the f32 word of 2.0. -/
def dist2 (f : SFeat.Idx → EReal) (sq : SRow.Idx → EReal) (r c : Fin 4096) : EReal :=
  (sq (ix1 r) + sq (ix1 c)) - Ideal.ofBits .f32 0x40000000#32 * ∑ k : Fin 512, f (ix2 r k) * f (ix2 c k)

/-- The pair mask as a one-bit word: the labels of r and c agree, and r is not c (the positions compared as
    32-bit words, which for positions below 4096 is comparing the positions). -/
def mask (t : SRow.Idx → BitVec 32) (r c : Fin 4096) : BitVec 1 :=
  IntOp.andi (IntOp.cmpi .eq (t (ix1 r)) (t (ix1 c)))
    (~~~ IntOp.cmpi .eq (BitVec.ofNat 32 r.val) (BitVec.ofNat 32 c.val))

/-- The summand of the pair (r, c): exp ((dist2 r c − 2 · bar) / 5120) where the mask is set, the zero word elsewhere. -/
def term (f : SFeat.Idx → EReal) (sq : SRow.Idx → EReal) (t : SRow.Idx → BitVec 32) (bar : EReal) (r c : Fin 4096) : EReal :=
  Scalar.select (mask t r c)
    (Ideal.exp (Ideal.div (dist2 f sq r c - Ideal.ofBits .f32 0x40000000#32 * bar) (Ideal.ofBits .f32 0x45A00000#32)))
    (Ideal.ofBits .f32 0x00000000#32)

/-- The row sum: the zero word plus the 4096 summands of the row. -/
def rowSum (f : SFeat.Idx → EReal) (sq : SRow.Idx → EReal) (t : SRow.Idx → BitVec 32) (bar : EReal) (r : Fin 4096) : EReal :=
  Ideal.ofBits .f32 0x00000000#32 + ∑ c : Fin 4096, term f sq t bar r c

/-- The result's row r: log1p of the row sum. -/
def rowSpec (f : SFeat.Idx → EReal) (sq : SRow.Idx → EReal) (t : SRow.Idx → BitVec 32) (bar : EReal) (r : Fin 4096) : EReal :=
  Ideal.log1p (rowSum f sq t bar r)

/-! ## The mask -/

/-- Positions below 4096 are equal exactly when their 32-bit words are. -/
theorem ofNat32_inj {a b : Nat} (ha : a < 4096) (hb : b < 4096) : BitVec.ofNat 32 a = BitVec.ofNat 32 b ↔ a = b := by
  constructor
  · intro h
    have h' := congrArg BitVec.toNat h
    simp only [BitVec.toNat_ofNat] at h'
    omega
  · rintro rfl; rfl

/-- The mask is set exactly on the pairs of distinct rows with one label. -/
theorem mask_eq_one_iff (t : SRow.Idx → BitVec 32) (r c : Fin 4096) :
    mask t r c = 1#1 ↔ t (ix1 r) = t (ix1 c) ∧ r ≠ c := by
  have hrc : (BitVec.ofNat 32 r.val = BitVec.ofNat 32 c.val) ↔ r = c :=
    (ofNat32_inj r.isLt c.isLt).trans Fin.val_inj
  have hb : (BitVec.ofNat 32 r.val == BitVec.ofNat 32 c.val) = decide (r = c) := by
    by_cases h : r = c
    · rw [decide_eq_true h]; exact beq_iff_eq.mpr (hrc.mpr h)
    · rw [decide_eq_false h]; exact beq_eq_false_iff_ne.mpr (fun e => h (hrc.mp e))
  have hb1 : (t (ix1 r) == t (ix1 c)) = decide (t (ix1 r) = t (ix1 c)) := by
    by_cases h : t (ix1 r) = t (ix1 c)
    · rw [decide_eq_true h]; exact beq_iff_eq.mpr h
    · rw [decide_eq_false h]; exact beq_eq_false_iff_ne.mpr h
  unfold mask IntOp.andi IntOp.cmpi
  show (BitVec.ofBool (t (ix1 r) == t (ix1 c)) &&& ~~~ BitVec.ofBool (BitVec.ofNat 32 r.val == BitVec.ofNat 32 c.val)) = 1#1 ↔ _
  rw [hb, hb1]
  by_cases h1 : t (ix1 r) = t (ix1 c) <;> by_cases h2 : r = c <;> simp [h1, h2]

/-- A "not equal" comparison of words is the complement of the "equal" one. -/
theorem cmpi_ne_eq_not_eq {w : Nat} (x y : BitVec w) : IntOp.cmpi .ne x y = ~~~ IntOp.cmpi .eq x y := by
  unfold IntOp.cmpi
  show BitVec.ofBool (!(x == y)) = ~~~ BitVec.ofBool (x == y)
  cases (x == y) <;> decide

/-- Adding the zero word changes nothing. -/
theorem addi_zero (x : BitVec 32) : IntOp.addi x 0#32 = x := by
  unfold IntOp.addi; exact BitVec.add_zero x

/-- The word of a position inside tile T of width 512: offset p plus T · 512, computed on 32-bit words, is the word
    of 512 · T + p. -/
theorem tile_pos_word (T p : Nat) :
    IntOp.addi (BitVec.ofNat 32 p) (IntOp.muli (BitVec.ofNat 32 T) 512#32) = BitVec.ofNat 32 (512 * T + p) := by
  unfold IntOp.addi IntOp.muli
  rw [show 512 * T + p = p + T * 512 by omega, BitVec.ofNat_add, BitVec.ofNat_mul]

/-! ## The quotient by 5120 -/

/-- The f32 word 0x45A00000 denotes the real 5120. -/
theorem ofBits_5120 : Ideal.ofBits .f32 0x45A00000#32 = ((5120 : ℝ) : EReal) := by
  simp [Ideal.ofBits, Ideal.ieee, -EReal.coe_mul]; norm_num

/-- The product with the rational 1/5120 is the quotient by the word of 5120.0, at every extended real. -/
theorem mul_inv_5120 (x : EReal) :
    x * ((1 / 5120 : ℝ) : EReal) = Ideal.div x (Ideal.ofBits .f32 0x45A00000#32) := by
  rw [ofBits_5120, Ideal.div_coe (by norm_num)]

/-! ## Tiles of the column axis -/

/-- Position q of tile T of 512, of the 8 tiles of an axis of 4096. -/
def tileIx (T : Fin 8) (q : Fin 512) : Fin 4096 := ⟨512 * T.val + q.val, by omega⟩

@[simp] theorem tileIx_val (T : Fin 8) (q : Fin 512) : (tileIx T q).val = 512 * T.val + q.val := rfl

section Sums
variable {M : Type*} [AddCommMonoid M]

/-- A sum over the 4096 columns is the sum over the 8 tiles of each tile's 512 lanes. -/
theorem sum_tiles (g : Fin 4096 → M) : ∑ c : Fin 4096, g c = ∑ T : Fin 8, ∑ q : Fin 512, g (tileIx T q) := by
  rw [← Equiv.sum_comp (finProdFinEquiv (m := 8) (n := 512)) g, Fintype.sum_prod_type]
  refine Finset.sum_congr rfl fun T _ => Finset.sum_congr rfl fun q _ => congrArg g (Fin.ext ?_)
  show q.val + 512 * T.val = 512 * T.val + q.val
  omega

/-- The lane sum of tile T. -/
def tileSum (g : Fin 4096 → M) (T : Fin 8) : M := ∑ q : Fin 512, g (tileIx T q)

/-- The accumulator after the first n tiles, started from z: z plus the lane sums of the tiles before n. -/
def accUpTo (z : M) (g : Fin 4096 → M) (n : Nat) : M :=
  z + ∑ T ∈ (Finset.univ : Finset (Fin 8)).filter (fun T => T.val < n), tileSum g T

/-- Before any tile the accumulator is its start value. -/
theorem accUpTo_zero (z : M) (g : Fin 4096 → M) : accUpTo z g 0 = z := by
  unfold accUpTo
  rw [Finset.filter_false_of_mem (fun T _ => Nat.not_lt_zero _), Finset.sum_empty, add_zero]

/-- One more tile adds its lane sum. -/
theorem accUpTo_succ (z : M) (g : Fin 4096 → M) (T : Fin 8) :
    accUpTo z g (T.val + 1) = accUpTo z g T.val + tileSum g T := by
  unfold accUpTo
  have hset : (Finset.univ : Finset (Fin 8)).filter (fun T' => T'.val < T.val + 1)
      = insert T ((Finset.univ : Finset (Fin 8)).filter (fun T' => T'.val < T.val)) := by
    ext T'
    simp only [Finset.mem_filter, Finset.mem_univ, true_and, Finset.mem_insert]
    constructor
    · intro h
      rcases Nat.lt_succ_iff_lt_or_eq.mp h with h | h
      · exact Or.inr h
      · exact Or.inl (Fin.ext h)
    · rintro (rfl | h)
      · exact Nat.lt_succ_self _
      · exact Nat.lt_succ_of_lt h
  rw [hset, Finset.sum_insert (by simp), add_comm (tileSum g T), add_assoc]

/-- After the eighth tile the accumulator is the start value plus the whole sum. -/
theorem accUpTo_eight (z : M) (g : Fin 4096 → M) : accUpTo z g 8 = z + ∑ c : Fin 4096, g c := by
  unfold accUpTo
  rw [Finset.filter_true_of_mem (fun T _ => T.isLt), sum_tiles]
  rfl

end Sums

/-- The tiled accumulation of a row's summands from the zero word ends at the row sum. -/
theorem accUpTo_eight_term (f : SFeat.Idx → EReal) (sq : SRow.Idx → EReal) (t : SRow.Idx → BitVec 32) (bar : EReal)
    (r : Fin 4096) :
    accUpTo (Ideal.ofBits .f32 0x00000000#32) (term f sq t bar r) 8 = rowSum f sq t bar r :=
  accUpTo_eight _ _

end Cert.Pairwise

end
-- ==== Proof.TileValue.lean ====
/-
  The kernel's tile arithmetic read one entry at a time, on the extended reals.

  At grid point (I, J) the kernel holds a 512 × 512 tile of pairs: rows 512·I + p against columns 512·J + q. From two
  feature blocks, a column block and a row block of the row sums of squares, and the two label blocks it forms
    · the squared-distance tile, (sq_row p + sq_col q) − 2 · Σ_k f_row p k · f_col q k  (the matrix product with the
      transposed column block into a zero accumulator is that inner product; changing the float format is the identity
      on the extended reals),
    · the mask tile, "labels agree and the two global positions differ", the positions computed as 32-bit words
      from the tile offsets, which is the word of 512·I + p against the word of 512·J + q,
    · one accumulator step, old + Σ_q select(mask, exp((d2 − 2·bar) · (1/5120)), 0): a lane sum has no start
      value of its own, the product with the rational 1/5120 is the quotient by 5120,
    · the start value (zeros) and the final log1p.
  Each is stated at explicit coordinates p, q below 512, over arbitrary blocks.
-/
import proofs.«116593_j68178310857069_1_alg».proof.Proof.PairSpec
import proofs.«116593_j68178310857069_1_alg».proof.Proof.Gen.KernelIdeal.Skeleton
import Idealize.ShloMosaic.Lib.Pipeline.Value
import Idealize.ShloMosaic.Lib.ValueIdx
import Idealize.ShloMosaic.PureOps.Ideal.Laws
import Idealize.ShloMosaic.PureOps.IdealRules

noncomputable section

open scoped BigOperators

namespace Cert.Pairwise.Tile

open Idealize.ShloMosaic Idealize.ShloMosaic.ValueIdx Cert.KernelIdeal Cert.KernelIdeal.Gen Cert.Pairwise

variable {α : Type}

/-! ## The three broadcasts to the tile -/

/-- A [512, 1] column broadcast along the lanes reads its row's entry. -/
theorem bcol_apply (v : S512x1.Idx → α) (h : S512x1.Broadcasts S512x512) (p q : Fin 512) :
    broadcastTo S512x512 v h (ix2 p q) = v (ix2 p 0) :=
  broadcastTo_apply v h (ix2 p q) (ix2 p 0) (fun a => match a with
    | ⟨0, _⟩ => by show p.val = if (512 : Nat) = 1 then 0 else p.val; rw [if_neg (by decide)]
    | ⟨1, _⟩ => by show 0 = if (1 : Nat) = 1 then 0 else q.val; rw [if_pos rfl])

/-- A [1, 512] row broadcast along the sublanes reads its column's entry. -/
theorem brow_apply (v : S1x512.Idx → α) (h : S1x512.Broadcasts S512x512) (p q : Fin 512) :
    broadcastTo S512x512 v h (ix2 p q) = v (ix2 0 q) :=
  broadcastTo_apply v h (ix2 p q) (ix2 0 q) (fun a => match a with
    | ⟨0, _⟩ => by show 0 = if (1 : Nat) = 1 then 0 else p.val; rw [if_pos rfl]
    | ⟨1, _⟩ => by show q.val = if (512 : Nat) = 1 then 0 else q.val; rw [if_neg (by decide)])

/-- A [1, 1] block broadcast to the tile reads its one entry. -/
theorem bone_apply (v : S1x1.Idx → α) (h : S1x1.Broadcasts S512x512) (p q : Fin 512) :
    broadcastTo S512x512 v h (ix2 p q) = v (ix2 0 0) :=
  broadcastTo_apply v h (ix2 p q) (ix2 0 0) (fun a => match a with
    | ⟨0, _⟩ => by show 0 = if (1 : Nat) = 1 then 0 else p.val; rw [if_pos rfl]
    | ⟨1, _⟩ => by show 0 = if (1 : Nat) = 1 then 0 else q.val; rw [if_pos rfl])

/-! ## The matmul of a row tile with a transposed column tile -/

theorem lhs_0 (i : S512x512.Idx) (q : dot_S512x512_S512x512_S512x512_1_0_0_1_n_n.contr.Idx) :
    (dot_S512x512_S512x512_S512x512_1_0_0_1_n_n.lhsIdx i q 0).val = (i 0).val := by
  unfold DotDims.lhsIdx
  rw [dif_neg (show ¬(0 : Fin S512x512.rank) ∈ dot_S512x512_S512x512_S512x512_1_0_0_1_n_n.lhsBatch by decide), dif_pos (show (0 : Fin S512x512.rank) ∈ dot_S512x512_S512x512_S512x512_1_0_0_1_n_n.lhsNonContracting by decide)]
  rfl
theorem lhs_1 (i : S512x512.Idx) (q : dot_S512x512_S512x512_S512x512_1_0_0_1_n_n.contr.Idx) :
    (dot_S512x512_S512x512_S512x512_1_0_0_1_n_n.lhsIdx i q 1).val = (q ⟨0, by decide⟩).val :=
  dot_S512x512_S512x512_S512x512_1_0_0_1_n_n.lhsIdx_val_of_single rfl i q
theorem rhs_0 (i : S512x512.Idx) (q : dot_S512x512_S512x512_S512x512_1_0_0_1_n_n.contr.Idx) :
    (dot_S512x512_S512x512_S512x512_1_0_0_1_n_n.rhsIdx i q 0).val = (q ⟨0, by decide⟩).val :=
  dot_S512x512_S512x512_S512x512_1_0_0_1_n_n.rhsIdx_val_of_single rfl i q
theorem rhs_1 (i : S512x512.Idx) (q : dot_S512x512_S512x512_S512x512_1_0_0_1_n_n.contr.Idx) :
    (dot_S512x512_S512x512_S512x512_1_0_0_1_n_n.rhsIdx i q 1).val = (i 1).val := by
  unfold DotDims.rhsIdx
  rw [dif_neg (show ¬(1 : Fin S512x512.rank) ∈ dot_S512x512_S512x512_S512x512_1_0_0_1_n_n.rhsBatch by decide), dif_pos (show (1 : Fin S512x512.rank) ∈ dot_S512x512_S512x512_S512x512_1_0_0_1_n_n.rhsNonContracting by decide)]
  rfl

/-- The matmul of the row tile with the transposed column tile, into the zero accumulator, at (p, q): the inner
    product of row p of the one with row q of the other (the change of float format is the identity on the extended reals). -/
theorem matmul_tile_apply (v3 v5 : FVec Ideal S512x512 .f32) (hb : FTy.bits .bf16 < FTy.bits .f32)
    (ht : S512x512.Transposes [1, 0] S512x512) (p q : Fin 512) :
    matmul dot_S512x512_S512x512_S512x512_1_0_0_1_n_n none (truncf .bf16 v3 hb)
        (transpose S512x512 [1, 0] (truncf .bf16 v5 hb) ht) (constant S512x512 .f32 0x00000000#32) (ix2 p q)
      = ∑ k : Fin 512, v3 (ix2 p k) * v5 (ix2 q k) := by
  refine (Ideal.matmul_constant_zero_apply dot_S512x512_S512x512_S512x512_1_0_0_1_n_n none _ _ (ix2 p q)).trans ?_
  rw [← Equiv.sum_comp (contrEquiv1 dot_S512x512_S512x512_S512x512_1_0_0_1_n_n 512 rfl rfl).symm]
  refine Finset.sum_congr rfl fun k _ => ?_
  have hk := contrEquiv1_symm_val dot_S512x512_S512x512_S512x512_1_0_0_1_n_n 512 rfl rfl k
  have el : dot_S512x512_S512x512_S512x512_1_0_0_1_n_n.lhsIdx (ix2 p q) ((contrEquiv1 dot_S512x512_S512x512_S512x512_1_0_0_1_n_n 512 rfl rfl).symm k) = ix2 p k := funext fun a => Fin.ext (by
    match a with
    | ⟨0, _⟩ => exact lhs_0 _ _
    | ⟨1, _⟩ => exact (lhs_1 _ _).trans hk)
  have er : dot_S512x512_S512x512_S512x512_1_0_0_1_n_n.rhsIdx (ix2 p q) ((contrEquiv1 dot_S512x512_S512x512_S512x512_1_0_0_1_n_n 512 rfl rfl).symm k) = ix2 k q := funext fun a => Fin.ext (by
    match a with
    | ⟨0, _⟩ => exact (rhs_0 _ _).trans hk
    | ⟨1, _⟩ => exact rhs_1 _ _)
  rw [el, er]
  refine congrArg (v3 (ix2 p k) * ·) ?_
  exact transpose_apply [1, 0] (truncf .bf16 v5 hb) ht (ix2 k q) (ix2 q k) (fun b => match b with
    | ⟨0, _⟩ => rfl
    | ⟨1, _⟩ => rfl)

/-- The squared-distance tile at (p, q). -/
theorem pay4_apply (v3 v5 : Vec Ideal S512x512 .f32) (v9 : Vec Ideal S512x1 .f32) (v11 : Vec Ideal S1x512 .f32) (p q : Fin 512) :
    k0_pay4 (F := Ideal) v3 v5 v9 v11 (ix2 p q)
      = (v9 (ix2 p 0) + v11 (ix2 0 q)) - Ideal.ofBits .f32 0x40000000#32 * ∑ k : Fin 512, v3 (ix2 p k) * v5 (ix2 q k) := by
  unfold k0_pay4
  refine congrArg₂ (fun a b : EReal => a - b) (congrArg₂ (fun a b : EReal => a + b) ?_ ?_) (congrArg (fun a : EReal => Ideal.ofBits .f32 0x40000000#32 * a) ?_)
  · exact (bcol_apply _ _ p q).trans (congrFun (shapeCast_self v9 _) _)
  · exact (brow_apply _ _ p q).trans (congrFun (shapeCast_self v11 _) _)
  · exact matmul_tile_apply v3 v5 _ _ p q

/-! ## The mask tile -/

/-- The mask tile of grid point i at (p, q): the two label blocks agree there, and the global positions
    512 · i₀ + p and 512 · i₁ + q differ as 32-bit words. -/
theorem pay5_apply (i : grid0.Coords) (v19 : Vec Ideal S512x1 .i32) (v21 : Vec Ideal S1x512 .i32) (p q : Fin 512) :
    k0_pay5 (F := Ideal) i v19 v21 (ix2 p q)
      = IntOp.andi (IntOp.cmpi .eq (v19 (ix2 p 0)) (v21 (ix2 0 q)))
          (~~~ IntOp.cmpi .eq (BitVec.ofNat 32 (512 * (i 0).val + p.val)) (BitVec.ofNat 32 (512 * (i 1).val + q.val))) := by
  unfold k0_pay5
  refine congrArg₂ IntOp.andi (congrArg₂ (IntOp.cmpi .eq) ?_ ?_) ((cmpi_ne_eq_not_eq _ _).trans (congrArg (fun b : BitVec 1 => ~~~ b) (congrArg₂ (IntOp.cmpi .eq) ?_ ?_)))
  · exact (bcol_apply _ _ p q).trans (congrFun (shapeCast_self v19 _) _)
  · exact (brow_apply _ _ p q).trans (congrFun (shapeCast_self v21 _) _)
  · refine (bcol_apply _ _ p q).trans ?_
    refine Eq.trans ?_ (tile_pos_word (i 0).val p.val)
    exact congrArg (fun b : BitVec 32 => IntOp.addi b (IntOp.muli (BitVec.ofNat 32 (i 0).val) 512#32))
      (iota_single_apply .tc S512x1 32 0 _ (ix2 p 0))
  · refine (brow_apply _ _ p q).trans ?_
    refine Eq.trans ?_ (tile_pos_word (i 1).val q.val)
    exact congrArg (fun b : BitVec 32 => IntOp.addi b (IntOp.muli (BitVec.ofNat 32 (i 1).val) 512#32))
      (iota_single_apply .tc S1x512 32 1 _ (ix2 0 q))

/-! ## The accumulator step, the final logarithm, the start value -/

/-- The start value: the zero word everywhere. -/
theorem pay3_apply (j : S512x1.Idx) : k0_pay3 (F := Ideal) j = Ideal.ofBits .f32 0x00000000#32 := by
  unfold k0_pay3
  exact congrFun (shapeCast_self _ _) j

/-- The last step: log1p of the accumulator, entry by entry. -/
theorem pay2_apply (v59 : Vec Ideal S512x1 .f32) (j : S512x1.Idx) : k0_pay2 (F := Ideal) v59 j = Ideal.log1p (v59 j) := rfl

/-- One accumulator step at row p: the old entry plus the lane sum over q of the masked exponentials. -/
theorem pay1_apply (v18 : FVec Ideal S512x512 .f32) (v37 : IVec S512x512 1) (v38 : Vec Ideal S1x1 .f32) (v49 : Vec Ideal S512x1 .f32) (p : Fin 512) :
    k0_pay1 (F := Ideal) v18 v37 v38 v49 (ix2 p 0)
      = v49 (ix2 p 0) + ∑ q : Fin 512, Scalar.select (v37 (ix2 p q))
          (Ideal.exp ((v18 (ix2 p q) - Ideal.ofBits .f32 0x40000000#32 * v38 (ix2 0 0))
            * Named.named (F := Ideal) κ "inv_5120" (φ := .f32) 0x394CCCCD#32))
          (Ideal.ofBits .f32 0x00000000#32) := by
  unfold k0_pay1
  refine (congrFun (shapeCast_self _ _) (ix2 p 0)).trans ?_
  refine congrArg (fun a : EReal => v49 (ix2 p 0) + a) ?_
  refine (shapeCast_apply _ shapeCasts_S512_S512x1 (ix2 p 0) (ix1 p) ?_).trans ?_
  · rw [Shape.rowMajor_val_one, Shape.rowMajor_val_two]
    show p.val = p.val * 1 + 0
    omega
  refine (Ideal.multiReduction_add_single _ 0x00000000#32 reduces_S512x512_S512 (.inl rfl) rfl (ix1 p)).trans ?_
  refine Finset.sum_congr rfl fun (q : Fin 512) _ => ?_
  have e : reduces_S512x512_S512.lift (ix1 p) q = ix2 p q :=
    funext fun a => Fin.ext (by match a with | ⟨0, _⟩ => rfl | ⟨1, _⟩ => rfl)
  rw [e]
  have hb : broadcastTo S512x512 (mulf (broadcast S1x1 (Scalar.ofBits (F := Ideal) .f32 0x40000000#32)) (shapeCast S1x1 v38 shapeCasts_S1x1_S1x1))
      broadcasts_S1x1_S512x512 (ix2 p q) = Ideal.ofBits .f32 0x40000000#32 * v38 (ix2 0 0) :=
    (bone_apply _ _ p q).trans (congrArg (fun a : EReal => Ideal.ofBits .f32 0x40000000#32 * a) (congrFun (shapeCast_self v38 _) _))
  exact congrArg (fun a : EReal => Scalar.select (v37 (ix2 p q)) (Ideal.exp ((v18 (ix2 p q) - a) * Named.named (F := Ideal) κ "inv_5120" (φ := .f32) 0x394CCCCD#32)) (Ideal.ofBits .f32 0x00000000#32)) hb

/-- The kernel's named reciprocal denotes the rational 1/5120, by the certificate's table of named constants. -/
theorem inv_5120 :
    Named.named (F := Ideal) Cert.KernelIdeal.κ "inv_5120" (φ := .f32) 0x394CCCCD#32 = ((1 / 5120 : ℝ) : EReal) :=
  IdealRules.named_const.ideal_named_scalar _ _ _ _ rfl

/-- One accumulator step at row p, with the product by 1/5120 read as the quotient by 5120. -/
theorem pay1_div_apply (v18 : FVec Ideal S512x512 .f32) (v37 : IVec S512x512 1) (v38 : Vec Ideal S1x1 .f32) (v49 : Vec Ideal S512x1 .f32) (p : Fin 512) :
    k0_pay1 (F := Ideal) v18 v37 v38 v49 (ix2 p 0)
      = v49 (ix2 p 0) + ∑ q : Fin 512, Scalar.select (v37 (ix2 p q))
          (Ideal.exp (Ideal.div (v18 (ix2 p q) - Ideal.ofBits .f32 0x40000000#32 * v38 (ix2 0 0)) (Ideal.ofBits .f32 0x45A00000#32)))
          (Ideal.ofBits .f32 0x00000000#32) := by
  rw [pay1_apply, inv_5120]
  refine congrArg (fun a : EReal => v49 (ix2 p 0) + a) (Finset.sum_congr rfl fun q _ => ?_)
  rw [mul_inv_5120]

end Cert.Pairwise.Tile

end
-- ==== Proof.TileRow.lean ====
/-
  One grid point's accumulator update is one step of the tiled row sum.

  At grid point (I, J) the kernel's blocks are tiles of the whole arrays: feature rows 512·I + p and 512·J + q, the row
  sums of squares and the labels at those rows, and the scalar bar. Reading the squared-distance tile, the mask tile
  and the accumulator step one entry at a time, the new accumulator entry of row p is the old one plus
  Σ_{q < 512} of the specification's summand of the pair (512·I + p, 512·J + q): the lane sum of column tile J.
-/
import proofs.«116593_j68178310857069_1_alg».proof.Proof.PairSpec
import proofs.«116593_j68178310857069_1_alg».proof.Proof.TileValue

noncomputable section

open scoped BigOperators

namespace Cert.Pairwise.Tile

open Idealize.ShloMosaic Idealize.ShloMosaic.ValueIdx Cert.KernelIdeal Cert.KernelIdeal.Gen Cert.Pairwise

/-- When the blocks at grid point i = (I, J) are the tiles of whole arrays — feature rows 512·I + p and 512·J + q, the
    row sums of squares and the labels at those rows, the scalar bar — one accumulator step adds to the old entry of
    row p the lane sum, over column tile J, of the specification's summands of row 512·I + p. -/
theorem step_eq (f : SFeat.Idx → EReal) (sq : SRow.Idx → EReal) (t : SRow.Idx → BitVec 32) (bar : EReal)
    (i : grid0.Coords) (I J : Fin 8) (hI : (i 0).val = I.val) (hJ : (i 1).val = J.val)
    (v3 v5 : Vec Ideal S512x512 .f32) (v9 : Vec Ideal S512x1 .f32) (v11 : Vec Ideal S1x512 .f32)
    (v19 : Vec Ideal S512x1 .i32) (v21 : Vec Ideal S1x512 .i32) (v38 : Vec Ideal S1x1 .f32) (v49 : Vec Ideal S512x1 .f32)
    (h3 : ∀ (p : Fin 512) (k : Fin 512), v3 (ix2 p k) = f (ix2 (tileIx I p) k))
    (h5 : ∀ (q : Fin 512) (k : Fin 512), v5 (ix2 q k) = f (ix2 (tileIx J q) k))
    (h9 : ∀ p : Fin 512, v9 (ix2 p 0) = sq (ix1 (tileIx I p)))
    (h11 : ∀ q : Fin 512, v11 (ix2 0 q) = sq (ix1 (tileIx J q)))
    (h19 : ∀ p : Fin 512, v19 (ix2 p 0) = t (ix1 (tileIx I p)))
    (h21 : ∀ q : Fin 512, v21 (ix2 0 q) = t (ix1 (tileIx J q)))
    (h38 : v38 (ix2 0 0) = bar) (p : Fin 512) :
    k0_pay1 (F := Ideal) (k0_pay4 (F := Ideal) v3 v5 v9 v11) (k0_pay5 (F := Ideal) i v19 v21) v38 v49 (ix2 p 0)
      = v49 (ix2 p 0) + tileSum (term f sq t bar (tileIx I p)) J := by
  rw [pay1_div_apply]
  refine congrArg (fun a : EReal => v49 (ix2 p 0) + a) (Finset.sum_congr rfl fun q _ => ?_)
  rw [pay4_apply, pay5_apply, h9, h11, h19, h21, h38, hI, hJ]
  unfold term dist2 mask
  refine congrArg (fun a : EReal => Scalar.select _ (Ideal.exp (Ideal.div ((_ - Ideal.ofBits .f32 0x40000000#32 * a) - _) _)) _)
    (Finset.sum_congr rfl fun k _ => ?_)
  rw [h3, h5]

end Cert.Pairwise.Tile

end
-- ==== Proof.RowValue.lean ====
/-
  What the region's result array holds, at the ideal instance. Row tile I and column tile J of the 8 × 8 grid read rows
  512·I … of the feature matrix and of the column of squared norms and targets, and rows 512·J … as the column side.
  After column tile J the accumulator's entry p is the sum of the masked exponentials of row 512·I + p against the first
  512·(J + 1) columns; after the last column tile the logarithm of one plus it is written to rows 512·I … of the result.
  The eight write-backs tile the result, so it ends as the row function of the whole arrays.
-/
import proofs.«116593_j68178310857069_1_alg».proof.Proof.RegionData
import proofs.«116593_j68178310857069_1_alg».proof.Proof.EntryValues
import proofs.«116593_j68178310857069_1_alg».proof.Proof.TileRow
import Idealize.ShloMosaic.Lib.Pipeline.Value

set_option maxRecDepth 16384

noncomputable section

namespace Cert.KernelIdeal.Region

open Idealize.ShloMosaic Idealize.ShloMosaic.TcCoe Idealize.SL.Sem
open Idealize.ShloMosaic.Pipeline (Dat)
open Cert.KernelIdeal Cert.KernelIdeal.Gen ValueIdx Cert.Pairwise Cert.Pairwise.Tile

variable (m : (ℓ : Loc nD τ sig) → Buf (Elt Ideal) ℓ)

/-- The grid's points: row tile, column tile. -/
theorem coords_val : ∀ t : Fin cfg0.N, (grid0.coords t 0).val = t.val / 8 ∧ (grid0.coords t 1).val = t.val % 8 :=
  (by decide +kernel : ∀ t : Fin grid0.N, (grid0.coords t 0).val = t.val / 8 ∧ (grid0.coords t 1).val = t.val % 8)

/-- The printed index maps over the grid: the row-side windows follow the row tile, the column-side ones the column tile. -/
theorem index_facts : ∀ t : Fin cfg0.N,
    (win0_0.index t (0 : Fin 2) = t.val / 8 ∧ win0_0.index t (1 : Fin 2) = 0)
    ∧ (win0_1.index t (0 : Fin 2) = t.val % 8 ∧ win0_1.index t (1 : Fin 2) = 0)
    ∧ (win0_2.index t (0 : Fin 2) = t.val / 8 ∧ win0_2.index t (1 : Fin 2) = 0)
    ∧ (win0_3.index t (0 : Fin 2) = 0 ∧ win0_3.index t (1 : Fin 2) = t.val % 8)
    ∧ (win0_4.index t (0 : Fin 2) = t.val / 8 ∧ win0_4.index t (1 : Fin 2) = 0)
    ∧ (win0_5.index t (0 : Fin 2) = 0 ∧ win0_5.index t (1 : Fin 2) = t.val % 8)
    ∧ (win0_6.index t (0 : Fin 2) = 0 ∧ win0_6.index t (1 : Fin 2) = 0)
    ∧ (win0_7.index t (0 : Fin 2) = t.val / 8 ∧ win0_7.index t (1 : Fin 2) = 0) :=
  (by decide +kernel : ∀ t : Fin grid0.N, _)

/-! ## The windows' blocks at coordinates -/

theorem blk0 (c : Dev nD) (t : Fin cfg0.N) (I : Fin 8) (hI : t.val / 8 = I.val) (p k : Fin 512) :
    (iblk m c 0 t : Vec Ideal S512x512 .f32) (ix2 p k) = (V m c main_arg1 : S4096x512.Idx → EReal) (ix2 (tileIx I p) k) := by
  obtain ⟨⟨e0, e1⟩, -⟩ := index_facts t
  unfold iblk
  rw [View.read_apply]
  show V m c main_arg1 _ = V m c main_arg1 _
  congr 1
  funext a; apply Fin.ext
  match a with
  | ⟨0, _⟩ => show win0_0.index t (0 : Fin 2) * 512 + 1 * p.val = 512 * I.val + p.val; rw [e0, hI]; omega
  | ⟨1, _⟩ => show win0_0.index t (1 : Fin 2) * 512 + 1 * k.val = k.val; rw [e1]; omega

theorem blk1 (c : Dev nD) (t : Fin cfg0.N) (J : Fin 8) (hJ : t.val % 8 = J.val) (q k : Fin 512) :
    (iblk m c 1 t : Vec Ideal S512x512 .f32) (ix2 q k) = (V m c main_arg1 : S4096x512.Idx → EReal) (ix2 (tileIx J q) k) := by
  obtain ⟨-, ⟨e0, e1⟩, -⟩ := index_facts t
  unfold iblk
  rw [View.read_apply]
  show V m c main_arg1 _ = V m c main_arg1 _
  congr 1
  funext a; apply Fin.ext
  match a with
  | ⟨0, _⟩ => show win0_1.index t (0 : Fin 2) * 512 + 1 * q.val = 512 * J.val + q.val; rw [e0, hJ]; omega
  | ⟨1, _⟩ => show win0_1.index t (1 : Fin 2) * 512 + 1 * k.val = k.val; rw [e1]; omega

theorem blk2 (c : Dev nD) (t : Fin cfg0.N) (I : Fin 8) (hI : t.val / 8 = I.val) (p : Fin 512) :
    (iblk m c 2 t : Vec Ideal S512x1 .f32) (ix2 p (0 : Fin 1)) = (V m c main_v83 : S4096.Idx → EReal) (ix1 (tileIx I p)) := by
  obtain ⟨-, -, ⟨e0, e1⟩, -⟩ := index_facts t
  rw [← sq_col m c (tileIx I p)]
  unfold iblk
  rw [View.read_apply]
  show V m c main_v84 _ = V m c main_v84 _
  congr 1
  funext a; apply Fin.ext
  match a with
  | ⟨0, _⟩ => show win0_2.index t (0 : Fin 2) * 512 + 1 * p.val = 512 * I.val + p.val; rw [e0, hI]; omega
  | ⟨1, _⟩ => show win0_2.index t (1 : Fin 2) * 1 + 1 * 0 = 0; rw [e1]

theorem blk3 (c : Dev nD) (t : Fin cfg0.N) (J : Fin 8) (hJ : t.val % 8 = J.val) (q : Fin 512) :
    (iblk m c 3 t : Vec Ideal S1x512 .f32) (ix2 (0 : Fin 1) q) = (V m c main_v83 : S4096.Idx → EReal) (ix1 (tileIx J q)) := by
  obtain ⟨-, -, -, ⟨e0, e1⟩, -⟩ := index_facts t
  rw [← sq_row m c (tileIx J q)]
  unfold iblk
  rw [View.read_apply]
  show V m c main_v85 _ = V m c main_v85 _
  congr 1
  funext a; apply Fin.ext
  match a with
  | ⟨0, _⟩ => show win0_3.index t (0 : Fin 2) * 1 + 1 * 0 = 0; rw [e0]
  | ⟨1, _⟩ => show win0_3.index t (1 : Fin 2) * 512 + 1 * q.val = 512 * J.val + q.val; rw [e1, hJ]; omega

theorem blk4 (c : Dev nD) (t : Fin cfg0.N) (I : Fin 8) (hI : t.val / 8 = I.val) (p : Fin 512) :
    (iblk m c 4 t : Vec Ideal S512x1 .i32) (ix2 p (0 : Fin 1)) = (V m c main_arg4 : S4096.Idx → BitVec 32) (ix1 (tileIx I p)) := by
  obtain ⟨-, -, -, -, ⟨e0, e1⟩, -⟩ := index_facts t
  rw [← tg_col m c (tileIx I p)]
  unfold iblk
  rw [View.read_apply]
  show V m c main_v86 _ = V m c main_v86 _
  congr 1
  funext a; apply Fin.ext
  match a with
  | ⟨0, _⟩ => show win0_4.index t (0 : Fin 2) * 512 + 1 * p.val = 512 * I.val + p.val; rw [e0, hI]; omega
  | ⟨1, _⟩ => show win0_4.index t (1 : Fin 2) * 1 + 1 * 0 = 0; rw [e1]

theorem blk5 (c : Dev nD) (t : Fin cfg0.N) (J : Fin 8) (hJ : t.val % 8 = J.val) (q : Fin 512) :
    (iblk m c 5 t : Vec Ideal S1x512 .i32) (ix2 (0 : Fin 1) q) = (V m c main_arg4 : S4096.Idx → BitVec 32) (ix1 (tileIx J q)) := by
  obtain ⟨-, -, -, -, -, ⟨e0, e1⟩, -⟩ := index_facts t
  rw [← tg_row m c (tileIx J q)]
  unfold iblk
  rw [View.read_apply]
  show V m c main_v87 _ = V m c main_v87 _
  congr 1
  funext a; apply Fin.ext
  match a with
  | ⟨0, _⟩ => show win0_5.index t (0 : Fin 2) * 1 + 1 * 0 = 0; rw [e0]
  | ⟨1, _⟩ => show win0_5.index t (1 : Fin 2) * 512 + 1 * q.val = 512 * J.val + q.val; rw [e1, hJ]; omega

theorem blk6 (c : Dev nD) (t : Fin cfg0.N) :
    (iblk m c 6 t : Vec Ideal S1x1 .f32) (ix2 (0 : Fin 1) (0 : Fin 1)) = (V m c main_v81 : S_.Idx → EReal) ix0 := by
  obtain ⟨-, -, -, -, -, -, ⟨e0, e1⟩, -⟩ := index_facts t
  rw [← bar_cell m c]
  unfold iblk
  rw [View.read_apply]
  show V m c main_v88 _ = V m c main_v88 _
  congr 1
  funext a; apply Fin.ext
  match a with
  | ⟨0, _⟩ => show win0_6.index t (0 : Fin 2) * 1 + 1 * 0 = 0; rw [e0]
  | ⟨1, _⟩ => show win0_6.index t (1 : Fin 2) * 1 + 1 * 0 = 0; rw [e1]

/-! ## The accumulator, point by point -/

/-- The arrays the region computes with: features, squared norms, targets, mean variance. -/
abbrev feat (c : Dev nD) : SFeat.Idx → EReal := (V m c main_arg1 : S4096x512.Idx → EReal)
abbrev sqn (c : Dev nD) : SRow.Idx → EReal := (V m c main_v83 : S4096.Idx → EReal)
abbrev tgt (c : Dev nD) : SRow.Idx → BitVec 32 := (V m c main_arg4 : S4096.Idx → BitVec 32)
abbrev bar (c : Dev nD) : EReal := (V m c main_v81 : S_.Idx → EReal) ix0
/-- The zero word the accumulator restarts from. -/
abbrev zeroW : EReal := Ideal.ofBits .f32 0x00000000#32

/-- One point's update at entry p: the column tile's partial sum is added. -/
theorem step_apply (c : Dev nD) (t : Fin cfg0.N) (I J : Fin 8) (hI : t.val / 8 = I.val) (hJ : t.val % 8 = J.val)
    (acc : Vec Ideal S512x1 .f32) (p : Fin 512) :
    step m c t acc (ix2 p (0 : Fin 1))
      = acc (ix2 p (0 : Fin 1)) + tileSum (term (feat m c) (sqn m c) (tgt m c) (bar m c) (tileIx I p)) J := by
  unfold step
  exact step_eq (feat m c) (sqn m c) (tgt m c) (bar m c) (grid0.coords t) I J ((coords_val t).1.trans hI) ((coords_val t).2.trans hJ)
    (iblk m c 0 t) (iblk m c 1 t) (iblk m c 2 t) (iblk m c 3 t) (iblk m c 4 t) (iblk m c 5 t) (iblk m c 6 t) acc
    (fun p k => blk0 m c t I hI p k) (fun q k => blk1 m c t J hJ q k) (fun p => blk2 m c t I hI p) (fun q => blk3 m c t J hJ q)
    (fun p => blk4 m c t I hI p) (fun q => blk5 m c t J hJ q) (blk6 m c t) p

/-- After point n the accumulator's entry p is the row's sum over the column tiles up to n % 8. -/
theorem acc_closed (c : Dev nD) : ∀ (n : ℕ) (hn : n < cfg0.N) (I J : Fin 8) (hI : n / 8 = I.val) (hJ : n % 8 = J.val) (p : Fin 512),
    accAt m c n hn (ix2 p (0 : Fin 1))
      = accUpTo zeroW (term (feat m c) (sqn m c) (tgt m c) (bar m c) (tileIx I p)) (J.val + 1) := by
  intro n
  induction n with
  | zero =>
    intro hn I J hI hJ p
    have hJ0 : J = 0 := Fin.ext (by simpa using hJ.symm)
    subst hJ0
    rw [accAt_first m c ⟨0, hn⟩ (by simp), step_apply m c ⟨0, hn⟩ I 0 hI (by simp) _ p, pay3_apply, accUpTo_succ zeroW _ (0 : Fin 8)]
    simp only [Fin.val_zero, accUpTo_zero]
  | succ n ih =>
    intro hn I J hI hJ p
    have hN : n + 1 < 64 := lt_of_lt_of_eq hn N_0
    by_cases h0 : (n + 1) % 8 = 0
    · have hJ0 : J = 0 := Fin.ext (by have := hJ; simp only [Fin.val_zero]; omega)
      subst hJ0
      rw [accAt_first m c ⟨n + 1, hn⟩ h0, step_apply m c ⟨n + 1, hn⟩ I 0 hI (by simpa using h0) _ p, pay3_apply, accUpTo_succ zeroW _ (0 : Fin 8)]
      simp only [Fin.val_zero, accUpTo_zero]
    · have hJpos : 0 < J.val := by omega
      have hJ8 : J.val < 8 := J.isLt
      rw [accAt_next m c ⟨n + 1, hn⟩ h0, step_apply m c ⟨n + 1, hn⟩ I J hI hJ _ p]
      have hprev := ih (Nat.lt_of_succ_lt hn) I ⟨J.val - 1, by omega⟩ (by show n / 8 = I.val; omega) (by show n % 8 = J.val - 1; omega) p
      have e : (J.val - 1) + 1 = J.val := by omega
      show accAt m c n _ (ix2 p (0 : Fin 1)) + _ = _
      rw [hprev, accUpTo_succ zeroW _ J]
      show accUpTo zeroW _ ((J.val - 1) + 1) + _ = _
      rw [e]

/-! ## The result array -/

/-- The region's result: one entry per row, the logarithm of one plus the row's sum. -/
def rowArr (c : Dev nD) : S4096x1.Idx → EReal := fun j => rowSpec (feat m c) (sqn m c) (tgt m c) (bar m c) (j 0)

/-- What the last column tile of row tile I writes back is rows 512·I … of the result. -/
theorem flushed7 (c : Dev nD) (t : Fin cfg0.N) (hf : (cfg0.win 7).flush t = true) :
    (dats m 0 c).flushed 7 t = ((cfg0.win 7).blk t).view.read (Elt Ideal) (rowArr m c) := by
  have h7 : t.val % 8 = 7 := (flush0_7 t).mp hf
  have hN : t.val < 64 := lt_of_lt_of_eq t.isLt N_0
  obtain ⟨-, -, -, -, -, -, -, ⟨e0, e1⟩⟩ := index_facts t
  show (cfg0.win 7).cut (grid0.coords t) ((dats m 0 c).after 7 t) = _
  rw [after7]
  funext y
  obtain ⟨p, u, rfl⟩ : ∃ (p : Fin 512) (u : Fin 1), y = ix2 p u := ⟨y 0, y 1, eq_ix2 y⟩
  obtain rfl : u = 0 := Subsingleton.elim _ _
  rw [View.read_apply]
  show Ideal.log1p (accAt m c t.val t.isLt (ix2 p (0 : Fin 1))) = rowArr m c _
  rw [acc_closed m c t.val t.isLt ⟨t.val / 8, by omega⟩ 7 rfl h7 p, show ((7 : Fin 8).val + 1) = 8 from rfl, accUpTo_eight_term]
  unfold rowArr rowSpec
  congr 2
  apply Fin.ext
  show 512 * (t.val / 8) + p.val = win0_7.index t (0 : Fin 2) * 512 + 1 * p.val
  rw [e0]; omega

/-- An index of the result is in point t's block iff each coordinate is in the block's range on its axis. -/
theorem mem_blk7 (t : Fin cfg0.N) (i : S4096x1.Idx) :
    i ∈ ((cfg0.win 7).blk t).view.set ↔ ∀ a : Fin 2, win0_7.index t a * S512x1.size a ≤ (i a).val ∧ (i a).val < win0_7.index t a * S512x1.size a + S512x1.size a := by
  show i ∈ ((View.whole main_v89).slice (win0_7.rect t)).set ↔ _
  rw [View.set_slice_whole, Rect.mem_set_unit]
  exact Iff.rfl

/-- The eight write-backs tile the result: row r is written by the last column tile of row tile r / 512. -/
theorem covered7 (i : S4096x1.Idx) : ∃ t : Fin cfg0.N, (cfg0.win 7).flush t = true ∧ i ∈ ((cfg0.win 7).blk t).view.set := by
  have hi0 : (i 0).val < 4096 := (i 0).isLt
  have hi1 : (i 1).val < 1 := (i 1).isLt
  have hN : cfg0.N = 64 := N_0
  refine ⟨⟨8 * ((i 0).val / 512) + 7, by rw [hN]; omega⟩, (flush0_7 _).mpr (by show (8 * ((i 0).val / 512) + 7) % 8 = 7; omega), ?_⟩
  rw [mem_blk7]
  obtain ⟨-, -, -, -, -, -, -, ⟨e0, e1⟩⟩ := index_facts ⟨8 * ((i 0).val / 512) + 7, by rw [hN]; omega⟩
  intro a
  match a with
  | ⟨0, _⟩ =>
    show win0_7.index _ (0 : Fin 2) * 512 ≤ (i 0).val ∧ (i 0).val < win0_7.index _ (0 : Fin 2) * 512 + 512
    rw [e0]; show (8 * ((i 0).val / 512) + 7) / 8 * 512 ≤ (i 0).val ∧ (i 0).val < (8 * ((i 0).val / 512) + 7) / 8 * 512 + 512; omega
  | ⟨1, _⟩ =>
    show win0_7.index _ (1 : Fin 2) * 1 ≤ (i 1).val ∧ (i 1).val < win0_7.index _ (1 : Fin 2) * 1 + 1
    rw [e1]; omega

/-- THE REGION'S RESULT: after the run the output array is the row function of the arrays the region found. -/
theorem final7 (c : Dev nD) : (dats m 0 c).arrAt 7 cfg0.N = rowArr m c :=
  (dats m 0 c).arrAt_eq_of_cover 7 (rowArr m c) (flushed7 m c) covered7

end Cert.KernelIdeal.Region

end
-- ==== Proof.Agree.lean ====
/-
  The two programs begin with the same host operations on the same arguments, so the buffers those operations fill
  hold the same values in both: the class counts, the cross-entropy term, the mean variance, the squared norms.
  Each side's buffer is its operations folded over the launch memory; opened, the two folds are one composed term.
-/
import proofs.«116593_j68178310857069_1_alg».proof.Proof.RegionEntry
import proofs.«116593_j68178310857069_1_alg».proof.Proof.RefRunPatched

set_option maxRecDepth 65536

noncomputable section

namespace Cert.Proof.Agree

open Idealize.ShloMosaic Idealize.ShloMosaic.TcCoe Idealize.SL.Sem Idealize.ShloMosaic.StableHlo

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The two launch memories agree on the five arguments. -/
def Same (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)

set_option maxHeartbeats 8000000 in
/-- The class counts: the targets scattered onto zeros. -/
theorem counts_agree (c : Dev Cert.KernelIdeal.nD) (h : Same m m' c) :
    (Cert.KernelIdeal.Region.V m c Cert.KernelIdeal.main_v3 : (⟨⟨1, ![1000]⟩, .f32⟩ : BufTy).Contents (Elt Ideal))
      = StableHlo.after (Cert.ReferenceIdeal.ValueP.ops (F := Ideal)) (launchContents m' c) (Proc.devRef .tc Cert.ReferenceIdeal.main_v3) := by
  obtain ⟨h0, h1, h2, h3, h4⟩ := h
  have e0 : launchContents m' c (Proc.devRef .tc Cert.ReferenceIdeal.main_arg0) = m (c, Proc.devRef .tc Cert.KernelIdeal.main_arg0) := h0
  have e1 : launchContents m' c (Proc.devRef .tc Cert.ReferenceIdeal.main_arg1) = m (c, Proc.devRef .tc Cert.KernelIdeal.main_arg1) := h1
  have e2 : launchContents m' c (Proc.devRef .tc Cert.ReferenceIdeal.main_arg2) = m (c, Proc.devRef .tc Cert.KernelIdeal.main_arg2) := h2
  have e3 : launchContents m' c (Proc.devRef .tc Cert.ReferenceIdeal.main_arg3) = m (c, Proc.devRef .tc Cert.KernelIdeal.main_arg3) := h3
  have e4 : launchContents m' c (Proc.devRef .tc Cert.ReferenceIdeal.main_arg4) = m (c, Proc.devRef .tc Cert.KernelIdeal.main_arg4) := h4
  show StableHlo.after (List.flatten Cert.KernelIdeal.Region.preOps) (fun b => m (c, b)) (Proc.devRef .tc Cert.KernelIdeal.main_v3) = _
  simp only [Cert.KernelIdeal.Region.preOps, Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, List.flatten_cons, List.flatten_nil, List.append_nil, List.cons_append, List.nil_append]
  simp only [Cert.ReferenceIdeal.ValueP.ops]
  after_results_simp
  simp only [e0, e1, e2, e3, e4]
  try rfl

set_option maxHeartbeats 8000000 in
/-- The squared norms of the feature rows. -/
theorem sq_agree (c : Dev Cert.KernelIdeal.nD) (h : Same m m' c) :
    (Cert.KernelIdeal.Region.V m c Cert.KernelIdeal.main_v83 : (⟨⟨1, ![4096]⟩, .f32⟩ : BufTy).Contents (Elt Ideal))
      = StableHlo.after (Cert.ReferenceIdeal.ValueP.ops (F := Ideal)) (launchContents m' c) (Proc.devRef .tc Cert.ReferenceIdeal.main_v83) := by
  obtain ⟨h0, h1, h2, h3, h4⟩ := h
  have e0 : launchContents m' c (Proc.devRef .tc Cert.ReferenceIdeal.main_arg0) = m (c, Proc.devRef .tc Cert.KernelIdeal.main_arg0) := h0
  have e1 : launchContents m' c (Proc.devRef .tc Cert.ReferenceIdeal.main_arg1) = m (c, Proc.devRef .tc Cert.KernelIdeal.main_arg1) := h1
  have e2 : launchContents m' c (Proc.devRef .tc Cert.ReferenceIdeal.main_arg2) = m (c, Proc.devRef .tc Cert.KernelIdeal.main_arg2) := h2
  have e3 : launchContents m' c (Proc.devRef .tc Cert.ReferenceIdeal.main_arg3) = m (c, Proc.devRef .tc Cert.KernelIdeal.main_arg3) := h3
  have e4 : launchContents m' c (Proc.devRef .tc Cert.ReferenceIdeal.main_arg4) = m (c, Proc.devRef .tc Cert.KernelIdeal.main_arg4) := h4
  show StableHlo.after (List.flatten Cert.KernelIdeal.Region.preOps) (fun b => m (c, b)) (Proc.devRef .tc Cert.KernelIdeal.main_v83) = _
  simp only [Cert.KernelIdeal.Region.preOps, Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, List.flatten_cons, List.flatten_nil, List.append_nil, List.cons_append, List.nil_append]
  simp only [Cert.ReferenceIdeal.ValueP.ops]
  after_results_simp
  simp only [e0, e1, e2, e3, e4]
  try rfl

set_option maxHeartbeats 8000000 in
/-- The mean of the updated class variances. -/
theorem bar_agree (c : Dev Cert.KernelIdeal.nD) (h : Same m m' c) :
    (Cert.KernelIdeal.Region.V m c Cert.KernelIdeal.main_v81 : (⟨⟨0, ![]⟩, .f32⟩ : BufTy).Contents (Elt Ideal))
      = StableHlo.after (Cert.ReferenceIdeal.ValueP.ops (F := Ideal)) (launchContents m' c) (Proc.devRef .tc Cert.ReferenceIdeal.main_v81) := by
  obtain ⟨h0, h1, h2, h3, h4⟩ := h
  have e0 : launchContents m' c (Proc.devRef .tc Cert.ReferenceIdeal.main_arg0) = m (c, Proc.devRef .tc Cert.KernelIdeal.main_arg0) := h0
  have e1 : launchContents m' c (Proc.devRef .tc Cert.ReferenceIdeal.main_arg1) = m (c, Proc.devRef .tc Cert.KernelIdeal.main_arg1) := h1
  have e2 : launchContents m' c (Proc.devRef .tc Cert.ReferenceIdeal.main_arg2) = m (c, Proc.devRef .tc Cert.KernelIdeal.main_arg2) := h2
  have e3 : launchContents m' c (Proc.devRef .tc Cert.ReferenceIdeal.main_arg3) = m (c, Proc.devRef .tc Cert.KernelIdeal.main_arg3) := h3
  have e4 : launchContents m' c (Proc.devRef .tc Cert.ReferenceIdeal.main_arg4) = m (c, Proc.devRef .tc Cert.KernelIdeal.main_arg4) := h4
  show StableHlo.after (List.flatten Cert.KernelIdeal.Region.preOps) (fun b => m (c, b)) (Proc.devRef .tc Cert.KernelIdeal.main_v81) = _
  simp only [Cert.KernelIdeal.Region.preOps, Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, List.flatten_cons, List.flatten_nil, List.append_nil, List.cons_append, List.nil_append]
  simp only [Cert.ReferenceIdeal.ValueP.ops]
  after_results_simp
  simp only [e0, e1, e2, e3, e4]
  try rfl

set_option maxHeartbeats 8000000 in
/-- The cross-entropy term: minus the mean log-probability of the targets under the rescaled logits. -/
theorem ce_agree (c : Dev Cert.KernelIdeal.nD) (h : Same m m' c) :
    (Cert.KernelIdeal.Region.V m c Cert.KernelIdeal.main_v79 : (⟨⟨0, ![]⟩, .f32⟩ : BufTy).Contents (Elt Ideal))
      = StableHlo.after (Cert.ReferenceIdeal.ValueP.ops (F := Ideal)) (launchContents m' c) (Proc.devRef .tc Cert.ReferenceIdeal.main_v79) := by
  obtain ⟨h0, h1, h2, h3, h4⟩ := h
  have e0 : launchContents m' c (Proc.devRef .tc Cert.ReferenceIdeal.main_arg0) = m (c, Proc.devRef .tc Cert.KernelIdeal.main_arg0) := h0
  have e1 : launchContents m' c (Proc.devRef .tc Cert.ReferenceIdeal.main_arg1) = m (c, Proc.devRef .tc Cert.KernelIdeal.main_arg1) := h1
  have e2 : launchContents m' c (Proc.devRef .tc Cert.ReferenceIdeal.main_arg2) = m (c, Proc.devRef .tc Cert.KernelIdeal.main_arg2) := h2
  have e3 : launchContents m' c (Proc.devRef .tc Cert.ReferenceIdeal.main_arg3) = m (c, Proc.devRef .tc Cert.KernelIdeal.main_arg3) := h3
  have e4 : launchContents m' c (Proc.devRef .tc Cert.ReferenceIdeal.main_arg4) = m (c, Proc.devRef .tc Cert.KernelIdeal.main_arg4) := h4
  show StableHlo.after (List.flatten Cert.KernelIdeal.Region.preOps) (fun b => m (c, b)) (Proc.devRef .tc Cert.KernelIdeal.main_v79) = _
  simp only [Cert.KernelIdeal.Region.preOps, Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, List.flatten_cons, List.flatten_nil, List.append_nil, List.cons_append, List.nil_append]
  simp only [Cert.ReferenceIdeal.ValueP.ops]
  after_results_simp
  simp only [e0, e1, e2, e3, e4]
  try rfl

end Cert.Proof.Agree

end
-- ==== Proof.RefStages.lean ====
/-
  The reference's run cut after the row.

  The reference is a straight line of 222 host operations; its run leaves every buffer at the fold of the operations'
  results over the launch contents. The first 187 operations end with the row's log1p; the other 35 turn the row into the
  loss. Running the whole line is running the first part and then the second, and the second part reads only four of the
  buffers the first part leaves — the row, the per-label counts, the labels and the first loss term — besides its own
  constants, and writes none of them. So the result buffer holds one fixed function (tailFn) of what those four buffers
  hold after the whole run.
-/
import proofs.«116593_j68178310857069_1_alg».proof.Proof.RefRunPatched
import proofs.«116593_j68178310857069_1_alg».proof.Proof.RefReadPatched
import Idealize.ShloMosaic.Lib.Pipeline.Frame

noncomputable section

namespace Cert.ReferenceIdeal.Stages

open Cert.ReferenceIdeal Cert.ReferenceIdeal.Gen Idealize.ShloMosaic Idealize.ShloMosaic.TcCoe Idealize.SL.Sem Idealize.ShloMosaic.StableHlo Cert.ReferenceIdeal.ValueP

variable {F : FTy → Type} [FloatOps F]

/-! ## The operation list cut after the row -/

/-- Running all the operations is running the first 187 and then the other 35. -/
theorem ops_split (V : Valuation τ sig (Elt F)) :
    after (ops (F := F)) V = after ((ops (F := F)).drop 187) (after ((ops (F := F)).take 187) V) := by
  rw [← StableHlo.after_append, List.take_append_drop]

/-- The other 35 operations, spelt out. -/
theorem tail_ops : (ops (F := F)).drop 187 =
  [ nullary main_c_33 (constantI S_ 32 0#32),
    unary main_c_33 main_v115 (broadcastInDim S4096 ![] bcast_S_S4096 : (⟨S_, .i32⟩ : BufTy).Contents (Elt F) → (⟨S4096, .i32⟩ : BufTy).Contents (Elt F)),
    binary main_arg4 main_v115 main_v116 (cmpi .slt : (⟨S4096, .i32⟩ : BufTy).Contents (Elt F) → (⟨S4096, .i32⟩ : BufTy).Contents (Elt F) → (⟨S4096, .i1⟩ : BufTy).Contents (Elt F)),
    nullary main_c_34 (constantI S_ 32 1000#32),
    unary main_c_34 main_v117 (broadcastInDim S4096 ![] bcast_S_S4096 : (⟨S_, .i32⟩ : BufTy).Contents (Elt F) → (⟨S4096, .i32⟩ : BufTy).Contents (Elt F)),
    binary main_arg4 main_v117 main_v118 (addi : (⟨S4096, .i32⟩ : BufTy).Contents (Elt F) → (⟨S4096, .i32⟩ : BufTy).Contents (Elt F) → (⟨S4096, .i32⟩ : BufTy).Contents (Elt F)),
    ternary main_v116 main_v118 main_arg4 main_v119 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v119 main_v120 (broadcastInDim S4096x1 ![0] bcast_S4096_S4096x1_0 : (⟨S4096, .i32⟩ : BufTy).Contents (Elt F) → (⟨S4096x1, .i32⟩ : BufTy).Contents (Elt F)),
    binary main_v3 main_v120 main_v121 ((fun x i => Host.gather gather_S1000_S4096x1_S4096_n_0_n_n_0_1_1 x i) : (⟨S1000, .f32⟩ : BufTy).Contents (Elt F) → (⟨S4096x1, .i32⟩ : BufTy).Contents (Elt F) → (⟨S4096, .f32⟩ : BufTy).Contents (Elt F)),
    nullary main_cst_35 (constant S_ .f32 0x3F800000#32),
    unary main_cst_35 main_v122 (broadcastInDim S4096 ![] bcast_S_S4096 : (⟨S_, .f32⟩ : BufTy).Contents (Elt F) → (⟨S4096, .f32⟩ : BufTy).Contents (Elt F)),
    binary main_v121 main_v122 main_v123 (cmpf .ogt : (⟨S4096, .f32⟩ : BufTy).Contents (Elt F) → (⟨S4096, .f32⟩ : BufTy).Contents (Elt F) → (⟨S4096, .i1⟩ : BufTy).Contents (Elt F)),
    nullary main_cst_36 (constant S_ .f32 0x00000000#32),
    TRef.unary (TRef.of (T := ⟨S_, .f32⟩) main_cst_36) (TRef.of (T := ⟨S_, .f32⟩) main_call7_v0) id,
    TRef.unary (TRef.of (T := ⟨S_, .f32⟩) main_call7_v0) (TRef.of (T := ⟨S4096, .f32⟩) main_call7_v1) (broadcastInDim S4096 ![] bcast_S_S4096),
    TRef.ternary (TRef.of (T := ⟨S4096, .i1⟩) main_v123) (TRef.of (T := ⟨S4096, .f32⟩) main_v114) (TRef.of (T := ⟨S4096, .f32⟩) main_call7_v1) (TRef.of (T := ⟨S4096, .f32⟩) main_v124) select,
    nullary main_cst_37 (constant S_ .f32 0x00000000#32),
    unary main_cst_37 main_v125 (broadcastInDim S1000 ![] bcast_S_S1000 : (⟨S_, .f32⟩ : BufTy).Contents (Elt F) → (⟨S1000, .f32⟩ : BufTy).Contents (Elt F)),
    unary main_arg4 main_v126 (broadcastInDim S4096x1 ![0] bcast_S4096_S4096x1_0 : (⟨S4096, .i32⟩ : BufTy).Contents (Elt F) → (⟨S4096x1, .i32⟩ : BufTy).Contents (Elt F)),
    ternary main_v125 main_v126 main_v124 main_v127 ((fun x i u => Host.scatterAdd scatter_S1000_S4096x1_S4096_n_0_0_1 x i u) : (⟨S1000, .f32⟩ : BufTy).Contents (Elt F) → (⟨S4096x1, .i32⟩ : BufTy).Contents (Elt F) → (⟨S4096, .f32⟩ : BufTy).Contents (Elt F) → (⟨S1000, .f32⟩ : BufTy).Contents (Elt F)),
    nullary main_cst_38 (constant S_ .f32 0x3F800000#32),
    unary main_cst_38 main_v128 (broadcastInDim S1000 ![] bcast_S_S1000 : (⟨S_, .f32⟩ : BufTy).Contents (Elt F) → (⟨S1000, .f32⟩ : BufTy).Contents (Elt F)),
    binary main_v3 main_v128 main_v129 (maximumf : (⟨S1000, .f32⟩ : BufTy).Contents (Elt F) → (⟨S1000, .f32⟩ : BufTy).Contents (Elt F) → (⟨S1000, .f32⟩ : BufTy).Contents (Elt F)),
    binary main_v127 main_v129 main_v130 (Host.divf : (⟨S1000, .f32⟩ : BufTy).Contents (Elt F) → (⟨S1000, .f32⟩ : BufTy).Contents (Elt F) → (⟨S1000, .f32⟩ : BufTy).Contents (Elt F)),
    nullary main_cst_39 (constant S_ .f32 0x00000000#32),
    binary main_v130 main_cst_39 main_v131 ((fun x v => Host.reduceAdd x v reducesTo_S1000_S_d0 h_S_) : (⟨S1000, .f32⟩ : BufTy).Contents (Elt F) → (⟨S_, .f32⟩ : BufTy).Contents (Elt F) → (⟨S_, .f32⟩ : BufTy).Contents (Elt F)),
    nullary main_cst_40 (constant S_ .f32 0x44000000#32),
    binary main_v131 main_cst_40 main_v132 (mulf : (⟨S_, .f32⟩ : BufTy).Contents (Elt F) → (⟨S_, .f32⟩ : BufTy).Contents (Elt F) → (⟨S_, .f32⟩ : BufTy).Contents (Elt F)),
    nullary main_cst_41 (constant S_ .f32 0x41200000#32),
    binary main_v132 main_cst_41 main_v133 (Host.divf : (⟨S_, .f32⟩ : BufTy).Contents (Elt F) → (⟨S_, .f32⟩ : BufTy).Contents (Elt F) → (⟨S_, .f32⟩ : BufTy).Contents (Elt F)),
    nullary main_cst_42 (constant S_ .f32 0x447A0000#32),
    binary main_v133 main_cst_42 main_v134 (Host.divf : (⟨S_, .f32⟩ : BufTy).Contents (Elt F) → (⟨S_, .f32⟩ : BufTy).Contents (Elt F) → (⟨S_, .f32⟩ : BufTy).Contents (Elt F)),
    nullary main_cst_43 (constant S_ .f32 0x3DCCCCCD#32),
    binary main_cst_43 main_v134 main_v135 (mulf : (⟨S_, .f32⟩ : BufTy).Contents (Elt F) → (⟨S_, .f32⟩ : BufTy).Contents (Elt F) → (⟨S_, .f32⟩ : BufTy).Contents (Elt F)),
    binary main_v79 main_v135 main_v136 (addf : (⟨S_, .f32⟩ : BufTy).Contents (Elt F) → (⟨S_, .f32⟩ : BufTy).Contents (Elt F) → (⟨S_, .f32⟩ : BufTy).Contents (Elt F)) ] := rfl

/-- The reference's last stretch as one function of the row, the per-label counts, the labels and the first loss term:
    a row enters only where its label's count exceeds one (else zero); the rows are summed per label (a scatter-add
    into 1000 zeros), each label's sum divided by max(count, 1), the 1000 quotients summed from zero, the total times 512,
    divided by 10 and by 1000, times 0.1, and added to the first loss term. The label used to look a count up is the
    label itself, or the label plus 1000 where it is negative. -/
def tailFn (row : (⟨S4096, .f32⟩ : BufTy).Contents (Elt F)) (cnt : (⟨S1000, .f32⟩ : BufTy).Contents (Elt F))
    (t : (⟨S4096, .i32⟩ : BufTy).Contents (Elt F)) (ce : (⟨S_, .f32⟩ : BufTy).Contents (Elt F)) :
    (⟨S_, .f32⟩ : BufTy).Contents (Elt F) :=
  addf (F := F) ce
    (mulf (F := F) (constant (F := F) S_ .f32 0x3DCCCCCD#32)
      (Host.divf (F := F)
        (Host.divf (F := F)
          (mulf (F := F)
            (Host.reduceAdd (F := F)
              (Host.divf (F := F)
                (Host.scatterAdd (F := F) scatter_S1000_S4096x1_S4096_n_0_0_1
                  (broadcastInDim S1000 ![] bcast_S_S1000 (constant (F := F) S_ .f32 0x00000000#32))
                  (broadcastInDim S4096x1 ![0] bcast_S4096_S4096x1_0 t)
                  (select
                    (cmpf (F := F) .ogt
                      (Host.gather gather_S1000_S4096x1_S4096_n_0_n_n_0_1_1 cnt
                        (broadcastInDim S4096x1 ![0] bcast_S4096_S4096x1_0
                          (select (cmpi .slt t (broadcastInDim S4096 ![] bcast_S_S4096 (constantI S_ 32 0#32)))
                            (addi t (broadcastInDim S4096 ![] bcast_S_S4096 (constantI S_ 32 1000#32))) t)))
                      (broadcastInDim S4096 ![] bcast_S_S4096 (constant (F := F) S_ .f32 0x3F800000#32)))
                    row
                    (broadcastInDim S4096 ![] bcast_S_S4096 (id (constant (F := F) S_ .f32 0x00000000#32)))))
                (maximumf (F := F) cnt (broadcastInDim S1000 ![] bcast_S_S1000 (constant (F := F) S_ .f32 0x3F800000#32))))
              (constant (F := F) S_ .f32 0x00000000#32) reducesTo_S1000_S_d0 h_S_)
            (constant (F := F) S_ .f32 0x44000000#32))
          (constant (F := F) S_ .f32 0x41200000#32))
        (constant (F := F) S_ .f32 0x447A0000#32)))

set_option maxHeartbeats 4000000 in
/-- From any buffer contents, the last 35 operations leave in the result buffer the last stretch's function of the row
    buffer, the counts buffer, the labels and the first loss term's buffer. -/
theorem tail_eq (Rm : Valuation τ sig (Elt F)) :
    after ((ops (F := F)).drop 187) Rm (Proc.devRef .tc main_v136)
      = tailFn (Rm (Proc.devRef .tc main_v114)) (Rm (Proc.devRef .tc main_v3)) (Rm (Proc.devRef .tc main_arg4))
          (Rm (Proc.devRef .tc main_v79)) := by
  rw [tail_ops]
  after_results_simp
  rfl

set_option maxHeartbeats 4000000 in
/-- The last 35 operations write none of the row, the counts, the labels and the first loss term. -/
theorem tail_keeps (Rm : Valuation τ sig (Elt F)) :
    after ((ops (F := F)).drop 187) Rm (Proc.devRef .tc main_v114) = Rm (Proc.devRef .tc main_v114)
    ∧ after ((ops (F := F)).drop 187) Rm (Proc.devRef .tc main_v3) = Rm (Proc.devRef .tc main_v3)
    ∧ after ((ops (F := F)).drop 187) Rm (Proc.devRef .tc main_arg4) = Rm (Proc.devRef .tc main_arg4)
    ∧ after ((ops (F := F)).drop 187) Rm (Proc.devRef .tc main_v79) = Rm (Proc.devRef .tc main_v79) := by
  rw [tail_ops]
  refine ⟨?_, ?_, ?_, ?_⟩ <;> after_results_simp

/-- After all the operations the result buffer holds the last stretch's function of what the row's, the counts', the
    labels' and the first loss term's buffers hold. -/
theorem result_tail (m : (ℓ : Loc nD τ sig) → Buf (Elt F) ℓ) (c : Dev nD) :
    after (ops (F := F)) (launchContents m c) (Proc.devRef .tc main_v136)
      = tailFn (after (ops (F := F)) (launchContents m c) (Proc.devRef .tc main_v114))
          (after (ops (F := F)) (launchContents m c) (Proc.devRef .tc main_v3))
          (after (ops (F := F)) (launchContents m c) (Proc.devRef .tc main_arg4))
          (after (ops (F := F)) (launchContents m c) (Proc.devRef .tc main_v79)) := by
  obtain ⟨k1, k2, k3, k4⟩ := tail_keeps (F := F) (after ((ops (F := F)).take 187) (launchContents m c))
  rw [ops_split (F := F) (launchContents m c), tail_eq, k1, k2, k3, k4]

end Cert.ReferenceIdeal.Stages

end
-- ==== Proof.RefStagesRow.lean ====
/-
  The row, the row sums of squares and the scalar after the reference's whole run.

  Each buffer ends at the fold of the operations over the launch contents; followed back from one buffer the fold is
  the composition of the operations in that buffer's cone, applied to the argument arrays: for the row's buffer the row
  stage, for the buffer of the row sums of squares and for the scalar's buffer their stages, each as a function of the
  arguments it depends on.
-/
import proofs.«116593_j68178310857069_1_alg».proof.Proof.RefRunPatched
import proofs.«116593_j68178310857069_1_alg».proof.Proof.RefReadPatched
import Idealize.ShloMosaic.Lib.Pipeline.Frame

noncomputable section

namespace Cert.ReferenceIdeal.Stages

open Cert.ReferenceIdeal Cert.ReferenceIdeal.Gen Idealize.ShloMosaic Idealize.ShloMosaic.TcCoe Idealize.SL.Sem Idealize.ShloMosaic.StableHlo Cert.ReferenceIdeal.ValueP

variable {F : FTy → Type} [FloatOps F]

/-! ## The row sums of squares, the scalar and the row after all the operations -/

set_option maxHeartbeats 4000000 in
/-- After all the operations the buffer of the row sums of squares holds that stage of the features. -/
theorem sq_full (m : (ℓ : Loc nD τ sig) → Buf (Elt F) ℓ) (c : Dev nD) :
    after (ops (F := F)) (launchContents m c) (Proc.devRef .tc main_v83)
      = ReadP.val_main_v83 (F := F) (m ((c.tc : Thread nD τ).loc main_arg1)) := by
  after_results_simp
  rfl

set_option maxHeartbeats 4000000 in
/-- After all the operations the scalar's buffer holds that stage of the arguments. -/
theorem bar_full (m : (ℓ : Loc nD τ sig) → Buf (Elt F) ℓ) (c : Dev nD) :
    after (ops (F := F)) (launchContents m c) (Proc.devRef .tc main_v81)
      = ReadP.val_main_v81 (F := F) (m ((c.tc : Thread nD τ).loc main_arg1)) (m ((c.tc : Thread nD τ).loc main_arg2))
          (m ((c.tc : Thread nD τ).loc main_arg3)) (m ((c.tc : Thread nD τ).loc main_arg4)) := by
  after_results_simp
  rfl

set_option maxHeartbeats 4000000 in
/-- After all the operations the row's buffer holds the row stage of the arguments. -/
theorem row_full (m : (ℓ : Loc nD τ sig) → Buf (Elt F) ℓ) (c : Dev nD) :
    after (ops (F := F)) (launchContents m c) (Proc.devRef .tc main_v114)
      = ReadP.val_main_v114 (F := F) (m ((c.tc : Thread nD τ).loc main_arg1)) (m ((c.tc : Thread nD τ).loc main_arg2))
          (m ((c.tc : Thread nD τ).loc main_arg3)) (m ((c.tc : Thread nD τ).loc main_arg4)) := by
  after_results_simp
  rfl

end Cert.ReferenceIdeal.Stages

end
-- ==== Proof.RefRow.lean ====
/-
  The reference's row is the specification's row.

  The reference computes the whole 4096 × 4096 table at once: the row sums of squares broadcast along rows and along
  columns and added, minus twice the product of the features with their transpose, shifted by twice the scalar,
  divided by 5120, exponentiated, masked by "labels agree and the row position is not the column position" (the two
  positions from two iotas, the first plus a zero word), summed along each row from the zero word, and log1p of that.
  Read one entry at a time each stage is one operation on the extended reals at the entries its layout operations
  name, so entry (r, c) of the masked table is the specification's summand of the pair (r, c) and row r of the result is
  the specification's row — of the features, the row sums of squares the reference computes from them, the labels and
  the scalar the reference computes.
-/
import proofs.«116593_j68178310857069_1_alg».proof.Proof.PairSpec
import proofs.«116593_j68178310857069_1_alg».proof.Proof.RefReadPatched

noncomputable section

open scoped BigOperators

namespace Cert.Pairwise.Ref

open Idealize.ShloMosaic Idealize.ShloMosaic.ValueIdx Cert.ReferenceIdeal Cert.ReferenceIdeal.ReadP Cert.Pairwise

variable (x1 : (⟨S4096x512, .f32⟩ : BufTy).Contents (Elt Ideal)) (x2 x3 : (⟨S1000, .f32⟩ : BufTy).Contents (Elt Ideal))
  (x4 : (⟨S4096, .i32⟩ : BufTy).Contents (Elt Ideal))

/-- The reference's squared-distance array at (r, c): the two broadcasts of the row sums of squares read rows r and c,
    the dot_general with the transposed features is the inner product of rows r and c. -/
theorem dist2_at (r c : Fin 4096) :
    val_main_v93 (F := Ideal) x1 (ix2 r c) = dist2 x1 (val_main_v83 (F := Ideal) x1) r c := by
  have e86 : idx_main_v84 (idx_main_v86 (ix2 r c)) = ix1 r :=
    funext fun a => Fin.ext (by match a with | ⟨0, _⟩ => rfl)
  have e87 : idx_main_v85 (idx_main_v87 (ix2 r c)) = ix1 c :=
    funext fun a => Fin.ext (by match a with | ⟨0, _⟩ => rfl)
  have el : ∀ k : Fin 512, lidx_main_v90 (ix2 r c) k = ix2 r k := fun k =>
    funext fun a => Fin.ext (by match a with | ⟨0, _⟩ => rfl | ⟨1, _⟩ => rfl)
  have er : ∀ k : Fin 512, idx_main_v89 (ridx_main_v90 (ix2 r c) k) = ix2 c k := fun k =>
    funext fun a => Fin.ext (by match a with | ⟨0, _⟩ => rfl | ⟨1, _⟩ => rfl)
  rw [val_main_v93_apply, val_main_v88_apply, val_main_v86_apply, val_main_v84_apply, val_main_v87_apply,
    val_main_v85_apply, val_main_v92_apply, val_main_v91_apply, val_main_cst_27_apply, val_main_v90_apply, e86, e87]
  unfold dist2
  refine congrArg (fun a : EReal => (val_main_v83 (F := Ideal) x1 (ix1 r) + val_main_v83 (F := Ideal) x1 (ix1 c))
    - Ideal.ofBits .f32 0x40000000#32 * a) (Finset.sum_congr rfl fun k _ => ?_)
  rw [val_main_v89_apply, el, er]

/-- The reference's mask array at (r, c): labels of r and c agree, and position r (plus the zero word) is not position c. -/
theorem mask_at (r c : Fin 4096) : val_main_v105 (F := Ideal) x4 (ix2 r c) = mask x4 r c := by
  have e96 : idx_main_v94 (idx_main_v96 (ix2 r c)) = ix1 r :=
    funext fun a => Fin.ext (by match a with | ⟨0, _⟩ => rfl)
  have e97 : idx_main_v95 (idx_main_v97 (ix2 r c)) = ix1 c :=
    funext fun a => Fin.ext (by match a with | ⟨0, _⟩ => rfl)
  rw [val_main_v105_apply, val_main_v98_apply, val_main_v96_apply, val_main_v94_apply, val_main_v97_apply,
    val_main_v95_apply, val_main_v104_apply, val_main_v103_apply, val_main_v102_apply, val_main_v99_apply,
    val_main_v100_apply, val_main_v101_apply, val_main_c_28_apply, e96, e97, addi_zero]
  rfl

/-- The reference's summand array at (r, c) is the specification's summand. -/
theorem term_at (r c : Fin 4096) :
    val_main_v112 (F := Ideal) x1 x2 x3 x4 (ix2 r c)
      = term x1 (val_main_v83 (F := Ideal) x1) x4 (val_main_v81 (F := Ideal) x1 x2 x3 x4 ix0) r c := by
  rw [val_main_v112_apply, mask_at, val_main_v111_apply, val_main_v110_apply, val_main_v108_apply, dist2_at,
    val_main_v107_apply, val_main_v106_apply, val_main_cst_29_apply, val_main_v109_apply, val_main_cst_30_apply,
    val_main_call6_v1_apply, val_main_call6_v0_apply, val_main_cst_31_apply]
  rfl

/-- The reference's row r is the specification's row r, of the features, their row sums of squares, the labels and the
    scalar the reference computes. -/
theorem row_eq (r : Fin 4096) :
    val_main_v114 (F := Ideal) x1 x2 x3 x4 (ix1 r)
      = rowSpec x1 (val_main_v83 (F := Ideal) x1) x4 (val_main_v81 (F := Ideal) x1 x2 x3 x4 ix0) r := by
  have e : ∀ c : Fin 4096, idx_main_v113 (ix1 r) c = ix2 r c := fun c =>
    funext fun a => Fin.ext (by match a with | ⟨0, _⟩ => rfl | ⟨1, _⟩ => rfl)
  rw [val_main_v114_apply, val_main_v113_apply, val_main_cst_32_apply]
  unfold rowSpec rowSum
  refine congrArg (fun a : EReal => Ideal.log1p (Ideal.ofBits .f32 0x00000000#32 + a)) (Finset.sum_congr rfl fun c _ => ?_)
  rw [e, term_at]

/-- The same at an index of the result's shape. -/
theorem row_eq_idx (j : S4096.Idx) :
    val_main_v114 (F := Ideal) x1 x2 x3 x4 j
      = rowSpec x1 (val_main_v83 (F := Ideal) x1) x4 (val_main_v81 (F := Ideal) x1 x2 x3 x4 ix0) (j 0) := by
  rw [eq_ix1 j]
  exact row_eq x1 x2 x3 x4 (j 0)

end Cert.Pairwise.Ref

end
-- ==== Proof.RefResult.lean ====
/-
  The reference's result in terms of the specification.

  After the reference's whole run the row's buffer holds, row by row, the specification's row of the features, the row
  sums of squares, the labels and the scalar — the last three as the run itself leaves them in their buffers — and the
  result buffer holds the last stretch's function of those rows, the per-label counts, the labels and the first loss term.
-/
import proofs.«116593_j68178310857069_1_alg».proof.Proof.RefRow
import proofs.«116593_j68178310857069_1_alg».proof.Proof.RefStages
import proofs.«116593_j68178310857069_1_alg».proof.Proof.RefStagesRow
import proofs.«116593_j68178310857069_1_alg».proof.Proof.RefStagesArgs

noncomputable section

namespace Cert.ReferenceIdeal.Stages

open Cert.ReferenceIdeal Cert.ReferenceIdeal.Gen Idealize.ShloMosaic Idealize.ShloMosaic.TcCoe Idealize.SL.Sem Idealize.ShloMosaic.StableHlo Cert.ReferenceIdeal.ValueP Idealize.ShloMosaic.ValueIdx Cert.Pairwise

/-- After the reference's whole run the row's buffer holds the specification's rows, of the features, of what the
    buffer of the row sums of squares and the scalar's buffer hold, and of the labels. -/
theorem row_spec (m : (ℓ : Loc nD τ sig) → Buf (Elt Ideal) ℓ) (c : Dev nD) (j : S4096.Idx) :
    after (ops (F := Ideal)) (launchContents m c) (Proc.devRef .tc main_v114) j
      = rowSpec (m ((c.tc : Thread nD τ).loc main_arg1))
          (after (ops (F := Ideal)) (launchContents m c) (Proc.devRef .tc main_v83))
          (m ((c.tc : Thread nD τ).loc main_arg4))
          (after (ops (F := Ideal)) (launchContents m c) (Proc.devRef .tc main_v81) ix0) (j 0) := by
  rw [row_full, sq_full, bar_full]
  exact Cert.Pairwise.Ref.row_eq_idx _ _ _ _ j

/-- The reference's result: the last stretch's function of the specification's rows, the per-label counts, the labels
    and the first loss term, each as the whole run leaves it. -/
theorem result_spec (m : (ℓ : Loc nD τ sig) → Buf (Elt Ideal) ℓ) (c : Dev nD) :
    after (ops (F := Ideal)) (launchContents m c) (Proc.devRef .tc main_v136)
      = tailFn (F := Ideal)
          (fun j => rowSpec (m ((c.tc : Thread nD τ).loc main_arg1))
            (after (ops (F := Ideal)) (launchContents m c) (Proc.devRef .tc main_v83))
            (m ((c.tc : Thread nD τ).loc main_arg4))
            (after (ops (F := Ideal)) (launchContents m c) (Proc.devRef .tc main_v81) ix0) (j 0))
          (after (ops (F := Ideal)) (launchContents m c) (Proc.devRef .tc main_v3))
          (m ((c.tc : Thread nD τ).loc main_arg4))
          (after (ops (F := Ideal)) (launchContents m c) (Proc.devRef .tc main_v79)) := by
  rw [result_tail, arg_full_4]
  exact congrArg (fun row => tailFn (F := Ideal) row _ _ _) (funext fun j => row_spec m c j)

end Cert.ReferenceIdeal.Stages

end
-- ==== Proof.Bridge.lean ====
/-
  The algebraic claim. Both programs end with the same last host lines applied to the pairwise row, the class counts,
  the targets and the cross-entropy term. The kernel's row is the region's result array, entry r the logarithm of one
  plus row r's sum of masked exponentials, accumulated over eight column tiles with the reciprocal 1/5120 as a factor;
  the reference's is the same sum taken whole with a division by 5120. The other three are the same host values.
-/
import proofs.«116593_j68178310857069_1_alg».proof.Defs
import proofs.«116593_j68178310857069_1_alg».proof.Proof.RegionResult
import proofs.«116593_j68178310857069_1_alg».proof.Proof.RowValue
import proofs.«116593_j68178310857069_1_alg».proof.Proof.Agree
import proofs.«116593_j68178310857069_1_alg».proof.Proof.RefStages
import proofs.«116593_j68178310857069_1_alg».proof.Proof.RefStagesRow
import proofs.«116593_j68178310857069_1_alg».proof.Proof.RefStagesArgs
import proofs.«116593_j68178310857069_1_alg».proof.Proof.RefResult

set_option maxRecDepth 65536

noncomputable section

namespace Cert.Proof.Bridge

open Idealize.ShloMosaic Idealize.ShloMosaic.TcCoe Idealize.SL.Sem Idealize.ShloMosaic.StableHlo
open ValueIdx Cert.Pairwise Cert.Proof.Agree

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

set_option maxHeartbeats 4000000 in
/-- The kernel's last host lines, over any contents of the buffers they read, are the reference's last lines applied to
    the region's result as a vector, the counts, the targets and the cross-entropy term. -/
theorem kernel_tail (Wv : Valuation Cert.KernelIdeal.τ Cert.KernelIdeal.sig (Elt Ideal))
    (row : (⟨Cert.ReferenceIdeal.S4096, .f32⟩ : BufTy).Contents (Elt Ideal)) (cnt : (⟨Cert.ReferenceIdeal.S1000, .f32⟩ : BufTy).Contents (Elt Ideal))
    (t : (⟨Cert.ReferenceIdeal.S4096, .i32⟩ : BufTy).Contents (Elt Ideal)) (ce : (⟨Cert.ReferenceIdeal.S_, .f32⟩ : BufTy).Contents (Elt Ideal))
    (hrow : shapeCast Cert.KernelIdeal.S4096 (Wv (Proc.devRef .tc Cert.KernelIdeal.main_v89) : Cert.KernelIdeal.S4096x1.Idx → EReal) Cert.KernelIdeal.Facts₀.shapeCasts_S4096x1_S4096 = row)
    (hcnt : Wv (Proc.devRef .tc Cert.KernelIdeal.main_v3) = cnt) (ht : Wv (Proc.devRef .tc Cert.KernelIdeal.main_arg4) = t)
    (hce : Wv (Proc.devRef .tc Cert.KernelIdeal.main_v79) = ce) :
    (StableHlo.after (List.flatten Cert.KernelIdeal.Region.postOps) Wv (Proc.devRef .tc Cert.KernelIdeal.main_v112) : (⟨Cert.ReferenceIdeal.S_, .f32⟩ : BufTy).Contents (Elt Ideal))
      = Cert.ReferenceIdeal.Stages.tailFn (F := Ideal) row cnt t ce := by
  subst hrow hcnt ht hce
  simp only [Cert.KernelIdeal.Region.postOps, Cert.KernelIdeal.Gen.hostOps1, Cert.KernelIdeal.Gen.hostOps1_1, Cert.KernelIdeal.Gen.hostOps1_2, List.flatten_cons, List.flatten_nil, List.append_nil, List.cons_append, List.nil_append]
  after_results
  rfl

/-- The region's result as a vector is the reference's row: the same row function of the same features, squared
    norms, targets and mean variance. -/
theorem row_agree (c : Dev Cert.KernelIdeal.nD) (h : Same m m' c) :
    shapeCast Cert.KernelIdeal.S4096 (Cert.KernelIdeal.Region.rowArr m c) Cert.KernelIdeal.Facts₀.shapeCasts_S4096x1_S4096
      = StableHlo.after (Cert.ReferenceIdeal.ValueP.ops (F := Ideal)) (launchContents m' c) (Proc.devRef .tc Cert.ReferenceIdeal.main_v114) := by
  have hs := h
  obtain ⟨h0, h1, h2, h3, h4⟩ := h
  funext j
  have hj : shapeCast Cert.KernelIdeal.S4096 (Cert.KernelIdeal.Region.rowArr m c) Cert.KernelIdeal.Facts₀.shapeCasts_S4096x1_S4096 j = Cert.KernelIdeal.Region.rowArr m c (ix2 (j 0) (0 : Fin 1)) :=
    shapeCast_apply _ _ _ _ (by
      rw [Shape.rowMajor_val_two, Shape.rowMajor_val_one]
      show (j 0).val * 1 + 0 = (j 0).val
      omega)
  rw [hj, Cert.ReferenceIdeal.Stages.row_spec m' c j]
  unfold Cert.KernelIdeal.Region.rowArr
  have ef : Cert.KernelIdeal.Region.feat m c = m' ((c.tc : Thread Cert.ReferenceIdeal.nD Cert.ReferenceIdeal.τ).loc Cert.ReferenceIdeal.main_arg1) := (Cert.KernelIdeal.Region.V_main_arg1 m c).trans h1.symm
  have et : Cert.KernelIdeal.Region.tgt m c = m' ((c.tc : Thread Cert.ReferenceIdeal.nD Cert.ReferenceIdeal.τ).loc Cert.ReferenceIdeal.main_arg4) := (Cert.KernelIdeal.Region.V_main_arg4 m c).trans h4.symm
  have es : Cert.KernelIdeal.Region.sqn m c = StableHlo.after (Cert.ReferenceIdeal.ValueP.ops (F := Ideal)) (launchContents m' c) (Proc.devRef .tc Cert.ReferenceIdeal.main_v83) :=
    sq_agree m m' c hs
  have eb : Cert.KernelIdeal.Region.bar m c = StableHlo.after (Cert.ReferenceIdeal.ValueP.ops (F := Ideal)) (launchContents m' c) (Proc.devRef .tc Cert.ReferenceIdeal.main_v81) ix0 :=
    congrFun (bar_agree m m' c hs) ix0
  rw [ef, et, es, eb]

/-- THE ALGEBRAIC CLAIM: from memories agreeing on the arguments both idealized programs run to the end with the same
    result and their arguments unchanged. -/
theorem algebraic [Cert.KernelIdeal.Facts] [Cert.ReferenceIdeal.Facts] [Cert.Pre_finite_inputs.Facts] : Cert.algebraic_KernelIdeal_ReferenceIdeal := by
  intro m ρ m' ρ' _ hagree
  refine ⟨fun c => Cert.KernelIdeal.Region.Vfin m c Cert.KernelIdeal.main_v112, Cert.KernelIdeal.Region.run_result (F := Ideal) m ρ, ?_⟩
  refine (θ_run Cert.ReferenceIdeal.defs _ _).mono (fun r hr c => ?_) (Cert.ReferenceIdeal.ValueP.run_fold (F := Ideal) m' ρ')
  have hs : Same m m' c := hagree c
  refine ⟨(hr c Cert.ReferenceIdeal.main_v136).trans ?_,
    (hr c Cert.ReferenceIdeal.main_arg0).trans (Cert.ReferenceIdeal.Stages.arg_full_0 m' c), (hr c Cert.ReferenceIdeal.main_arg1).trans (Cert.ReferenceIdeal.Stages.arg_full_1 m' c),
    (hr c Cert.ReferenceIdeal.main_arg2).trans (Cert.ReferenceIdeal.Stages.arg_full_2 m' c), (hr c Cert.ReferenceIdeal.main_arg3).trans (Cert.ReferenceIdeal.Stages.arg_full_3 m' c),
    (hr c Cert.ReferenceIdeal.main_arg4).trans (Cert.ReferenceIdeal.Stages.arg_full_4 m' c)⟩
  rw [Cert.ReferenceIdeal.Stages.result_tail m' c]
  symm
  show StableHlo.after (List.flatten Cert.KernelIdeal.Region.postOps) (Cert.KernelIdeal.Region.Vexit m c) (Proc.devRef .tc Cert.KernelIdeal.main_v112) = _
  refine kernel_tail (Cert.KernelIdeal.Region.Vexit m c) _ _ _ _ ?_ ?_ ?_ ?_
  · rw [Cert.KernelIdeal.Region.Vexit_main_v89, Cert.KernelIdeal.Region.final7]
    exact row_agree m m' c hs
  · exact (Cert.KernelIdeal.Region.Vexit_main_v3 m c).trans (counts_agree m m' c hs)
  · exact (Cert.KernelIdeal.Region.Vexit_main_arg4 m c).trans (hs.2.2.2.2.symm.trans (Cert.ReferenceIdeal.Stages.arg_full_4 m' c).symm)
  · exact (Cert.KernelIdeal.Region.Vexit_main_v79 m c).trans (ce_agree m m' c hs)

end Cert.Proof.Bridge

end
-- ==== Proof.lean ====
/-
  The five conjuncts of the claim, each from its own module.

  The kernel tiles the 4096 × 4096 matrix of pairwise terms into 8 × 8 tiles of 512 × 512: for row tile I it walks the
  column tiles J = 0 … 7, adding to a 512-entry accumulator the lane sums of the masked exponentials
  exp((‖f_r‖² + ‖f_c‖² − 2⟨f_r, f_c⟩ − 2·s̄) · (1/5120)) over same-class pairs r ≠ c, and after the last tile stores log(1 + ·) of it.
  The reference forms the same terms whole, divides by 5120, sums each row and takes log(1 + ·). Around that both programs
  run the same host operations (class statistics, a rescaled log-softmax, the per-class means of the rows).

  · The two frames of the kernel programs: the region is launched with the feature matrix shared by two windows
    (its share split between them), the body's three control cases are run once each, and the scratch accumulator is
    carried between grid points by an invariant; the host lines before and after touch no argument.
  · The reference's frame: its host operations folded over the launch memory never write an argument.
  · The one rewrite of the idealization: the literal that the source spells 1.0 / (10.0 · 512) is read as 1/5120.
  · The algebraic claim: the accumulator after column tile J is the row's partial sum over the first 512·(J + 1) columns;
    sums over the extended reals regroup freely, and x · (1/5120) = x / 5120 for every extended real x.
-/
import proofs.«116593_j68178310857069_1_alg».proof.Defs
import proofs.«116593_j68178310857069_1_alg».proof.Proof.Plain
import proofs.«116593_j68178310857069_1_alg».proof.Proof.WordRegionFrame
import proofs.«116593_j68178310857069_1_alg».proof.Proof.RegionFrame
import proofs.«116593_j68178310857069_1_alg».proof.Proof.RefStagesArgs
import proofs.«116593_j68178310857069_1_alg».proof.Proof.Bridge
import proofs.«116593_j68178310857069_1_alg».proof.Proof.Gen.Kernel
import proofs.«116593_j68178310857069_1_alg».proof.Proof.Gen.KernelIdeal
import proofs.«116593_j68178310857069_1_alg».proof.Proof.Gen.ReferenceIdeal
import proofs.«116593_j68178310857069_1_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Region.frame (F := Bits) m ρ,
    fun m ρ _ => Cert.KernelIdeal.Region.frame (F := Ideal) m ρ,
    fun m ρ _ => Cert.ReferenceIdeal.Stages.frame (F := Ideal) m ρ,
    Cert.Proof.Plain.preserves,
    Cert.Proof.Bridge.algebraic⟩

end Cert.Proof

end
